-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64x64 : Shape := ⟨2, ![64, 64]⟩
abbrev S4096x64 : Shape := ⟨2, ![4096, 64]⟩
abbrev S4096 : Shape := ⟨1, ![4096]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x64 .f32) (main_arg5 : FVec F S4096 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x64 .f32) (main_arg1 : FVec F S8192x64 .f32) (main_arg2 : FVec F S64x64 .f32) (main_arg3 : FVec F S64x64 .f32) (main_arg4 : FVec F S4096x64 .f32) (main_arg5 : FVec F S4096 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S8192x64 : Shape := ⟨2, ![8192, 64]⟩
abbrev S64x64 : Shape := ⟨2, ![64, 64]⟩
abbrev S4096x64 : Shape := ⟨2, ![4096, 64]⟩
abbrev S4096 : Shape := ⟨1, ![4096]⟩
abbrev S_ : Shape := ⟨0, ![]⟩
abbrev S64x4096 : Shape := ⟨2, ![64, 4096]⟩
abbrev S1x4096 : Shape := ⟨2, ![1, 4096]⟩
abbrev S8192x4096 : Shape := ⟨2, ![8192, 4096]⟩
abbrev S1x1 : Shape := ⟨2, ![1, 1]⟩
abbrev S512x64 : Shape := ⟨2, ![512, 64]⟩
abbrev S512x4096 : Shape := ⟨2, ![512, 4096]⟩
abbrev S512 : Shape := ⟨1, ![512]⟩
abbrev S512x1 : Shape := ⟨2, ![512, 1]⟩
abbrev S1 : Shape := ⟨1, ![1]⟩
abbrev S256x4096 : Shape := ⟨2, ![256, 4096]⟩

abbrev nBuf : Space → Nat
  | .hbm => 77
  | .vmem => 17
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64x64, .f32⟩
  | .hbm, ⟨3, _⟩ => ⟨S64x64, .f32⟩
  | .hbm, ⟨4, _⟩ => ⟨S4096x64, .f32⟩
  | .hbm, ⟨5, _⟩ => ⟨S4096, .f32⟩
  | .hbm, ⟨6, _⟩ => ⟨S64x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S4096x64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096x64, .f32⟩
  | .hbm, ⟨54, _⟩ => ⟨S4096x64, .f32⟩
  | .hbm, ⟨55, _⟩ => ⟨S4096x64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4096x64, .f32⟩
  | .hbm, ⟨60, _⟩ => ⟨S4096x64, .f32⟩
  | .hbm, ⟨61, _⟩ => ⟨S_, .f32⟩
  | .hbm, ⟨62, _⟩ => ⟨S4096x64, .f32⟩
  | .hbm, ⟨63, _⟩ => ⟨S4096x64, .f32⟩
  | .hbm, ⟨64, _⟩ => ⟨S4096x64, .f32⟩
  | .hbm, ⟨65, _⟩ => ⟨S4096x64, .f32⟩
  | .hbm, ⟨66, _⟩ => ⟨S64x4096, .f32⟩
  | .hbm, ⟨67, _⟩ => ⟨S1x4096, .f32⟩
  | .hbm, ⟨68, _⟩ => ⟨S8192x4096, .f32⟩
  | .hbm, ⟨69, _⟩ => ⟨S1x1, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1x1, .f32⟩
  | .hbm, ⟨76, _⟩ => ⟨S8192x4096, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S64x64, .f32⟩
  | .local _ .vmem, ⟨5, _⟩ => ⟨S64x64, .f32⟩
  | .local _ .vmem, ⟨6, _⟩ => ⟨S64x4096, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S256x4096, .f32⟩
  | .local _ .vmem, ⟨14, _⟩ => ⟨S256x4096, .f32⟩
  | .local _ .vmem, ⟨15, _⟩ => ⟨S256x4096, .f32⟩
  | .local _ .vmem, ⟨16, _⟩ => ⟨S256x4096, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_cst_6 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_7 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_9 : Ref sig .tc := ⟨.hbm, 47, rfl⟩
abbrev main_v21 : Ref sig .tc := ⟨.hbm, 48, rfl⟩
abbrev main_cst_10 : Ref sig .tc := ⟨.hbm, 49, rfl⟩
abbrev main_v22 : Ref sig .tc := ⟨.hbm, 50, rfl⟩
abbrev main_cst_11 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_12 : Ref sig .tc := ⟨.hbm, 56, rfl⟩
abbrev main_cst_13 : Ref sig .tc := ⟨.hbm, 57, rfl⟩
abbrev main_call5_v0 : Ref sig .tc := ⟨.hbm, 58, rfl⟩
abbrev main_call5_v1 : Ref sig .tc := ⟨.hbm, 59, rfl⟩
abbrev main_call5_v2 : Ref sig .tc := ⟨.hbm, 60, rfl⟩
abbrev main_call5_v3 : Ref sig .tc := ⟨.hbm, 61, rfl⟩
abbrev main_call5_v4 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32_0 : Ref sig .tc := ⟨.hbm, 68, rfl⟩
abbrev main_v32_1 : Ref sig .tc := ⟨.hbm, 69, rfl⟩
abbrev main_v33 : Ref sig .tc := ⟨.hbm, 70, rfl⟩
abbrev main_cst_14 : Ref sig .tc := ⟨.hbm, 71, rfl⟩
abbrev main_v34 : Ref sig .tc := ⟨.hbm, 72, rfl⟩
abbrev main_cst_15 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v36 : BitVec 1 := Scalar.cmpi .eq arg0 c15_i32
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  reducesTo_S64x64_S_d0_1 : S64x64.ReducesTo [0, 1] S_
  h_S_ : 0 < S_.numel
  bcast_S_S64x64 : S_.BroadcastsInDim S64x64 (![] : Fin 0 → Fin S64x64.rank)
  reducesTo_S4096x64_S_d0_1 : S4096x64.ReducesTo [0, 1] S_
  bcast_S_S4096x64 : S_.BroadcastsInDim S4096x64 (![] : Fin 0 → Fin S4096x64.rank)
  transposes_S4096x64_S64x4096_1_0 : S4096x64.Transposes [1, 0] S64x4096
  shapeCasts_S4096_S1x4096 : S4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x64_S512x64_0_0 : ∀ a, (![0, 0] : Fin 2 → Nat) a + S512x64.size a ≤ S512x64.size a
  h_S512x64 : 0 < S512x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  shapeCasts_S_S1x1 : S_.ShapeCasts S1x1
  inpos_S1x1_p0_0 : ∀ a, (![0, 0] : Fin 2 → Nat) a < S1x1.size a
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  dot_S512x64_S64x64_S512x64_1_0_0_1_n_n_wf : DotDims.WF S512x64 S64x64 S512x64 [1] [0] [0] [1] [] []
  dot_S512x64_S64x4096_S512x4096_1_0_0_1_n_n_wf : DotDims.WF S512x64 S64x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .f32 = 32 ∨ (Rect.block (s := S8192x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S8192x64.size a
  hwx0_1 : ∀ i : grid0.Coords, EltTy.bits .f32 = 32 ∨ (Rect.block (s := S8192x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x4096.size a
  hwx0_4 : ∀ i : grid0.Coords, EltTy.bits .f32 = 32 ∨ (Rect.block (s := S64x4096) S64x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x4096.size a ≤ S8192x4096.size a
  hwx0_6 : ∀ i : grid0.Coords, EltTy.bits .f32 = 32 ∨ (Rect.block (s := S8192x4096) S512x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S8192x4096.size a
  hwx1_1 : ∀ i : grid1.Coords, EltTy.bits .f32 = 32 ∨ (Rect.block (s := S8192x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S8192x4096.size a
  hwx1_2 : ∀ i : grid1.Coords, EltTy.bits .f32 = 32 ∨ (Rect.block (s := S8192x4096) S256x4096.size (cc1_transform_2 i) (hinb1_2 i)).WholeWords (EltTy.packing .f32)

variable [Facts₀]

def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S64x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32_0) S512x4096.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v32_1) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v36) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v32_0) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x64 : Shape := ⟨2, ![8192, 64]⟩
abbrev S64x64 : Shape := ⟨2, ![64, 64]⟩
abbrev S4096x64 : Shape := ⟨2, ![4096, 64]⟩
abbrev S4096 : Shape := ⟨1, ![4096]⟩
abbrev S_ : Shape := ⟨0, ![]⟩
abbrev S64x4096 : Shape := ⟨2, ![64, 4096]⟩
abbrev S8192x4096 : Shape := ⟨2, ![8192, 4096]⟩
abbrev S1x4096 : Shape := ⟨2, ![1, 4096]⟩

abbrev nBuf : Space → Nat
  | .hbm => 105
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64x64, .f32⟩
  | .hbm, ⟨3, _⟩ => ⟨S64x64, .f32⟩
  | .hbm, ⟨4, _⟩ => ⟨S4096x64, .f32⟩
  | .hbm, ⟨5, _⟩ => ⟨S4096, .f32⟩
  | .hbm, ⟨6, _⟩ => ⟨S64x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S8192x64, .f32⟩
  | .hbm, ⟨29, _⟩ => ⟨S64x64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S64x64, .f32⟩
  | .hbm, ⟨43, _⟩ => ⟨S64x64, .f32⟩
  | .hbm, ⟨44, _⟩ => ⟨S_, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S8192x64, .f32⟩
  | .hbm, ⟨52, _⟩ => ⟨S8192x64, .f32⟩
  | .hbm, ⟨53, _⟩ => ⟨S4096x64, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096x64, .f32⟩
  | .hbm, ⟨61, _⟩ => ⟨S4096x64, .f32⟩
  | .hbm, ⟨62, _⟩ => ⟨S4096x64, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096x64, .f32⟩
  | .hbm, ⟨67, _⟩ => ⟨S4096x64, .f32⟩
  | .hbm, ⟨68, _⟩ => ⟨S_, .f32⟩
  | .hbm, ⟨69, _⟩ => ⟨S4096x64, .f32⟩
  | .hbm, ⟨70, _⟩ => ⟨S4096x64, .f32⟩
  | .hbm, ⟨71, _⟩ => ⟨S4096x64, .f32⟩
  | .hbm, ⟨72, _⟩ => ⟨S4096x64, .f32⟩
  | .hbm, ⟨73, _⟩ => ⟨S4096x64, .f32⟩
  | .hbm, ⟨74, _⟩ => ⟨S4096x64, .f32⟩
  | .hbm, ⟨75, _⟩ => ⟨S64x4096, .f32⟩
  | .hbm, ⟨76, _⟩ => ⟨S8192x4096, .f32⟩
  | .hbm, ⟨77, _⟩ => ⟨S1x4096, .f32⟩
  | .hbm, ⟨78, _⟩ => ⟨S8192x4096, .f32⟩
  | .hbm, ⟨79, _⟩ => ⟨S8192x4096, .f32⟩
  | .hbm, ⟨80, _⟩ => ⟨S8192x4096, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8192x4096, .f32⟩
  | .hbm, ⟨88, _⟩ => ⟨S8192x4096, .f32⟩
  | .hbm, ⟨89, _⟩ => ⟨S8192x4096, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S8192x4096, .f32⟩
  | .hbm, ⟨94, _⟩ => ⟨S8192x4096, .f32⟩
  | .hbm, ⟨95, _⟩ => ⟨S_, .f32⟩
  | .hbm, ⟨96, _⟩ => ⟨S8192x4096, .f32⟩
  | .hbm, ⟨97, _⟩ => ⟨S8192x4096, .f32⟩
  | .hbm, ⟨98, _⟩ => ⟨S8192x4096, .f32⟩
  | .hbm, ⟨99, _⟩ => ⟨S8192x4096, .f32⟩
  | .hbm, ⟨100, _⟩ => ⟨S8192x4096, .f32⟩
  | .hbm, ⟨101, _⟩ => ⟨S8192x4096, .f32⟩
  | .hbm, ⟨102, _⟩ => ⟨S_, .f32⟩
  | .hbm, ⟨103, _⟩ => ⟨S8192x4096, .f32⟩
  | .hbm, ⟨104, _⟩ => ⟨S8192x4096, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_cst_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_7 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_9 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_cst_11 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_12 : Ref sig .tc := ⟨.hbm, 63, rfl⟩
abbrev main_cst_13 : Ref sig .tc := ⟨.hbm, 64, rfl⟩
abbrev main_call5_v0 : Ref sig .tc := ⟨.hbm, 65, rfl⟩
abbrev main_call5_v1 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_14 : Ref sig .tc := ⟨.hbm, 81, rfl⟩
abbrev main_v45 : Ref sig .tc := ⟨.hbm, 82, rfl⟩
abbrev main_cst_15 : Ref sig .tc := ⟨.hbm, 83, rfl⟩
abbrev main_v46 : Ref sig .tc := ⟨.hbm, 84, rfl⟩
abbrev main_cst_16 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_17 : Ref sig .tc := ⟨.hbm, 90, rfl⟩
abbrev main_cst_18 : Ref sig .tc := ⟨.hbm, 91, rfl⟩
abbrev main_call7_v0 : Ref sig .tc := ⟨.hbm, 92, rfl⟩
abbrev main_call7_v1 : Ref sig .tc := ⟨.hbm, 93, rfl⟩
abbrev main_call7_v2 : Ref sig .tc := ⟨.hbm, 94, rfl⟩
abbrev main_call7_v3 : Ref sig .tc := ⟨.hbm, 95, rfl⟩
abbrev main_call7_v4 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_call8_cst : Ref sig .tc := ⟨.hbm, 102, rfl⟩
abbrev main_call8_v0 : Ref sig .tc := ⟨.hbm, 103, rfl⟩
abbrev main_v56 : Ref sig .tc := ⟨.hbm, 104, rfl⟩

abbrev nD : Nat := 1
abbrev τ : Topo := Topo.v7x

variable {F : FTy → Type} [FloatOps F]

class Facts₀ : Prop where
  reducesTo_S64x64_S_d0_1 : S64x64.ReducesTo [0, 1] S_
  h_S_ : 0 < S_.numel
  bcast_S_S64x64 : S_.BroadcastsInDim S64x64 (![] : Fin 0 → Fin S64x64.rank)
  reducesTo_S4096x64_S_d0_1 : S4096x64.ReducesTo [0, 1] S_
  bcast_S_S4096x64 : S_.BroadcastsInDim S4096x64 (![] : Fin 0 → Fin S4096x64.rank)
  transposes_S4096x64_S64x4096_1_0 : S4096x64.Transposes [1, 0] S64x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S_d0_1 : S8192x4096.ReducesTo [0, 1] S_
  bcast_S_S8192x4096 : S_.BroadcastsInDim S8192x4096 (![] : Fin 0 → Fin S8192x4096.rank)
  dot_S8192x64_S64x64_S8192x64_1_0_0_1_n_n_wf : DotDims.WF S8192x64 S64x64 S8192x64 [1] [0] [0] [1] [] []
  dot_S8192x64_S64x4096_S8192x4096_1_0_0_1_n_n_wf : DotDims.WF S8192x64 S64x4096 S8192x4096 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x4096_S8192x4096_1_0_0_1_n_n : DotDims S8192x64 S64x4096 S8192x4096 where
  lhsContracting := [1]
  rhsContracting := [0]
  lhsNonContracting := [0]
  rhsNonContracting := [1]
  lhsBatch := []
  rhsBatch := []
  wf := dot_S8192x64_S64x4096_S8192x4096_1_0_0_1_n_n_wf

class Facts : Prop extends Facts₀ where

variable [Facts]
-- ==== Proof.BKRunCond.lean ====
/-
  The whole run of the program: host lines, region 0, host lines, region 1.

  Between two items core `c` holds every unscoped buffer at known contents: the launch memory, then each host
  stretch applied, then — after a region — its result arrays at what the pipeline's write-backs leave
  (`Dat.arrAt … N`) and every other buffer as it was.  Each region is a record around those thread states: its
  arrays split out of the unscoped buffers and put back, the generator register into the region's invariant and
  out, nothing owed, no semaphore of the kernel's own.  The run then reads, off the last thread state, the result
  array and each argument array.
-/
import proofs.«101463_j1391569404120_1_alg».proof.Proof.Gen.Kernel.Regions
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The run, given the regions' records: every unscoped buffer read at the end -/

set_option backward.isDefEq.respectTransparency.types false in
/-- As the conditional frame, with the last thread state read at the result array too. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V15 m outs c) ∗ E 1 c) ⊢ R1.pre c)
    (hpost1 : ∀ c : Dev nD, R1.post c ⊢ iprop(StableHlo.held (c : Thread nD τ) (Pipeline.ucRefs τ sig) (V16 m outs c) ∗ E 2 c)) :
    θ_run defs (onTc (τ := τ) (main (F := F))) ⟨m, fun _ => 0, ρ⟩ (fun r => ∀ c : Dev nD,
      r.2.mem ((c.tc : Thread nD τ).loc main_v37) = V16 m outs c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, .rfl, .rfl, .rfl, .rfl, .rfl, .rfl, .rfl, .rfl, .rfl, .rfl, hpre0 c, hpost0 c, hpre1 c, (hpost1 c).trans (sep_mono .rfl (hE2 c))⟩)
    (hinit := ?_) (QY := fun c s => s.mem ((c.tc : Thread nD τ).loc main_v37) = V16 m outs c main_v37
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨h (Proc.devRef .tc main_v37) (Finset.mem_filter.mpr ⟨StableHlo.devRef_mem_tcRefs main_v37, by decide⟩),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c)⟩
    · iexact HSI

end Cert.Kernel.Gen

end
-- ==== Proof.BK0Runs.lean ====
/-
  Region 0 (the tiled layer with its running maximum), what its three control cases share.

  The grid has 16 points, one per tile of 512 rows.  The body zeroes a [1,1] scratch at the first point, at every
  point stores the tile of the layer and raises the scratch to the tile's largest magnitude, and at the last point
  copies the scratch to the [1,1] output.  So a point is in one of three cases: first (A), middle (B), last (C).
  Here: each window's block at a point as the region finds its array, the two branch conditions decided over the
  grid, where the [1,1] output is idle, and the region invariant with the scratch named.
-/
import proofs.«101463_j1391569404120_1_alg».proof.Proof.Gen.Kernel.Launch
import proofs.«101463_j1391569404120_1_alg».proof.Proof.Gen.Kernel.Skeleton
import proofs.«101463_j1391569404120_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- "This is the first point": the condition under which the scratch is zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last point": the condition under which the scratch is copied out. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point the [1,1] output is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last point it is live. -/
theorem liveAt0_7 : ∀ t : Fin cfg0.N, cond0_1 (grid0.coords t) → cfg0.idle 7 (grid0.coords t) = false := by decide +kernel

/-! ## The staging memrefs at a point, and the scratch -/

abbrev ms0_0 (t : Fin cfg0.N) : Memref sig .tc .vmem S512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
/-- The scratch: a whole scoped buffer of the kernel's own. -/
abbrev scM0 : Memref sig .tc .vmem S1x1 .f32 := Memref.whole cc0_scratch0
/-- One staging buffer of each output window and the scratch, as views through which contents are stated. -/
abbrev VO0_6 : View sig .tc .vmem S512x4096 .f32 := (Memref.whole cc0_stg6_0 : Memref sig .tc .vmem S512x4096 .f32).view
abbrev VO0_7 : View sig .tc .vmem S1x1 .f32 := (Memref.whole cc0_stg7_0 : Memref sig .tc .vmem S1x1 .f32).view
abbrev VS0 : View sig .tc .vmem S1x1 .f32 := scM0.view

/-- The scoped buffers of the other pallas_call, each whole at some contents: they ride through this region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant with the scratch as a memref owned at some contents. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

end Cert.Kernel.Gen

end
-- ==== Proof.BK0RunA.lean ====
/-
  Region 0's body at the first point (the scratch is zeroed first; the [1,1] output is left as found): on whole staging memrefs, the inputs' at their contents, the body runs to a
  continuation that holds the inputs' as they were and each buffer it stored into with its stores written, as
  pieces; the pieces are what the symbolic run finds.
-/
import proofs.«101463_j1391569404120_1_alg».proof.Proof.BK0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S512x64 .f32) (harg1 : arg1.IsWhole) (arg2 : Memref sig .tc .vmem S512x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S512x64 .f32) (x1 : Vec F S512x64 .f32) (x2 : Vec F S64x64 .f32) (x3 : Vec F S64x64 .f32) (x4 : Vec F S64x4096 .f32) (x5 : Vec F S1x4096 .f32) :
    Σ' (L6 : List (View.Piece (Elt F) S512x4096 .f32)) (L7 : List (View.Piece (Elt F) S1x1 .f32)), { LS : List (View.Piece (Elt F) S1x1 .f32) //
      ∀ (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS)) -∗ K ⟨⟩))
          ⊢ wp frame (wpE (defs₀ (F := F)) Variants.none c none) E (cc0__kernelA i arg1 harg1 arg2 harg2 arg3 harg3 arg4 harg4 arg5 harg5 arg6 harg6 arg7 harg7 arg8 harg8 arg9 harg9) K } := by
  refine ⟨?_, [], ?_, fun xi7 E K => ?run⟩
  case run =>
    simp only [cc0__kernelA_eq_skeleton]; unfold cc0__kernelA_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS

end Cert.Kernel.Gen

end
-- ==== Proof.BK0RunB.lean ====
/-
  Region 0's body at a middle point (the scratch holds what the point before left; the [1,1] output is left as found): on whole staging memrefs, the inputs' at their contents, the body runs to a
  continuation that holds the inputs' as they were and each buffer it stored into with its stores written, as
  pieces; the pieces are what the symbolic run finds.
-/
import proofs.«101463_j1391569404120_1_alg».proof.Proof.BK0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S512x64 .f32) (harg1 : arg1.IsWhole) (arg2 : Memref sig .tc .vmem S512x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) :
    Σ' (L6 : List (View.Piece (Elt F) S512x4096 .f32)) (L7 : List (View.Piece (Elt F) S1x1 .f32)), { LS : List (View.Piece (Elt F) S1x1 .f32) //
      ∀ (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS)) -∗ K ⟨⟩))
          ⊢ wp frame (wpE (defs₀ (F := F)) Variants.none c none) E (cc0__kernelA i arg1 harg1 arg2 harg2 arg3 harg3 arg4 harg4 arg5 harg5 arg6 harg6 arg7 harg7 arg8 harg8 arg9 harg9) K } := by
  refine ⟨?_, [], ?_, fun xi7 E K => ?run⟩
  case run =>
    simp only [cc0__kernelA_eq_skeleton]; unfold cc0__kernelA_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS

end Cert.Kernel.Gen

end
-- ==== Proof.BK0RunC.lean ====
/-
  Region 0's body at the last point (the scratch holds what the point before left, and is copied to the [1,1] output): on whole staging memrefs, the inputs' at their contents, the body runs to a
  continuation that holds the inputs' as they were and each buffer it stored into with its stores written, as
  pieces; the pieces are what the symbolic run finds.
-/
import proofs.«101463_j1391569404120_1_alg».proof.Proof.BK0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S512x64 .f32) (harg1 : arg1.IsWhole) (arg2 : Memref sig .tc .vmem S512x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) :
    Σ' (L6 : List (View.Piece (Elt F) S512x4096 .f32)) (L7 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS)) -∗ K ⟨⟩))
          ⊢ wp frame (wpE (defs₀ (F := F)) Variants.none c none) E (cc0__kernelA i arg1 harg1 arg2 harg2 arg3 harg3 arg4 harg4 arg5 harg5 arg6 harg6 arg7 harg7 arg8 harg8 arg9 harg9) K } := by
  refine ⟨?_, ?_, ?_, fun E K => ?run⟩
  case run =>
    simp only [cc0__kernelA_eq_skeleton]; unfold cc0__kernelA_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; iexact H7
    iexists _; iexact HS

end Cert.Kernel.Gen

end
-- ==== Proof.BK0Data.lean ====
/-
  Region 0, point by point.  What each case of the body leaves in the tile's buffer, in the [1,1] output's buffer
  and in the scratch is its stores read back; each covers its buffer.  `outsAt0 n` is what the three hold after
  point `n`: the first point's case from the input blocks alone, every later point's from the input blocks and the
  scratch as the point before left it — the running maximum.  The region invariant names the scratch at that value
  from the second point on; the proof data hands each input back as found and each output as `outsAt0` says.
-/
import proofs.«101463_j1391569404120_1_alg».proof.Proof.BK0RunA
import proofs.«101463_j1391569404120_1_alg».proof.Proof.BK0RunB
import proofs.«101463_j1391569404120_1_alg».proof.Proof.BK0RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The runs at a point's own memrefs -/

abbrev runA (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc0 hc1 x0 x1 x2 x3 x4 x5
abbrev runB (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc0 hc1 x0 x1 x2 x3 x4 x5 xs
abbrev runC (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc0 hc1 x0 x1 x2 x3 x4 x5 xs

/-! ## What each case leaves, and that its stores cover -/

theorem cover6_A (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (y : S512x4096.Idx) :
    ∃ pc ∈ (runA c t hc0 hc1 x0 x1 x2 x3 x4 x5).1, y ∈ pc.1.set :=
  View.cover_of_tiledL (runA c t hc0 hc1 x0 x1 x2 x3 x4 x5).1 S512x4096.size (by sl_kernel_rfl) y
def out6_A (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) : Vec F S512x4096 .f32 :=
  VO0_6.read (Elt F) (VO0_6.writes (Elt F) VO0_6.junk (runA c t hc0 hc1 x0 x1 x2 x3 x4 x5).1)
/-- (Away from the last point nothing is stored into the [1,1] output: no pieces, a placeholder nothing consults.) -/
def out7_A (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) : Vec F S1x1 .f32 :=
  VO0_7.read (Elt F) (VO0_7.writes (Elt F) VO0_7.junk (runA c t hc0 hc1 x0 x1 x2 x3 x4 x5).2.1)
theorem scover_A (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (y : S1x1.Idx) :
    ∃ pc ∈ (runA c t hc0 hc1 x0 x1 x2 x3 x4 x5).2.2.1, y ∈ pc.1.set :=
  View.cover_of_tiledL (runA c t hc0 hc1 x0 x1 x2 x3 x4 x5).2.2.1 S1x1.size (by sl_kernel_rfl) y
def sout_A (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) : Vec F S1x1 .f32 :=
  VS0.read (Elt F) (VS0.writes (Elt F) VS0.junk (runA c t hc0 hc1 x0 x1 x2 x3 x4 x5).2.2.1)

theorem cover6_B (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) (y : S512x4096.Idx) :
    ∃ pc ∈ (runB c t hc0 hc1 x0 x1 x2 x3 x4 x5 xs).1, y ∈ pc.1.set :=
  View.cover_of_tiledL (runB c t hc0 hc1 x0 x1 x2 x3 x4 x5 xs).1 S512x4096.size (by sl_kernel_rfl) y
def out6_B (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) : Vec F S512x4096 .f32 :=
  VO0_6.read (Elt F) (VO0_6.writes (Elt F) VO0_6.junk (runB c t hc0 hc1 x0 x1 x2 x3 x4 x5 xs).1)
/-- (Away from the last point nothing is stored into the [1,1] output: no pieces, a placeholder nothing consults.) -/
def out7_B (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) : Vec F S1x1 .f32 :=
  VO0_7.read (Elt F) (VO0_7.writes (Elt F) VO0_7.junk (runB c t hc0 hc1 x0 x1 x2 x3 x4 x5 xs).2.1)
theorem scover_B (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) (y : S1x1.Idx) :
    ∃ pc ∈ (runB c t hc0 hc1 x0 x1 x2 x3 x4 x5 xs).2.2.1, y ∈ pc.1.set :=
  View.cover_of_tiledL (runB c t hc0 hc1 x0 x1 x2 x3 x4 x5 xs).2.2.1 S1x1.size (by sl_kernel_rfl) y
def sout_B (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) : Vec F S1x1 .f32 :=
  VS0.read (Elt F) (VS0.writes (Elt F) VS0.junk (runB c t hc0 hc1 x0 x1 x2 x3 x4 x5 xs).2.2.1)

theorem cover6_C (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) (y : S512x4096.Idx) :
    ∃ pc ∈ (runC c t hc0 hc1 x0 x1 x2 x3 x4 x5 xs).1, y ∈ pc.1.set :=
  View.cover_of_tiledL (runC c t hc0 hc1 x0 x1 x2 x3 x4 x5 xs).1 S512x4096.size (by sl_kernel_rfl) y
def out6_C (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) : Vec F S512x4096 .f32 :=
  VO0_6.read (Elt F) (VO0_6.writes (Elt F) VO0_6.junk (runC c t hc0 hc1 x0 x1 x2 x3 x4 x5 xs).1)
theorem cover7_C (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) (y : S1x1.Idx) :
    ∃ pc ∈ (runC c t hc0 hc1 x0 x1 x2 x3 x4 x5 xs).2.1, y ∈ pc.1.set :=
  View.cover_of_tiledL (runC c t hc0 hc1 x0 x1 x2 x3 x4 x5 xs).2.1 S1x1.size (by sl_kernel_rfl) y
/-- (Away from the last point nothing is stored into the [1,1] output: no pieces, a placeholder nothing consults.) -/
def out7_C (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) : Vec F S1x1 .f32 :=
  VO0_7.read (Elt F) (VO0_7.writes (Elt F) VO0_7.junk (runC c t hc0 hc1 x0 x1 x2 x3 x4 x5 xs).2.1)
theorem scover_C (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) (y : S1x1.Idx) :
    ∃ pc ∈ (runC c t hc0 hc1 x0 x1 x2 x3 x4 x5 xs).2.2.1, y ∈ pc.1.set :=
  View.cover_of_tiledL (runC c t hc0 hc1 x0 x1 x2 x3 x4 x5 xs).2.2.1 S1x1.size (by sl_kernel_rfl) y
def sout_C (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) : Vec F S1x1 .f32 :=
  VS0.read (Elt F) (VS0.writes (Elt F) VS0.junk (runC c t hc0 hc1 x0 x1 x2 x3 x4 x5 xs).2.2.1)

section Region0
variable (V : (c : Dev nD) → (b : Ref sig .tc) → Buf (Elt F) ((c : Thread nD τ).loc b))

theorem not_first (n : ℕ) (hn : n + 1 < cfg0.N) : ¬cond0_0 (grid0.coords ⟨n + 1, hn⟩) := fun h => by
  have h' := (hcond0_0 ⟨n + 1, hn⟩).mp h
  have hN : n + 1 < 16 := lt_of_lt_of_eq hn (show cfg0.N = 16 from N_0)
  (try dsimp only at h'); omega

/-! ## What the outputs and the scratch hold after each point -/

/-- After point `n`: the tile's buffer, the [1,1] output's buffer, the scratch. -/
def outsAt0 (c : Dev nD) : (n : ℕ) → n < cfg0.N → Vec F S512x4096 .f32 × Vec F S1x1 .f32 × Vec F S1x1 .f32
  | 0, hn =>
    (out6_A c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
     out7_A c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
     sout_A c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : (n + 1) % 16 = 15 then
      (out6_C c ⟨n + 1, hn⟩ (not_first n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
       out7_C c ⟨n + 1, hn⟩ (not_first n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
       sout_C c ⟨n + 1, hn⟩ (not_first n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)
    else
      (out6_B c ⟨n + 1, hn⟩ (not_first n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
       out7_B c ⟨n + 1, hn⟩ (not_first n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
       sout_B c ⟨n + 1, hn⟩ (not_first n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)

/-- The region invariant before position `n`: before the first point the class's; afterwards the scratch at what the
    point before left, the other call's scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ others0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2.2) ∗ others0 (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ others0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end Region0

section Region0b
variable (V : (c : Dev nD) → (b : Ref sig .tc) → Buf (Elt F) ((c : Thread nD τ).loc b))

/-! ## `outsAt0` case by case -/

theorem outsAt0_A (c : Dev nD) (t : Fin cfg0.N) (hz : t.val = 0) (hc0 : cond0_0 (grid0.coords t)) (hc1 : ¬cond0_1 (grid0.coords t)) :
    outsAt0 V c t.val t.isLt = (out6_A c t hc0 hc1 (iblk0 V c 0 t) (iblk0 V c 1 t) (iblk0 V c 2 t) (iblk0 V c 3 t) (iblk0 V c 4 t) (iblk0 V c 5 t), out7_A c t hc0 hc1 (iblk0 V c 0 t) (iblk0 V c 1 t) (iblk0 V c 2 t) (iblk0 V c 3 t) (iblk0 V c 4 t) (iblk0 V c 5 t), sout_A c t hc0 hc1 (iblk0 V c 0 t) (iblk0 V c 1 t) (iblk0 V c 2 t) (iblk0 V c 3 t) (iblk0 V c 4 t) (iblk0 V c 5 t)) := by
  obtain ⟨n, hn⟩ := t
  cases n with
  | zero => rfl
  | succ n => exact absurd hz (Nat.succ_ne_zero n)

theorem outsAt0_B (c : Dev nD) (t : Fin cfg0.N) (hz : t.val ≠ 0) (h1 : ¬t.val % 16 = 15) (hc0 : ¬cond0_0 (grid0.coords t)) (hc1 : ¬cond0_1 (grid0.coords t)) :
    outsAt0 V c t.val t.isLt = (out6_B c t hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out7_B c t hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout_B c t hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact absurd rfl hz
  | succ n => exact (dif_neg h1).trans rfl

theorem outsAt0_C (c : Dev nD) (t : Fin cfg0.N) (hz : t.val ≠ 0) (h1 : t.val % 16 = 15) (hc0 : ¬cond0_0 (grid0.coords t)) (hc1 : cond0_1 (grid0.coords t)) :
    outsAt0 V c t.val t.isLt = (out6_C c t hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out7_C c t hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout_C c t hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact absurd rfl hz
  | succ n => exact (dif_pos h1).trans rfl

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point.  The inputs' memrefs hold their blocks; the point is the first, the last, or in between,
    and that case's run applies: the invariant hands it the scratch (at anything at the first point, else at what the
    point before left) and takes it back at this point's value; away from the last point the [1,1] output's buffer
    passes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases hz : t.val = 0
  · have h0 : t.val % 16 = 0 := by omega
    have h1 : ¬t.val % 16 = 15 := by omega
    rw [Dat.leavesExact_idle (dat0 V c) 7 t (idleAt0_7 t (fun h => h1 ((hcond0_1 t).mp h))) (noFlush0_7 t (fun h => h1 ((hcond0_1 t).mp h)))]
    rw [outsAt0_A V c t hz ((hcond0_0 t).mpr h0) (fun h => h1 ((hcond0_1 t).mp h))]
    unfold out6_A sout_A; (try dsimp only)
    rw [PhiS_castSucc V c t, PhiS_zero V c _ _ hz, PhiA0_eq]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c t ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    iintro ⟨H0, H1, H2, H3, H4, H5, ⟨%e6, H6⟩, H7, ⟨%es, HS⟩⟩
    isplitl [HS Hoth Hg]
    · isplitl [HS Hoth]
      · isplitl [HS]
        · unfold owns; iexists _; isplitr
          swap; · iexact HS
          ipureintro; exact View.read_writes_of_cover _ _ _ _ _ (scover_A c t _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6_A c t _ _ _ _ _ _ _ _)
    iexists _; iexact H7
  · have h0 : ¬t.val % 16 = 0 := by omega
    by_cases h1 : t.val % 16 = 15
    ·
      rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t hz h1 (fun h => h0 ((hcond0_0 t).mp h)) ((hcond0_1 t).mpr h1)]
      unfold out6_C out7_C sout_C; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c t (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_C c t _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_C c t _ _ _ _ _ _ _ _ _)
      unfold owns; iexists _; isplitr
      swap; · iexact H7
      ipureintro; exact View.read_writes_of_cover _ _ _ _ _ (cover7_C c t _ _ _ _ _ _ _ _ _)
    ·
      rw [Dat.leavesExact_idle (dat0 V c) 7 t (idleAt0_7 t (fun h => h1 ((hcond0_1 t).mp h))) (noFlush0_7 t (fun h => h1 ((hcond0_1 t).mp h)))]
      rw [outsAt0_B V c t hz h1 (fun h => h0 ((hcond0_0 t).mp h)) (fun h => h1 ((hcond0_1 t).mp h))]
      unfold out6_B sout_B; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c t (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, ⟨%es, HS⟩⟩
      isplitl [HS Hoth Hg]
      · isplitl [HS Hoth]
        · isplitl [HS]
          · unfold owns; iexists _; isplitr
            swap; · iexact HS
            ipureintro; exact View.read_writes_of_cover _ _ _ _ _ (scover_B c t _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_B c t _ _ _ _ _ _ _ _ _)
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch's named value is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, Hoth⟩, Hg⟩
  isplitl [HS Hoth]
  · isplitl [HS]
    · iexists _; iexact HS
    iexact Hoth
  iexact Hg

theorem hout0 (c : Dev nD) : (dat0 V c).Φ (Fin.last cfg0.N) ⊢ Pipeline.ΦA spec0 c :=
  Phi_out0 V c _ (by rw [Fin.val_last]; have : cfg0.N = 16 := N_0; omega)

end Region0b

end Cert.Kernel.Gen

end
-- ==== Proof.BK1Data.lean ====
/-
  Region 1 (the layer quantised on its own grid, tile by tile), whole: 32 points, one per tile of 256 rows.
  The body reads the [1,1] step and a tile of the layer and stores the quantised tile's positive part; nothing
  is carried between points.  Here: each window's block at a point, what the body leaves in the output's buffer
  (its one store, covering the buffer), the body's triple by symbolic execution, the proof data and the body
  obligation at every point.
-/
import proofs.«101463_j1391569404120_1_alg».proof.Proof.Gen.Kernel.Launch
import proofs.«101463_j1391569404120_1_alg».proof.Proof.Gen.Kernel.Skeleton
import proofs.«101463_j1391569404120_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_s : Rect S1x1 := Rect.unit (s := S1x1) ![0, 0] S1x1.size inb_S1x1_S1x1_0_0
abbrev r1_t : Rect S256x4096 := Rect.unit (s := S256x4096) ![0, 0] S256x4096.size inb_S256x4096_S256x4096_0_0

/-- The output's staging buffer after the body, from the step and the layer's tile: its one store. -/
def out1_2 (x0 : Vec F S1x1 .f32) (x1 : Vec F S256x4096 .f32) : Vec F S256x4096 .f32 :=
  View.canon [⟨r1_t, k1_pay1 (View.ld x0 r1_s) (View.ld x1 r1_t)⟩]

/-- The store covers the buffer. -/
theorem cover1_2 (p0 : Vec F S256x4096 .f32) (y : S256x4096.Idx) :
    ∃ pc ∈ ([⟨r1_t, p0⟩] : List (View.Piece (Elt F) S256x4096 .f32)), y ∈ pc.1.set :=
  View.cover_of_tiled [⟨r1_t, p0⟩] S256x4096.size (by rfl) y

/-! ## The body's triple -/

set_option maxHeartbeats 1000000 in
theorem sound_kernel1 (c : Dev nD) (E : Set ℕ) (i : grid1.Coords) (arg1 : Memref sig .tc .vmem S1x1 .f32) (harg1 : arg1.IsWhole) (arg2 : Memref sig .tc .vmem S256x4096 .f32) (harg2 : arg2.IsWhole) (arg3 : Memref sig .tc .vmem S256x4096 .f32) (harg3 : arg3.IsWhole)
    (x0 : Vec F S1x1 .f32) (x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__kernelB i arg1 harg1 arg2 harg2 arg3 harg3) K := by
  simp only [cc1__kernelB_eq_skeleton]; unfold cc1__kernelB_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t`
    each input's buffer at its block and the output's at `out1_2` of the input blocks; the class's invariant
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.BKRun.lean ====
/-
  The two regions as records around the thread states, and the whole run.

  Region 0 is entered with every unscoped buffer as the host lines before it leave them and left with its two result
  arrays at what its write-backs leave; the host lines between compute the step from the [1,1] result; region 1 is
  entered from that and left with the result array at what ITS write-backs leave.  Beside the buffers the thread
  state carries the generator register at some state and the core owing nothing.
-/
import proofs.«101463_j1391569404120_1_alg».proof.Proof.BKRunCond
import proofs.«101463_j1391569404120_1_alg».proof.Proof.BK0Data
import proofs.«101463_j1391569404120_1_alg».proof.Proof.BK1Data

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at the regions' boundaries -/

/-- Region 0's entry contents, read at the TensorCore's references. -/
abbrev VR0 : (c : Dev nD) → (b : Ref sig .tc) → Buf (Elt F) ((c : Thread nD τ).loc b) := fun c b => V13 m c b

/-- What region 0's write-backs leave in its two result arrays. -/
def res0_0 (c : Dev nD) : Buf (Elt F) ((c : Thread nD τ).loc main_v32_0) := (dat0 (VR0 m) c).arrAt 6 cfg0.N
def res0_1 (c : Dev nD) : Buf (Elt F) ((c : Thread nD τ).loc main_v32_1) := (dat0 (VR0 m) c).arrAt 7 cfg0.N

/-- Core `c`'s unscoped buffers when region 1 is entered. -/
abbrev W15 (c : Dev nD) : Valuation τ sig (Elt F) :=
  StableHlo.after hostOps1 (Function.update (Function.update (V13 m c) main_v32_0 (res0_0 m c)) main_v32_1 (res0_1 m c))
abbrev VR1 : (c : Dev nD) → (b : Ref sig .tc) → Buf (Elt F) ((c : Thread nD τ).loc b) := fun c b => W15 m c b

/-- What region 1's write-backs leave in the result array. -/
def res1 (c : Dev nD) : Buf (Elt F) ((c : Thread nD τ).loc main_v37) := (dat1 (VR1 m) c).arrAt 2 cfg1.N

open Classical in
/-- The contents the regions leave, as the conditional run's valuations read them. -/
def outs : Outs (F := F) := fun _ r c =>
  Function.update (Function.update (Function.update (fun r : Ref sig .tc => m ((c : Thread nD τ).loc r)) main_v32_0 (res0_0 m c)) main_v32_1 (res0_1 m c)) main_v37 (res1 m c) r

theorem outs_v32_0 (J : ℕ) (c : Dev nD) : outs m J main_v32_0 c = res0_0 m c := by
  unfold outs; rw [Function.update_of_ne (by decide), Function.update_of_ne (by decide), Function.update_self]
theorem outs_v32_1 (J : ℕ) (c : Dev nD) : outs m J main_v32_1 c = res0_1 m c := by
  unfold outs; rw [Function.update_of_ne (by decide), Function.update_self]
theorem outs_v37 (J : ℕ) (c : Dev nD) : outs m J main_v37 c = res1 m c := by
  unfold outs; rw [Function.update_self]

theorem V14_eq (c : Dev nD) : V14 m (outs m) c = Function.update (Function.update (V13 m c) main_v32_0 (res0_0 m c)) main_v32_1 (res0_1 m c) := by
  show Function.update (Function.update (V13 m c) main_v32_0 (outs m 14 main_v32_0 c)) main_v32_1 (outs m 14 main_v32_1 c) = _
  rw [outs_v32_0, outs_v32_1]
theorem V15_eq (c : Dev nD) : V15 m (outs m) c = W15 m c := by
  show StableHlo.after hostOps1 (V14 m (outs m) c) = _
  rw [V14_eq]
theorem V16_v37 (c : Dev nD) : V16 m (outs m) c main_v37 = res1 m c := by
  show Function.update (V15 m (outs m) c) main_v37 (outs m 16 main_v37 c) main_v37 = _
  rw [Function.update_self, outs_v37]

/-! ## The proof data family and the thread state -/

def pdats : (p : Fin 2) → (c : Dev nD) → Dat τ (Elt F) Unit ℕ (UR sig nD τ) ℕ (cfgs p) c
  | ⟨0, _⟩ => fun c => dat0 (VR0 m) c
  | ⟨1, _⟩ => fun c => dat1 (VR1 m) c
abbrev L₀ : GSem nD τ sig → Finset Unit := fun _ => ∅
abbrev lv₀ : GSem nD τ sig → Unit → ℕ := fun _ _ => 0
/-- What rides beside the buffers: the generator register at some state, the core owing nothing. -/
abbrev Rst (c : Dev nD) : sProp 𝕄 := iprop((∃ r, prngReg c r) ∗ ∃ W, owes (c : Thread nD τ) (0 : CellTallies nD τ sig Unit) W)

/-! ## Region 0's exit contents -/

theorem hF0 (c : Dev nD) : ∀ w : Fin cfg0.W, (pdats m 0 c).arrAt w cfg0.N = V14 m (outs m) c (Pipeline.arrRef spec0 w)
  | 0 => ((dat0 (VR0 m) c).arrAt_in 0 rfl _).trans ((A_eq0 (VR0 m) c 0).trans (V14_of m (outs m) c _ (by decide)).symm)
  | 1 => ((dat0 (VR0 m) c).arrAt_in 1 rfl _).trans ((A_eq0 (VR0 m) c 1).trans (V14_of m (outs m) c _ (by decide)).symm)
  | 2 => ((dat0 (VR0 m) c).arrAt_in 2 rfl _).trans ((A_eq0 (VR0 m) c 2).trans (V14_of m (outs m) c _ (by decide)).symm)
  | 3 => ((dat0 (VR0 m) c).arrAt_in 3 rfl _).trans ((A_eq0 (VR0 m) c 3).trans (V14_of m (outs m) c _ (by decide)).symm)
  | 4 => ((dat0 (VR0 m) c).arrAt_in 4 rfl _).trans ((A_eq0 (VR0 m) c 4).trans (V14_of m (outs m) c _ (by decide)).symm)
  | 5 => ((dat0 (VR0 m) c).arrAt_in 5 rfl _).trans ((A_eq0 (VR0 m) c 5).trans (V14_of m (outs m) c _ (by decide)).symm)
  | 6 => by
    rw [V14_eq]
    show res0_0 m c = _
    rw [Function.update_of_ne (StableHlo.devRef_ne_of_ne (by decide)), Function.update_self]
  | 7 => by
    rw [V14_eq]
    show res0_1 m c = _
    rw [Function.update_self]
  | ⟨_ + 8, h⟩ => absurd h (Nat.not_lt.2 (Nat.le_add_left _ _))
theorem hrest0 (c : Dev nD) : ∀ b, b ∉ Finset.univ.image (Pipeline.arrRef spec0) → V14 m (outs m) c b = VR0 m c b := by
  intro b hb
  refine V14_of m (outs m) c b ?_
  intro h
  simp only [List.mem_cons, List.not_mem_nil, or_false] at h
  rcases h with rfl | rfl
  · exact hb (Finset.mem_image.mpr ⟨6, Finset.mem_univ _, rfl⟩)
  · exact hb (Finset.mem_image.mpr ⟨7, Finset.mem_univ _, rfl⟩)
theorem hF1 (c : Dev nD) : ∀ w : Fin cfg1.W, (pdats m 1 c).arrAt w cfg1.N = V16 m (outs m) c (Pipeline.arrRef spec1 w)
  | 0 => ((dat1 (VR1 m) c).arrAt_in 0 rfl _).trans ((A_eq1 (VR1 m) c 0).trans ((congrFun (V15_eq m c) _).symm.trans (V16_of m (outs m) c _ (by decide)).symm))
  | 1 => ((dat1 (VR1 m) c).arrAt_in 1 rfl _).trans ((A_eq1 (VR1 m) c 1).trans ((congrFun (V15_eq m c) _).symm.trans (V16_of m (outs m) c _ (by decide)).symm))
  | 2 => (V16_v37 m c).symm
  | ⟨_ + 3, h⟩ => absurd h (Nat.not_lt.2 (Nat.le_add_left _ _))
theorem hrest1 (c : Dev nD) : ∀ b, b ∉ Finset.univ.image (Pipeline.arrRef spec1) → V16 m (outs m) c b = VR1 m c b := by
  intro b hb
  refine (V16_of m (outs m) c b ?_).trans (congrFun (V15_eq m c) _)
  intro h
  simp only [List.mem_cons, List.not_mem_nil, or_false] at h
  rcases h with rfl
  exact hb (Finset.mem_image.mpr ⟨2, Finset.mem_univ _, rfl⟩)

/-! ## The regions as segments -/

set_option backward.isDefEq.respectTransparency.types false in
def reg0 : RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L₀ lv₀ 0 fun _ _ => rfl
  pre c := iprop(StableHlo.held (c : Thread nD τ) (Pipeline.ucRefs τ sig) (V13 m c) ∗ Rst (F := F) c)
  post c := iprop(StableHlo.held (c : Thread nD τ) (Pipeline.ucRefs τ sig) (V14 m (outs m) c) ∗ Rst (F := F) c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (VR0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (fun b => V14 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ L₀ lv₀ 1 fun _ _ => rfl
  pre c := iprop(StableHlo.held (c : Thread nD τ) (Pipeline.ucRefs τ sig) (W15 m c) ∗ Rst (F := F) c)
  post c := iprop(StableHlo.held (c : Thread nD τ) (Pipeline.ucRefs τ sig) (V16 m (outs m) c) ∗ Rst (F := F) c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR1 m c) (fun b => V16 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` terminates, nothing faulting; the result array ends at
    what region 1's write-backs leave and every argument array as launched. -/
theorem run_all : θ_run defs (onTc (τ := τ) (main (F := F))) ⟨m, fun _ => 0, ρ⟩ (fun r => ∀ c : Dev nD,
      r.2.mem ((c.tc : Thread nD τ).loc main_v37) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (V16_v37 m c), (h c).2⟩)
    (run_cond m ρ emb₁ () Variants.none L₀ lv₀ (fun _ _ => rfl) (outs m) (pdats m) 0 (fun _ => iprop(emp))
      (initOf (Pipeline.cells cfgs cellOf_inj) (Pipeline.launchToks cfgs cellOf_inj))
      (by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (fun _ c => Rst (F := F) c)
      (Pipeline.initEach L₀ lv₀ fun c => by
        iintro ⟨⟨-, HO, -, Hp, -⟩, -⟩
        imodintro
        isplitl [Hp]; · iexists _; iexact Hp
        iexists ∅; iexact HO)
      (fun c => by iintro ⟨-, H⟩; iexact H)
      (reg0 m) (fun c => .rfl) (fun c => .rfl)
      (reg1 m) (fun c => by rw [V15_eq]; exact .rfl) (fun c => .rfl))

end Cert.Kernel.Gen

end
-- ==== Proof.KRunCond.lean ====
/-
  The whole run of the program: host lines, region 0, host lines, region 1.

  Between two items core `c` holds every unscoped buffer at known contents: the launch memory, then each host
  stretch applied, then — after a region — its result arrays at what the pipeline's write-backs leave
  (`Dat.arrAt … N`) and every other buffer as it was.  Each region is a record around those thread states: its
  arrays split out of the unscoped buffers and put back, the generator register into the region's invariant and
  out, nothing owed, no semaphore of the kernel's own.  The run then reads, off the last thread state, the result
  array and each argument array.
-/
import proofs.«101463_j1391569404120_1_alg».proof.Proof.Gen.KernelIdeal.Regions
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The run, given the regions' records: every unscoped buffer read at the end -/

set_option backward.isDefEq.respectTransparency.types false in
/-- As the conditional frame, with the last thread state read at the result array too. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V15 m outs c) ∗ E 1 c) ⊢ R1.pre c)
    (hpost1 : ∀ c : Dev nD, R1.post c ⊢ iprop(StableHlo.held (c : Thread nD τ) (Pipeline.ucRefs τ sig) (V16 m outs c) ∗ E 2 c)) :
    θ_run defs (onTc (τ := τ) (main (F := F))) ⟨m, fun _ => 0, ρ⟩ (fun r => ∀ c : Dev nD,
      r.2.mem ((c.tc : Thread nD τ).loc main_v37) = V16 m outs c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, .rfl, .rfl, .rfl, .rfl, .rfl, .rfl, .rfl, .rfl, .rfl, .rfl, hpre0 c, hpost0 c, hpre1 c, (hpost1 c).trans (sep_mono .rfl (hE2 c))⟩)
    (hinit := ?_) (QY := fun c s => s.mem ((c.tc : Thread nD τ).loc main_v37) = V16 m outs c main_v37
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨h (Proc.devRef .tc main_v37) (Finset.mem_filter.mpr ⟨StableHlo.devRef_mem_tcRefs main_v37, by decide⟩),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c)⟩
    · iexact HSI

end Cert.KernelIdeal.Gen

end
-- ==== Proof.K0Runs.lean ====
/-
  Region 0 (the tiled layer with its running maximum), what its three control cases share.

  The grid has 16 points, one per tile of 512 rows.  The body zeroes a [1,1] scratch at the first point, at every
  point stores the tile of the layer and raises the scratch to the tile's largest magnitude, and at the last point
  copies the scratch to the [1,1] output.  So a point is in one of three cases: first (A), middle (B), last (C).
  Here: each window's block at a point as the region finds its array, the two branch conditions decided over the
  grid, where the [1,1] output is idle, and the region invariant with the scratch named.
-/
import proofs.«101463_j1391569404120_1_alg».proof.Proof.Gen.KernelIdeal.Launch
import proofs.«101463_j1391569404120_1_alg».proof.Proof.Gen.KernelIdeal.Skeleton
import proofs.«101463_j1391569404120_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- "This is the first point": the condition under which the scratch is zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last point": the condition under which the scratch is copied out. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point the [1,1] output is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last point it is live. -/
theorem liveAt0_7 : ∀ t : Fin cfg0.N, cond0_1 (grid0.coords t) → cfg0.idle 7 (grid0.coords t) = false := by decide +kernel

/-! ## The staging memrefs at a point, and the scratch -/

abbrev ms0_0 (t : Fin cfg0.N) : Memref sig .tc .vmem S512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
/-- The scratch: a whole scoped buffer of the kernel's own. -/
abbrev scM0 : Memref sig .tc .vmem S1x1 .f32 := Memref.whole cc0_scratch0
/-- One staging buffer of each output window and the scratch, as views through which contents are stated. -/
abbrev VO0_6 : View sig .tc .vmem S512x4096 .f32 := (Memref.whole cc0_stg6_0 : Memref sig .tc .vmem S512x4096 .f32).view
abbrev VO0_7 : View sig .tc .vmem S1x1 .f32 := (Memref.whole cc0_stg7_0 : Memref sig .tc .vmem S1x1 .f32).view
abbrev VS0 : View sig .tc .vmem S1x1 .f32 := scM0.view

/-- The scoped buffers of the other pallas_call, each whole at some contents: they ride through this region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant with the scratch as a memref owned at some contents. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

end Cert.KernelIdeal.Gen

end
-- ==== Proof.K0RunA.lean ====
/-
  Region 0's body at the first point (the scratch is zeroed first; the [1,1] output is left as found): on whole staging memrefs, the inputs' at their contents, the body runs to a
  continuation that holds the inputs' as they were and each buffer it stored into with its stores written, as
  pieces; the pieces are what the symbolic run finds.
-/
import proofs.«101463_j1391569404120_1_alg».proof.Proof.K0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S512x64 .f32) (harg1 : arg1.IsWhole) (arg2 : Memref sig .tc .vmem S512x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S512x64 .f32) (x1 : Vec F S512x64 .f32) (x2 : Vec F S64x64 .f32) (x3 : Vec F S64x64 .f32) (x4 : Vec F S64x4096 .f32) (x5 : Vec F S1x4096 .f32) :
    Σ' (L6 : List (View.Piece (Elt F) S512x4096 .f32)) (L7 : List (View.Piece (Elt F) S1x1 .f32)), { LS : List (View.Piece (Elt F) S1x1 .f32) //
      ∀ (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS)) -∗ K ⟨⟩))
          ⊢ wp frame (wpE (defs₀ (F := F)) Variants.none c none) E (cc0__kernelA i arg1 harg1 arg2 harg2 arg3 harg3 arg4 harg4 arg5 harg5 arg6 harg6 arg7 harg7 arg8 harg8 arg9 harg9) K } := by
  refine ⟨?_, [], ?_, fun xi7 E K => ?run⟩
  case run =>
    simp only [cc0__kernelA_eq_skeleton]; unfold cc0__kernelA_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS

end Cert.KernelIdeal.Gen

end
-- ==== Proof.K0RunB.lean ====
/-
  Region 0's body at a middle point (the scratch holds what the point before left; the [1,1] output is left as found): on whole staging memrefs, the inputs' at their contents, the body runs to a
  continuation that holds the inputs' as they were and each buffer it stored into with its stores written, as
  pieces; the pieces are what the symbolic run finds.
-/
import proofs.«101463_j1391569404120_1_alg».proof.Proof.K0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S512x64 .f32) (harg1 : arg1.IsWhole) (arg2 : Memref sig .tc .vmem S512x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) :
    Σ' (L6 : List (View.Piece (Elt F) S512x4096 .f32)) (L7 : List (View.Piece (Elt F) S1x1 .f32)), { LS : List (View.Piece (Elt F) S1x1 .f32) //
      ∀ (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS)) -∗ K ⟨⟩))
          ⊢ wp frame (wpE (defs₀ (F := F)) Variants.none c none) E (cc0__kernelA i arg1 harg1 arg2 harg2 arg3 harg3 arg4 harg4 arg5 harg5 arg6 harg6 arg7 harg7 arg8 harg8 arg9 harg9) K } := by
  refine ⟨?_, [], ?_, fun xi7 E K => ?run⟩
  case run =>
    simp only [cc0__kernelA_eq_skeleton]; unfold cc0__kernelA_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS

end Cert.KernelIdeal.Gen

end
-- ==== Proof.K0RunC.lean ====
/-
  Region 0's body at the last point (the scratch holds what the point before left, and is copied to the [1,1] output): on whole staging memrefs, the inputs' at their contents, the body runs to a
  continuation that holds the inputs' as they were and each buffer it stored into with its stores written, as
  pieces; the pieces are what the symbolic run finds.
-/
import proofs.«101463_j1391569404120_1_alg».proof.Proof.K0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S512x64 .f32) (harg1 : arg1.IsWhole) (arg2 : Memref sig .tc .vmem S512x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) :
    Σ' (L6 : List (View.Piece (Elt F) S512x4096 .f32)) (L7 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS)) -∗ K ⟨⟩))
          ⊢ wp frame (wpE (defs₀ (F := F)) Variants.none c none) E (cc0__kernelA i arg1 harg1 arg2 harg2 arg3 harg3 arg4 harg4 arg5 harg5 arg6 harg6 arg7 harg7 arg8 harg8 arg9 harg9) K } := by
  refine ⟨?_, ?_, ?_, fun E K => ?run⟩
  case run =>
    simp only [cc0__kernelA_eq_skeleton]; unfold cc0__kernelA_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; iexact H7
    iexists _; iexact HS

end Cert.KernelIdeal.Gen

end
-- ==== Proof.K0Data.lean ====
/-
  Region 0, point by point.  What each case of the body leaves in the tile's buffer, in the [1,1] output's buffer
  and in the scratch is its stores read back; each covers its buffer.  `outsAt0 n` is what the three hold after
  point `n`: the first point's case from the input blocks alone, every later point's from the input blocks and the
  scratch as the point before left it — the running maximum.  The region invariant names the scratch at that value
  from the second point on; the proof data hands each input back as found and each output as `outsAt0` says.
-/
import proofs.«101463_j1391569404120_1_alg».proof.Proof.K0RunA
import proofs.«101463_j1391569404120_1_alg».proof.Proof.K0RunB
import proofs.«101463_j1391569404120_1_alg».proof.Proof.K0RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The runs at a point's own memrefs -/

abbrev runA (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc0 hc1 x0 x1 x2 x3 x4 x5
abbrev runB (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc0 hc1 x0 x1 x2 x3 x4 x5 xs
abbrev runC (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc0 hc1 x0 x1 x2 x3 x4 x5 xs

/-! ## What each case leaves, and that its stores cover -/

theorem cover6_A (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (y : S512x4096.Idx) :
    ∃ pc ∈ (runA c t hc0 hc1 x0 x1 x2 x3 x4 x5).1, y ∈ pc.1.set :=
  View.cover_of_tiledL (runA c t hc0 hc1 x0 x1 x2 x3 x4 x5).1 S512x4096.size (by sl_kernel_rfl) y
def out6_A (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) : Vec F S512x4096 .f32 :=
  VO0_6.read (Elt F) (VO0_6.writes (Elt F) VO0_6.junk (runA c t hc0 hc1 x0 x1 x2 x3 x4 x5).1)
/-- (Away from the last point nothing is stored into the [1,1] output: no pieces, a placeholder nothing consults.) -/
def out7_A (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) : Vec F S1x1 .f32 :=
  VO0_7.read (Elt F) (VO0_7.writes (Elt F) VO0_7.junk (runA c t hc0 hc1 x0 x1 x2 x3 x4 x5).2.1)
theorem scover_A (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (y : S1x1.Idx) :
    ∃ pc ∈ (runA c t hc0 hc1 x0 x1 x2 x3 x4 x5).2.2.1, y ∈ pc.1.set :=
  View.cover_of_tiledL (runA c t hc0 hc1 x0 x1 x2 x3 x4 x5).2.2.1 S1x1.size (by sl_kernel_rfl) y
def sout_A (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) : Vec F S1x1 .f32 :=
  VS0.read (Elt F) (VS0.writes (Elt F) VS0.junk (runA c t hc0 hc1 x0 x1 x2 x3 x4 x5).2.2.1)

theorem cover6_B (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) (y : S512x4096.Idx) :
    ∃ pc ∈ (runB c t hc0 hc1 x0 x1 x2 x3 x4 x5 xs).1, y ∈ pc.1.set :=
  View.cover_of_tiledL (runB c t hc0 hc1 x0 x1 x2 x3 x4 x5 xs).1 S512x4096.size (by sl_kernel_rfl) y
def out6_B (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) : Vec F S512x4096 .f32 :=
  VO0_6.read (Elt F) (VO0_6.writes (Elt F) VO0_6.junk (runB c t hc0 hc1 x0 x1 x2 x3 x4 x5 xs).1)
/-- (Away from the last point nothing is stored into the [1,1] output: no pieces, a placeholder nothing consults.) -/
def out7_B (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) : Vec F S1x1 .f32 :=
  VO0_7.read (Elt F) (VO0_7.writes (Elt F) VO0_7.junk (runB c t hc0 hc1 x0 x1 x2 x3 x4 x5 xs).2.1)
theorem scover_B (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) (y : S1x1.Idx) :
    ∃ pc ∈ (runB c t hc0 hc1 x0 x1 x2 x3 x4 x5 xs).2.2.1, y ∈ pc.1.set :=
  View.cover_of_tiledL (runB c t hc0 hc1 x0 x1 x2 x3 x4 x5 xs).2.2.1 S1x1.size (by sl_kernel_rfl) y
def sout_B (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) : Vec F S1x1 .f32 :=
  VS0.read (Elt F) (VS0.writes (Elt F) VS0.junk (runB c t hc0 hc1 x0 x1 x2 x3 x4 x5 xs).2.2.1)

theorem cover6_C (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) (y : S512x4096.Idx) :
    ∃ pc ∈ (runC c t hc0 hc1 x0 x1 x2 x3 x4 x5 xs).1, y ∈ pc.1.set :=
  View.cover_of_tiledL (runC c t hc0 hc1 x0 x1 x2 x3 x4 x5 xs).1 S512x4096.size (by sl_kernel_rfl) y
def out6_C (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) : Vec F S512x4096 .f32 :=
  VO0_6.read (Elt F) (VO0_6.writes (Elt F) VO0_6.junk (runC c t hc0 hc1 x0 x1 x2 x3 x4 x5 xs).1)
theorem cover7_C (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) (y : S1x1.Idx) :
    ∃ pc ∈ (runC c t hc0 hc1 x0 x1 x2 x3 x4 x5 xs).2.1, y ∈ pc.1.set :=
  View.cover_of_tiledL (runC c t hc0 hc1 x0 x1 x2 x3 x4 x5 xs).2.1 S1x1.size (by sl_kernel_rfl) y
/-- (Away from the last point nothing is stored into the [1,1] output: no pieces, a placeholder nothing consults.) -/
def out7_C (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) : Vec F S1x1 .f32 :=
  VO0_7.read (Elt F) (VO0_7.writes (Elt F) VO0_7.junk (runC c t hc0 hc1 x0 x1 x2 x3 x4 x5 xs).2.1)
theorem scover_C (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) (y : S1x1.Idx) :
    ∃ pc ∈ (runC c t hc0 hc1 x0 x1 x2 x3 x4 x5 xs).2.2.1, y ∈ pc.1.set :=
  View.cover_of_tiledL (runC c t hc0 hc1 x0 x1 x2 x3 x4 x5 xs).2.2.1 S1x1.size (by sl_kernel_rfl) y
def sout_C (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) : Vec F S1x1 .f32 :=
  VS0.read (Elt F) (VS0.writes (Elt F) VS0.junk (runC c t hc0 hc1 x0 x1 x2 x3 x4 x5 xs).2.2.1)

section Region0
variable (V : (c : Dev nD) → (b : Ref sig .tc) → Buf (Elt F) ((c : Thread nD τ).loc b))

theorem not_first (n : ℕ) (hn : n + 1 < cfg0.N) : ¬cond0_0 (grid0.coords ⟨n + 1, hn⟩) := fun h => by
  have h' := (hcond0_0 ⟨n + 1, hn⟩).mp h
  have hN : n + 1 < 16 := lt_of_lt_of_eq hn (show cfg0.N = 16 from N_0)
  (try dsimp only at h'); omega

/-! ## What the outputs and the scratch hold after each point -/

/-- After point `n`: the tile's buffer, the [1,1] output's buffer, the scratch. -/
def outsAt0 (c : Dev nD) : (n : ℕ) → n < cfg0.N → Vec F S512x4096 .f32 × Vec F S1x1 .f32 × Vec F S1x1 .f32
  | 0, hn =>
    (out6_A c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
     out7_A c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
     sout_A c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : (n + 1) % 16 = 15 then
      (out6_C c ⟨n + 1, hn⟩ (not_first n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
       out7_C c ⟨n + 1, hn⟩ (not_first n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
       sout_C c ⟨n + 1, hn⟩ (not_first n hn) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)
    else
      (out6_B c ⟨n + 1, hn⟩ (not_first n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
       out7_B c ⟨n + 1, hn⟩ (not_first n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
       sout_B c ⟨n + 1, hn⟩ (not_first n hn) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)

/-- The region invariant before position `n`: before the first point the class's; afterwards the scratch at what the
    point before left, the other call's scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ others0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2.2) ∗ others0 (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ others0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end Region0

section Region0b
variable (V : (c : Dev nD) → (b : Ref sig .tc) → Buf (Elt F) ((c : Thread nD τ).loc b))

/-! ## `outsAt0` case by case -/

theorem outsAt0_A (c : Dev nD) (t : Fin cfg0.N) (hz : t.val = 0) (hc0 : cond0_0 (grid0.coords t)) (hc1 : ¬cond0_1 (grid0.coords t)) :
    outsAt0 V c t.val t.isLt = (out6_A c t hc0 hc1 (iblk0 V c 0 t) (iblk0 V c 1 t) (iblk0 V c 2 t) (iblk0 V c 3 t) (iblk0 V c 4 t) (iblk0 V c 5 t), out7_A c t hc0 hc1 (iblk0 V c 0 t) (iblk0 V c 1 t) (iblk0 V c 2 t) (iblk0 V c 3 t) (iblk0 V c 4 t) (iblk0 V c 5 t), sout_A c t hc0 hc1 (iblk0 V c 0 t) (iblk0 V c 1 t) (iblk0 V c 2 t) (iblk0 V c 3 t) (iblk0 V c 4 t) (iblk0 V c 5 t)) := by
  obtain ⟨n, hn⟩ := t
  cases n with
  | zero => rfl
  | succ n => exact absurd hz (Nat.succ_ne_zero n)

theorem outsAt0_B (c : Dev nD) (t : Fin cfg0.N) (hz : t.val ≠ 0) (h1 : ¬t.val % 16 = 15) (hc0 : ¬cond0_0 (grid0.coords t)) (hc1 : ¬cond0_1 (grid0.coords t)) :
    outsAt0 V c t.val t.isLt = (out6_B c t hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out7_B c t hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout_B c t hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact absurd rfl hz
  | succ n => exact (dif_neg h1).trans rfl

theorem outsAt0_C (c : Dev nD) (t : Fin cfg0.N) (hz : t.val ≠ 0) (h1 : t.val % 16 = 15) (hc0 : ¬cond0_0 (grid0.coords t)) (hc1 : cond0_1 (grid0.coords t)) :
    outsAt0 V c t.val t.isLt = (out6_C c t hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out7_C c t hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout_C c t hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact absurd rfl hz
  | succ n => exact (dif_pos h1).trans rfl

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point.  The inputs' memrefs hold their blocks; the point is the first, the last, or in between,
    and that case's run applies: the invariant hands it the scratch (at anything at the first point, else at what the
    point before left) and takes it back at this point's value; away from the last point the [1,1] output's buffer
    passes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases hz : t.val = 0
  · have h0 : t.val % 16 = 0 := by omega
    have h1 : ¬t.val % 16 = 15 := by omega
    rw [Dat.leavesExact_idle (dat0 V c) 7 t (idleAt0_7 t (fun h => h1 ((hcond0_1 t).mp h))) (noFlush0_7 t (fun h => h1 ((hcond0_1 t).mp h)))]
    rw [outsAt0_A V c t hz ((hcond0_0 t).mpr h0) (fun h => h1 ((hcond0_1 t).mp h))]
    unfold out6_A sout_A; (try dsimp only)
    rw [PhiS_castSucc V c t, PhiS_zero V c _ _ hz, PhiA0_eq]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c t ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    iintro ⟨H0, H1, H2, H3, H4, H5, ⟨%e6, H6⟩, H7, ⟨%es, HS⟩⟩
    isplitl [HS Hoth Hg]
    · isplitl [HS Hoth]
      · isplitl [HS]
        · unfold owns; iexists _; isplitr
          swap; · iexact HS
          ipureintro; exact View.read_writes_of_cover _ _ _ _ _ (scover_A c t _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6_A c t _ _ _ _ _ _ _ _)
    iexists _; iexact H7
  · have h0 : ¬t.val % 16 = 0 := by omega
    by_cases h1 : t.val % 16 = 15
    ·
      rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t hz h1 (fun h => h0 ((hcond0_0 t).mp h)) ((hcond0_1 t).mpr h1)]
      unfold out6_C out7_C sout_C; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c t (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_C c t _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_C c t _ _ _ _ _ _ _ _ _)
      unfold owns; iexists _; isplitr
      swap; · iexact H7
      ipureintro; exact View.read_writes_of_cover _ _ _ _ _ (cover7_C c t _ _ _ _ _ _ _ _ _)
    ·
      rw [Dat.leavesExact_idle (dat0 V c) 7 t (idleAt0_7 t (fun h => h1 ((hcond0_1 t).mp h))) (noFlush0_7 t (fun h => h1 ((hcond0_1 t).mp h)))]
      rw [outsAt0_B V c t hz h1 (fun h => h0 ((hcond0_0 t).mp h)) (fun h => h1 ((hcond0_1 t).mp h))]
      unfold out6_B sout_B; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c t (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, ⟨%es, HS⟩⟩
      isplitl [HS Hoth Hg]
      · isplitl [HS Hoth]
        · isplitl [HS]
          · unfold owns; iexists _; isplitr
            swap; · iexact HS
            ipureintro; exact View.read_writes_of_cover _ _ _ _ _ (scover_B c t _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_B c t _ _ _ _ _ _ _ _ _)
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch's named value is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, Hoth⟩, Hg⟩
  isplitl [HS Hoth]
  · isplitl [HS]
    · iexists _; iexact HS
    iexact Hoth
  iexact Hg

theorem hout0 (c : Dev nD) : (dat0 V c).Φ (Fin.last cfg0.N) ⊢ Pipeline.ΦA spec0 c :=
  Phi_out0 V c _ (by rw [Fin.val_last]; have : cfg0.N = 16 := N_0; omega)

end Region0b

end Cert.KernelIdeal.Gen

end
-- ==== Proof.K1Data.lean ====
/-
  Region 1 (the layer quantised on its own grid, tile by tile), whole: 32 points, one per tile of 256 rows.
  The body reads the [1,1] step and a tile of the layer and stores the quantised tile's positive part; nothing
  is carried between points.  Here: each window's block at a point, what the body leaves in the output's buffer
  (its one store, covering the buffer), the body's triple by symbolic execution, the proof data and the body
  obligation at every point.
-/
import proofs.«101463_j1391569404120_1_alg».proof.Proof.Gen.KernelIdeal.Launch
import proofs.«101463_j1391569404120_1_alg».proof.Proof.Gen.KernelIdeal.Skeleton
import proofs.«101463_j1391569404120_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_s : Rect S1x1 := Rect.unit (s := S1x1) ![0, 0] S1x1.size inb_S1x1_S1x1_0_0
abbrev r1_t : Rect S256x4096 := Rect.unit (s := S256x4096) ![0, 0] S256x4096.size inb_S256x4096_S256x4096_0_0

/-- The output's staging buffer after the body, from the step and the layer's tile: its one store. -/
def out1_2 (x0 : Vec F S1x1 .f32) (x1 : Vec F S256x4096 .f32) : Vec F S256x4096 .f32 :=
  View.canon [⟨r1_t, k1_pay1 (View.ld x0 r1_s) (View.ld x1 r1_t)⟩]

/-- The store covers the buffer. -/
theorem cover1_2 (p0 : Vec F S256x4096 .f32) (y : S256x4096.Idx) :
    ∃ pc ∈ ([⟨r1_t, p0⟩] : List (View.Piece (Elt F) S256x4096 .f32)), y ∈ pc.1.set :=
  View.cover_of_tiled [⟨r1_t, p0⟩] S256x4096.size (by rfl) y

/-! ## The body's triple -/

set_option maxHeartbeats 1000000 in
theorem sound_kernel1 (c : Dev nD) (E : Set ℕ) (i : grid1.Coords) (arg1 : Memref sig .tc .vmem S1x1 .f32) (harg1 : arg1.IsWhole) (arg2 : Memref sig .tc .vmem S256x4096 .f32) (harg2 : arg2.IsWhole) (arg3 : Memref sig .tc .vmem S256x4096 .f32) (harg3 : arg3.IsWhole)
    (x0 : Vec F S1x1 .f32) (x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__kernelB i arg1 harg1 arg2 harg2 arg3 harg3) K := by
  simp only [cc1__kernelB_eq_skeleton]; unfold cc1__kernelB_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t`
    each input's buffer at its block and the output's at `out1_2` of the input blocks; the class's invariant
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.KRun.lean ====
/-
  The two regions as records around the thread states, and the whole run.

  Region 0 is entered with every unscoped buffer as the host lines before it leave them and left with its two result
  arrays at what its write-backs leave; the host lines between compute the step from the [1,1] result; region 1 is
  entered from that and left with the result array at what ITS write-backs leave.  Beside the buffers the thread
  state carries the generator register at some state and the core owing nothing.
-/
import proofs.«101463_j1391569404120_1_alg».proof.Proof.KRunCond
import proofs.«101463_j1391569404120_1_alg».proof.Proof.K0Data
import proofs.«101463_j1391569404120_1_alg».proof.Proof.K1Data

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at the regions' boundaries -/

/-- Region 0's entry contents, read at the TensorCore's references. -/
abbrev VR0 : (c : Dev nD) → (b : Ref sig .tc) → Buf (Elt F) ((c : Thread nD τ).loc b) := fun c b => V13 m c b

/-- What region 0's write-backs leave in its two result arrays. -/
def res0_0 (c : Dev nD) : Buf (Elt F) ((c : Thread nD τ).loc main_v32_0) := (dat0 (VR0 m) c).arrAt 6 cfg0.N
def res0_1 (c : Dev nD) : Buf (Elt F) ((c : Thread nD τ).loc main_v32_1) := (dat0 (VR0 m) c).arrAt 7 cfg0.N

/-- Core `c`'s unscoped buffers when region 1 is entered. -/
abbrev W15 (c : Dev nD) : Valuation τ sig (Elt F) :=
  StableHlo.after hostOps1 (Function.update (Function.update (V13 m c) main_v32_0 (res0_0 m c)) main_v32_1 (res0_1 m c))
abbrev VR1 : (c : Dev nD) → (b : Ref sig .tc) → Buf (Elt F) ((c : Thread nD τ).loc b) := fun c b => W15 m c b

/-- What region 1's write-backs leave in the result array. -/
def res1 (c : Dev nD) : Buf (Elt F) ((c : Thread nD τ).loc main_v37) := (dat1 (VR1 m) c).arrAt 2 cfg1.N

open Classical in
/-- The contents the regions leave, as the conditional run's valuations read them. -/
def outs : Outs (F := F) := fun _ r c =>
  Function.update (Function.update (Function.update (fun r : Ref sig .tc => m ((c : Thread nD τ).loc r)) main_v32_0 (res0_0 m c)) main_v32_1 (res0_1 m c)) main_v37 (res1 m c) r

theorem outs_v32_0 (J : ℕ) (c : Dev nD) : outs m J main_v32_0 c = res0_0 m c := by
  unfold outs; rw [Function.update_of_ne (by decide), Function.update_of_ne (by decide), Function.update_self]
theorem outs_v32_1 (J : ℕ) (c : Dev nD) : outs m J main_v32_1 c = res0_1 m c := by
  unfold outs; rw [Function.update_of_ne (by decide), Function.update_self]
theorem outs_v37 (J : ℕ) (c : Dev nD) : outs m J main_v37 c = res1 m c := by
  unfold outs; rw [Function.update_self]

theorem V14_eq (c : Dev nD) : V14 m (outs m) c = Function.update (Function.update (V13 m c) main_v32_0 (res0_0 m c)) main_v32_1 (res0_1 m c) := by
  show Function.update (Function.update (V13 m c) main_v32_0 (outs m 14 main_v32_0 c)) main_v32_1 (outs m 14 main_v32_1 c) = _
  rw [outs_v32_0, outs_v32_1]
theorem V15_eq (c : Dev nD) : V15 m (outs m) c = W15 m c := by
  show StableHlo.after hostOps1 (V14 m (outs m) c) = _
  rw [V14_eq]
theorem V16_v37 (c : Dev nD) : V16 m (outs m) c main_v37 = res1 m c := by
  show Function.update (V15 m (outs m) c) main_v37 (outs m 16 main_v37 c) main_v37 = _
  rw [Function.update_self, outs_v37]

/-! ## The proof data family and the thread state -/

def pdats : (p : Fin 2) → (c : Dev nD) → Dat τ (Elt F) Unit ℕ (UR sig nD τ) ℕ (cfgs p) c
  | ⟨0, _⟩ => fun c => dat0 (VR0 m) c
  | ⟨1, _⟩ => fun c => dat1 (VR1 m) c
abbrev L₀ : GSem nD τ sig → Finset Unit := fun _ => ∅
abbrev lv₀ : GSem nD τ sig → Unit → ℕ := fun _ _ => 0
/-- What rides beside the buffers: the generator register at some state, the core owing nothing. -/
abbrev Rst (c : Dev nD) : sProp 𝕄 := iprop((∃ r, prngReg c r) ∗ ∃ W, owes (c : Thread nD τ) (0 : CellTallies nD τ sig Unit) W)

/-! ## Region 0's exit contents -/

theorem hF0 (c : Dev nD) : ∀ w : Fin cfg0.W, (pdats m 0 c).arrAt w cfg0.N = V14 m (outs m) c (Pipeline.arrRef spec0 w)
  | 0 => ((dat0 (VR0 m) c).arrAt_in 0 rfl _).trans ((A_eq0 (VR0 m) c 0).trans (V14_of m (outs m) c _ (by decide)).symm)
  | 1 => ((dat0 (VR0 m) c).arrAt_in 1 rfl _).trans ((A_eq0 (VR0 m) c 1).trans (V14_of m (outs m) c _ (by decide)).symm)
  | 2 => ((dat0 (VR0 m) c).arrAt_in 2 rfl _).trans ((A_eq0 (VR0 m) c 2).trans (V14_of m (outs m) c _ (by decide)).symm)
  | 3 => ((dat0 (VR0 m) c).arrAt_in 3 rfl _).trans ((A_eq0 (VR0 m) c 3).trans (V14_of m (outs m) c _ (by decide)).symm)
  | 4 => ((dat0 (VR0 m) c).arrAt_in 4 rfl _).trans ((A_eq0 (VR0 m) c 4).trans (V14_of m (outs m) c _ (by decide)).symm)
  | 5 => ((dat0 (VR0 m) c).arrAt_in 5 rfl _).trans ((A_eq0 (VR0 m) c 5).trans (V14_of m (outs m) c _ (by decide)).symm)
  | 6 => by
    rw [V14_eq]
    show res0_0 m c = _
    rw [Function.update_of_ne (StableHlo.devRef_ne_of_ne (by decide)), Function.update_self]
  | 7 => by
    rw [V14_eq]
    show res0_1 m c = _
    rw [Function.update_self]
  | ⟨_ + 8, h⟩ => absurd h (Nat.not_lt.2 (Nat.le_add_left _ _))
theorem hrest0 (c : Dev nD) : ∀ b, b ∉ Finset.univ.image (Pipeline.arrRef spec0) → V14 m (outs m) c b = VR0 m c b := by
  intro b hb
  refine V14_of m (outs m) c b ?_
  intro h
  simp only [List.mem_cons, List.not_mem_nil, or_false] at h
  rcases h with rfl | rfl
  · exact hb (Finset.mem_image.mpr ⟨6, Finset.mem_univ _, rfl⟩)
  · exact hb (Finset.mem_image.mpr ⟨7, Finset.mem_univ _, rfl⟩)
theorem hF1 (c : Dev nD) : ∀ w : Fin cfg1.W, (pdats m 1 c).arrAt w cfg1.N = V16 m (outs m) c (Pipeline.arrRef spec1 w)
  | 0 => ((dat1 (VR1 m) c).arrAt_in 0 rfl _).trans ((A_eq1 (VR1 m) c 0).trans ((congrFun (V15_eq m c) _).symm.trans (V16_of m (outs m) c _ (by decide)).symm))
  | 1 => ((dat1 (VR1 m) c).arrAt_in 1 rfl _).trans ((A_eq1 (VR1 m) c 1).trans ((congrFun (V15_eq m c) _).symm.trans (V16_of m (outs m) c _ (by decide)).symm))
  | 2 => (V16_v37 m c).symm
  | ⟨_ + 3, h⟩ => absurd h (Nat.not_lt.2 (Nat.le_add_left _ _))
theorem hrest1 (c : Dev nD) : ∀ b, b ∉ Finset.univ.image (Pipeline.arrRef spec1) → V16 m (outs m) c b = VR1 m c b := by
  intro b hb
  refine (V16_of m (outs m) c b ?_).trans (congrFun (V15_eq m c) _)
  intro h
  simp only [List.mem_cons, List.not_mem_nil, or_false] at h
  rcases h with rfl
  exact hb (Finset.mem_image.mpr ⟨2, Finset.mem_univ _, rfl⟩)

/-! ## The regions as segments -/

set_option backward.isDefEq.respectTransparency.types false in
def reg0 : RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L₀ lv₀ 0 fun _ _ => rfl
  pre c := iprop(StableHlo.held (c : Thread nD τ) (Pipeline.ucRefs τ sig) (V13 m c) ∗ Rst (F := F) c)
  post c := iprop(StableHlo.held (c : Thread nD τ) (Pipeline.ucRefs τ sig) (V14 m (outs m) c) ∗ Rst (F := F) c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (VR0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (fun b => V14 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ L₀ lv₀ 1 fun _ _ => rfl
  pre c := iprop(StableHlo.held (c : Thread nD τ) (Pipeline.ucRefs τ sig) (W15 m c) ∗ Rst (F := F) c)
  post c := iprop(StableHlo.held (c : Thread nD τ) (Pipeline.ucRefs τ sig) (V16 m (outs m) c) ∗ Rst (F := F) c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR1 m c) (fun b => V16 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` terminates, nothing faulting; the result array ends at
    what region 1's write-backs leave and every argument array as launched. -/
theorem run_all : θ_run defs (onTc (τ := τ) (main (F := F))) ⟨m, fun _ => 0, ρ⟩ (fun r => ∀ c : Dev nD,
      r.2.mem ((c.tc : Thread nD τ).loc main_v37) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (V16_v37 m c), (h c).2⟩)
    (run_cond m ρ emb₁ () Variants.none L₀ lv₀ (fun _ _ => rfl) (outs m) (pdats m) 0 (fun _ => iprop(emp))
      (initOf (Pipeline.cells cfgs cellOf_inj) (Pipeline.launchToks cfgs cellOf_inj))
      (by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (fun _ c => Rst (F := F) c)
      (Pipeline.initEach L₀ lv₀ fun c => by
        iintro ⟨⟨-, HO, -, Hp, -⟩, -⟩
        imodintro
        isplitl [Hp]; · iexists _; iexact Hp
        iexists ∅; iexact HO)
      (fun c => by iintro ⟨-, H⟩; iexact H)
      (reg0 m) (fun c => .rfl) (fun c => .rfl)
      (reg1 m) (fun c => by rw [V15_eq]; exact .rfl) (fun c => .rfl))

end Cert.KernelIdeal.Gen

end
-- ==== Proof.Spec.lean ====
/-
  The mathematics both programs compute, on the extended reals, entry by entry.

  A tensor `f` is quantised on its own grid: the step is `max (top f / 127) tiny`, where `top f` is the
  largest magnitude of an entry, and an entry `x` goes to `min 127 (max (-128) (rne (x / step))) * step`
  (`rne` = nearest integer, ties to even).  The layer is

    pre (i, j) = (∑ k, (∑ a, x0 (i, a) * q0 (a, k)) * (∑ a, x1 (i, a) * q1 (a, k)) * q2 (j, k)) + b j

  with `q0 q1 q2` the three factor matrices quantised, and the result is `max (quant pre (i, j)) 0`:
  the layer quantised on ITS own grid, then the positive part.

  One program adds back the difference, `y + (quant y - y)`, where the other uses `quant y`; the two agree
  wherever `y` is a real number (`add_sub_self_of_real`), which is where finiteness of the inputs is used.
-/
import Idealize.ShloMosaic.PureOps.Ideal
import Mathlib.Order.CompleteLattice.Finset
import Mathlib.Algebra.BigOperators.Group.Finset.Basic

noncomputable section

namespace Cert.Spec

open Idealize.ShloMosaic

/-- The grid's upper end, 127. -/
abbrev hi : EReal := Ideal.ofBits .f32 0x42FE0000#32
/-- The grid's lower end, -128. -/
abbrev lo : EReal := Ideal.ofBits .f32 0xC3000000#32
/-- The smallest step allowed (the float nearest 1e-8). -/
abbrev tiny : EReal := Ideal.ofBits .f32 0x322BCC77#32
/-- Zero. -/
abbrev zero : EReal := Ideal.ofBits .f32 0x00000000#32

/-- The magnitude of an extended real. -/
def mag (x : EReal) : EReal := max x (-x)

/-- The step of the grid of a tensor whose largest magnitude is `M`. -/
def step (M : EReal) : EReal := max (Ideal.div M hi) tiny

/-- Nearest integer, ties to even (the infinities fixed). -/
def rne (x : EReal) : EReal := Ideal.liftRound Ideal.roundHalfEven x

/-- The entry `x` moved onto the grid of step `s`, clipped to `[-128, 127]` steps. -/
def onGrid (s x : EReal) : EReal := min hi (max lo (rne (Ideal.div x s))) * s

/-- The largest magnitude of a finite family (`⊥` for the empty one). -/
def top {ι : Type} [Fintype ι] (f : ι → EReal) : EReal := Finset.univ.sup fun i => mag (f i)

/-- A tensor quantised on its own grid. -/
def quant {ι : Type} [Fintype ι] (f : ι → EReal) (i : ι) : EReal := onGrid (step (top f)) (f i)

/-- The layer before its own quantisation: the two thin products, multiplied entry by entry, times the third
    factor transposed, plus the bias. -/
def pre (x0 x1 : Fin 8192 × Fin 64 → EReal) (f0 f1 : Fin 64 × Fin 64 → EReal) (f2 : Fin 4096 × Fin 64 → EReal)
    (b : Fin 4096 → EReal) (ij : Fin 8192 × Fin 4096) : EReal :=
  (∑ k : Fin 64, ((∑ a : Fin 64, x0 (ij.1, a) * quant f0 (a, k)) * (∑ a : Fin 64, x1 (ij.1, a) * quant f1 (a, k)))
      * quant f2 (ij.2, k)) + b ij.2

/-- The result: the layer quantised on its own grid, then the positive part. -/
def out (x0 x1 : Fin 8192 × Fin 64 → EReal) (f0 f1 : Fin 64 × Fin 64 → EReal) (f2 : Fin 4096 × Fin 64 → EReal)
    (b : Fin 4096 → EReal) (ij : Fin 8192 × Fin 4096) : EReal :=
  max (quant (pre x0 x1 f0 f1 f2 b) ij) zero

/-- An extended real that is a real number. -/
def IsReal (x : EReal) : Prop := x ≠ ⊤ ∧ x ≠ ⊥

/-- Adding back a difference: `y + (q - y) = q` when `y` is a real number. -/
theorem add_sub_self_of_real {y : EReal} (hy : IsReal y) (q : EReal) : y + (q - y) = q := by
  obtain ⟨r, rfl⟩ : ∃ r : ℝ, y = (r : EReal) := ⟨y.toReal, (EReal.coe_toReal hy.1 hy.2).symm⟩
  induction q using EReal.rec with
  | bot => simp
  | top => simp
  | coe s => rw [← EReal.coe_sub, ← EReal.coe_add]; congr 1; ring

end Cert.Spec

end
-- ==== Proof.KPayQuant.lean ====
/-
  The second kernel's tile, entry by entry, on the extended reals.

  The second kernel reads the grid's step `s` from a 1 × 1 matrix and moves every entry `x` of a 256 × 4096
  tile onto the grid: `x / s` is rounded to the nearest integer (ties to even), clipped to [-128, 127], and
  multiplied by `s` again; then the positive part is taken.  The four constants stay as the words the program
  prints.
-/
import proofs.«101463_j1391569404120_1_alg».proof.Proof.Gen.KernelIdeal.Skeleton
import proofs.«101463_j1391569404120_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- The one entry of a 1 × 1 matrix, extracted at position (0, 0). -/
theorem extract00 (v0 : Vec Ideal S1x1 .f32) (h : ∀ a, (![0, 0] : Fin 2 → Nat) a < S1x1.size a) :
    extractAt ![0, 0] v0 h = v0 (ix2 (0 : Fin 1) (0 : Fin 1)) :=
  congrArg v0 (funext fun a => Fin.ext (by match a with | ⟨0, _⟩ => rfl | ⟨1, _⟩ => rfl))

/-- The quantised tile at entry (p, q): the entry moved onto the grid of step `s`, then its positive part. -/
theorem pay1_apply (v0 : Vec Ideal S1x1 .f32) (v2 : Vec Ideal S256x4096 .f32) (p : Fin 256) (q : Fin 4096) :
    k1_pay1 (F := Ideal) v0 v2 (ix2 p q)
      = max (Cert.Spec.onGrid (v0 (ix2 (0 : Fin 1) (0 : Fin 1))) (v2 (ix2 p q))) Cert.Spec.zero := by
  unfold k1_pay1
  rw [shapeCast_self, extract00]
  rfl

end Cert.KernelIdeal.Pay

end
-- ==== Proof.KVal1.lean ====
/-
  The second kernel's output array, whole, on the extended reals.

  The second pallas_call walks the layer in 32 tiles of 256 rows.  At every tile it reads the same 1 × 1 step and
  the tile's rows of the layer, and writes the quantised tile's positive part to the same rows of the output.
  So what a tile writes back is its own block of ONE function of the arrays the region finds — entry `i` of the
  layer moved onto the grid of that step, then its positive part — and since the 32 blocks tile the 8192 rows,
  the output array ends as that function everywhere.
-/
import proofs.«101463_j1391569404120_1_alg».proof.Proof.K1Data
import proofs.«101463_j1391569404120_1_alg».proof.Proof.KPayQuant
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The all-zero offset of a whole-buffer access. -/
theorem offset_zero : (![0, 0] : Fin 2 → Nat) = fun _ => 0 := funext fun a => by fin_cases a <;> rfl

/-- The quantised layer's positive part, as one function of the step and the layer the region finds. -/
def quantised (c : Dev nD) : S8192x4096.Idx → EReal :=
  fun i => max (Cert.Spec.onGrid (V c main_v36 (ix2 (0 : Fin 1) (0 : Fin 1))) (V c main_v32_0 i)) Cert.Spec.zero

/-- The printed index maps, decided over the 32 tiles: the step's block is always block (0, 0); the layer's block
    and the output's block at tile `t` are both block (t, 0). -/
theorem blocks_at1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What tile `t` writes back is block `t` of the quantised layer. -/
theorem flushed1_eq (c : Dev nD) (t : Fin cfg1.N) :
    (dat1 (F := Ideal) V c).flushed 2 t = ((cfg1.win 2).blk t).view.read (Elt Ideal) (quantised V c) := by
  show (cfg1.win 2).cut (grid1.coords t) ((dat1 V c).after 2 t) = _
  rw [after1_2]
  unfold out1_2
  rw [View.canon_unit_zero offset_zero]
  simp only [View.ld_unit_zero (S := S1x1) offset_zero, View.ld_unit_zero (S := S256x4096) offset_zero]
  obtain ⟨e0, e1, e2, e3, e4, e5⟩ := blocks_at1 t
  funext j
  obtain ⟨p, q, rfl⟩ : ∃ (p : Fin 256) (q : Fin 4096), j = ix2 p q := ⟨j 0, j 1, eq_ix2 j⟩
  show k1_pay1 (iblk1 V c 0 t) (iblk1 V c 1 t) (ix2 p q) = quantised V c (((cfg1.win 2).blk t).view.emb (ix2 p q))
  refine (Cert.KernelIdeal.Pay.pay1_apply _ _ p q).trans ?_
  unfold quantised
  -- the step is read at the array's one entry
  have h0 : iblk1 V c 0 t (ix2 (0 : Fin 1) (0 : Fin 1)) = V c main_v36 (ix2 (0 : Fin 1) (0 : Fin 1)) := by
    show V c main_v36 (((cfg1.win 0).blk t).view.emb (ix2 (0 : Fin 1) (0 : Fin 1))) = _
    refine congrArg (V c main_v36) ?_
    funext a; apply Fin.ext
    match a with
    | ⟨0, _⟩ => show win1_0.index t (0 : Fin 2) * 1 + 1 * 0 = 0; omega
    | ⟨1, _⟩ => show win1_0.index t (1 : Fin 2) * 1 + 1 * 0 = 0; omega
  -- the layer's tile is read at the rows the output's tile is written to
  have h1 : iblk1 V c 1 t (ix2 p q) = V c main_v32_0 (((cfg1.win 2).blk t).view.emb (ix2 p q)) := by
    show V c main_v32_0 (((cfg1.win 1).blk t).view.emb (ix2 p q)) = _
    refine congrArg (V c main_v32_0) ?_
    funext a; apply Fin.ext
    match a with
    | ⟨0, _⟩ =>
      show win1_1.index t (0 : Fin 2) * 256 + 1 * p.val = win1_2.index t (0 : Fin 2) * 256 + 1 * p.val; omega
    | ⟨1, _⟩ =>
      show win1_1.index t (1 : Fin 2) * 4096 + 1 * q.val = win1_2.index t (1 : Fin 2) * 4096 + 1 * q.val; omega
  rw [h0, h1]

/-- An index of the output array is in tile `t`'s block iff each coordinate is in the block's range on its axis. -/
theorem mem_blk1 (t : Fin cfg1.N) (i : S8192x4096.Idx) :
    i ∈ ((cfg1.win 2).blk t).view.set ↔ ∀ a : Fin 2, win1_2.index t a * S256x4096.size a ≤ (i a).val
      ∧ (i a).val < win1_2.index t a * S256x4096.size a + S256x4096.size a := by
  show i ∈ ((View.whole main_v37).slice (win1_2.rect t)).set ↔ _
  rw [View.set_slice_whole, Rect.mem_set_unit]
  exact Iff.rfl

/-- Every index of the output array is in some tile's block: row `r` is in tile `r / 256`. -/
theorem cover1 (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ : ∃ t : Fin cfg1.N, t.val = (i 0).val / 256 :=
    ⟨⟨(i 0).val / 256, by show _ < grid1.N; rw [N_1]; omega⟩, rfl⟩
  obtain ⟨e0, e1, e2, e3, e4, e5⟩ := blocks_at1 t
  refine ⟨t, flush1_2 t, ?_⟩
  rw [mem_blk1]
  intro a
  match a with
  | ⟨0, _⟩ =>
    show win1_2.index t (0 : Fin 2) * 256 ≤ (i 0).val ∧ (i 0).val < win1_2.index t (0 : Fin 2) * 256 + 256; omega
  | ⟨1, _⟩ =>
    show win1_2.index t (1 : Fin 2) * 4096 ≤ (i 1).val ∧ (i 1).val < win1_2.index t (1 : Fin 2) * 4096 + 4096; omega

/-- The output array after the region: the quantised layer's positive part, everywhere. -/
theorem final1 (c : Dev nD) :
    (dat1 (F := Ideal) V c).arrAt 2 cfg1.N
      = fun i : S8192x4096.Idx =>
          max (Cert.Spec.onGrid (V c main_v36 (ix2 (0 : Fin 1) (0 : Fin 1))) (V c main_v32_0 i)) Cert.Spec.zero :=
  (dat1 (F := Ideal) V c).arrAt_eq_of_cover 2 (quantised V c) (fun t _ => flushed1_eq V c t) cover1

end Cert.KernelIdeal.Val

end
-- ==== Proof.KVal0Pieces.lean ====
/-
  What each case of the first kernel's body leaves behind, as the body's arithmetic of what it loaded.

  A case's stores into a buffer are read back as one function.  In every case the tile's buffer takes ONE store
  through the whole buffer, of the tile computed from the six loaded blocks.  The scratch takes the raised
  maximum: at the first point the scratch is zeroed first and that zero is what the maximum is raised from; at a
  later point it is raised from what the scratch held.  At the last point the 1 × 1 output's buffer takes a copy
  of the scratch as just stored.  Loads and stores here all go through whole buffers at offset zero.
-/
import proofs.«101463_j1391569404120_1_alg».proof.Proof.K0Data
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.Tactic

variable {F : FTy → Type} [FloatOps F]

/-- The all-zero offset of a whole-buffer access. -/
theorem offset_zero' : (![0, 0] : Fin 2 → Nat) = fun _ => 0 := funext fun a => by fin_cases a <;> rfl

/-! ## The tile's buffer -/

theorem out6_A_eq (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) :
    out6_A c t hc0 hc1 x0 x1 x2 x3 x4 x5 = k0_pay3 x0 x1 x2 x3 x4 x5 := by
  unfold out6_A
  rw [View.read_writes_eq_canon _ _ _ (cover6_A c t hc0 hc1 x0 x1 x2 x3 x4 x5)]
  unfold runA kernelRun0_A
  dsimp only
  try sl_unfold_words
  rw [View.canon_cons_unit_zero offset_zero']
  simp only [View.readAt_eq_ld, Memref.IsWhole.read_unread, View.ld_unit_zero (S := S512x64) offset_zero', View.ld_unit_zero (S := S64x64) offset_zero', View.ld_unit_zero (S := S64x4096) offset_zero', View.ld_unit_zero (S := S1x4096) offset_zero', View.ld_unit_zero (S := S1x1) offset_zero']

theorem out6_B_eq (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) :
    out6_B c t hc0 hc1 x0 x1 x2 x3 x4 x5 xs = k0_pay3 x0 x1 x2 x3 x4 x5 := by
  unfold out6_B
  rw [View.read_writes_eq_canon _ _ _ (cover6_B c t hc0 hc1 x0 x1 x2 x3 x4 x5 xs)]
  unfold runB kernelRun0_B
  dsimp only
  try sl_unfold_words
  rw [View.canon_cons_unit_zero offset_zero']
  simp only [View.readAt_eq_ld, Memref.IsWhole.read_unread, View.ld_unit_zero (S := S512x64) offset_zero', View.ld_unit_zero (S := S64x64) offset_zero', View.ld_unit_zero (S := S64x4096) offset_zero', View.ld_unit_zero (S := S1x4096) offset_zero', View.ld_unit_zero (S := S1x1) offset_zero']

theorem out6_C_eq (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) :
    out6_C c t hc0 hc1 x0 x1 x2 x3 x4 x5 xs = k0_pay3 x0 x1 x2 x3 x4 x5 := by
  unfold out6_C
  rw [View.read_writes_eq_canon _ _ _ (cover6_C c t hc0 hc1 x0 x1 x2 x3 x4 x5 xs)]
  unfold runC kernelRun0_C
  dsimp only
  try sl_unfold_words
  rw [View.canon_cons_unit_zero offset_zero']
  simp only [View.readAt_eq_ld, Memref.IsWhole.read_unread, View.ld_unit_zero (S := S512x64) offset_zero', View.ld_unit_zero (S := S64x64) offset_zero', View.ld_unit_zero (S := S64x4096) offset_zero', View.ld_unit_zero (S := S1x4096) offset_zero', View.ld_unit_zero (S := S1x1) offset_zero']

/-! ## The scratch -/

theorem sout_A_eq (c : Dev nD) (t : Fin cfg0.N) (hc0 : cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) :
    sout_A c t hc0 hc1 x0 x1 x2 x3 x4 x5 = k0_pay1 (k0_pay4 x0 x1 x2 x3 x4 x5 k0_pay2) := by
  unfold sout_A
  rw [View.read_writes_eq_canon _ _ _ (scover_A c t hc0 hc1 x0 x1 x2 x3 x4 x5)]
  unfold runA kernelRun0_A
  dsimp only
  try sl_unfold_words
  rw [View.canon_cons_unit_zero offset_zero', View.readCov_unit_zero _ offset_zero']
  simp only [View.readAt_eq_ld, Memref.IsWhole.read_unread, View.ld_unit_zero (S := S512x64) offset_zero', View.ld_unit_zero (S := S64x64) offset_zero', View.ld_unit_zero (S := S64x4096) offset_zero', View.ld_unit_zero (S := S1x4096) offset_zero', View.ld_unit_zero (S := S1x1) offset_zero']

theorem sout_B_eq (c : Dev nD) (t : Fin cfg0.N) (hc0 : ¬cond0_0 (grid0.coords t)) (hc1 : ¬cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) :
    sout_B c t hc0 hc1 x0 x1 x2 x3 x4 x5 xs = k0_pay1 (k0_pay4 x0 x1 x2 x3 x4 x5 xs) := by
  unfold sout_B
  rw [View.read_writes_eq_canon _ _ _ (scover_B c t hc0 hc1 x0 x1 x2 x3 x4 x5 xs)]
  unfold runB kernelRun0_B
  dsimp only
  try sl_unfold_words
  rw [View.canon_cons_unit_zero offset_zero']
  simp only [View.readAt_eq_ld, Memref.IsWhole.read_unread, View.ld_unit_zero (S := S512x64) offset_zero', View.ld_unit_zero (S := S64x64) offset_zero', View.ld_unit_zero (S := S64x4096) offset_zero', View.ld_unit_zero (S := S1x4096) offset_zero', View.ld_unit_zero (S := S1x1) offset_zero']
  exact congrArg (fun z => k0_pay1 (k0_pay4 x0 x1 x2 x3 x4 x5 z))
    ((Memref.isWhole_whole cc0_scratch0).read_unread (Val := Elt F) xs)

theorem sout_C_eq (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) :
    sout_C c t hc0 hc1 x0 x1 x2 x3 x4 x5 xs = k0_pay1 (k0_pay4 x0 x1 x2 x3 x4 x5 xs) := by
  unfold sout_C
  rw [View.read_writes_eq_canon _ _ _ (scover_C c t hc0 hc1 x0 x1 x2 x3 x4 x5 xs)]
  unfold runC kernelRun0_C
  dsimp only
  try sl_unfold_words
  rw [View.canon_cons_unit_zero offset_zero']
  simp only [View.readAt_eq_ld, Memref.IsWhole.read_unread, View.ld_unit_zero (S := S512x64) offset_zero', View.ld_unit_zero (S := S64x64) offset_zero', View.ld_unit_zero (S := S64x4096) offset_zero', View.ld_unit_zero (S := S1x4096) offset_zero', View.ld_unit_zero (S := S1x1) offset_zero']
  exact congrArg (fun z => k0_pay1 (k0_pay4 x0 x1 x2 x3 x4 x5 z))
    ((Memref.isWhole_whole cc0_scratch0).read_unread (Val := Elt F) xs)

/-! ## The 1 × 1 output's buffer, at the last point -/

theorem out7_C_eq (c : Dev nD) (t : Fin cfg0.N) (hc0 : ¬cond0_0 (grid0.coords t)) (hc1 : cond0_1 (grid0.coords t)) (x0 : Vec F S512x64 .f32) (x1 : Vec F S512x64 .f32) (x2 : Vec F S64x64 .f32) (x3 : Vec F S64x64 .f32) (x4 : Vec F S64x4096 .f32) (x5 : Vec F S1x4096 .f32) (xs : Vec F S1x1 .f32) :
    out7_C c t hc0 hc1 x0 x1 x2 x3 x4 x5 xs = k0_pay1 (k0_pay4 x0 x1 x2 x3 x4 x5 xs) := by
  unfold out7_C
  rw [View.read_writes_eq_canon _ _ _ (cover7_C c t hc0 hc1 x0 x1 x2 x3 x4 x5 xs)]
  unfold runC kernelRun0_C
  dsimp only
  try sl_unfold_words
  rw [View.canon_cons_unit_zero offset_zero', View.readCov_unit_zero _ offset_zero']
  simp only [View.readAt_eq_ld, Memref.IsWhole.read_unread, View.ld_unit_zero (S := S512x64) offset_zero', View.ld_unit_zero (S := S64x64) offset_zero', View.ld_unit_zero (S := S64x4096) offset_zero', View.ld_unit_zero (S := S1x4096) offset_zero', View.ld_unit_zero (S := S1x1) offset_zero']
  exact congrArg (fun z => k0_pay1 (k0_pay4 x0 x1 x2 x3 x4 x5 z))
    ((Memref.isWhole_whole cc0_scratch0).read_unread (Val := Elt F) xs)

end Cert.KernelIdeal.Val

end
-- ==== Proof.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.KPayTile.lean ====
/-
  The first kernel's tile, entry by entry, on the extended reals.

  A tile is 512 rows of the layer before its own quantisation.  Two thin products, rows of `x0` against a
  64 × 64 factor and rows of `x1` against another, are multiplied entry by entry; the 512 × 64 result is
  multiplied by a 64 × 4096 factor; the bias row is added to every row.  Each product is taken into the zero
  accumulator, and on the extended reals a change of float format is the identity, so entry (p, q) is

    (∑ k, (∑ a, x0 (p, a) * f0 (a, k)) * (∑ a, x1 (p, a) * f1 (a, k)) * f2 (k, q)) + b (0, q).
-/
import proofs.«101463_j1391569404120_1_alg».proof.Proof.Gen.KernelIdeal.Skeleton
import proofs.«101463_j1391569404120_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- A 512 × 64 matrix times a 64 × 64 matrix, both narrowed to the short format on the way in (which changes
    nothing on the extended reals), into the zero accumulator: entry (p, k) is the sum over the shared axis. -/
theorem thin_apply (A : FVec Ideal S512x64 .f32) (B : FVec Ideal S64x64 .f32) (hb : FTy.bits .bf16 < FTy.bits .f32)
    (hc : S64x64.ShapeCasts S64x64) (p : Fin 512) (k : Fin 64) :
    matmul dot_S512x64_S64x64_S512x64_1_0_0_1_n_n none (truncf .bf16 A hb) (truncf .bf16 (shapeCast S64x64 B hc) hb)
        (constant (F := Ideal) S512x64 .f32 0x00000000#32) (ix2 p k)
      = ∑ a : Fin 64, A (ix2 p a) * B (ix2 a k) := by
  rw [shapeCast_self]
  exact Cert.SE.Lib.matmul_plain_apply dot_S512x64_S64x64_S512x64_1_0_0_1_n_n rfl rfl rfl rfl rfl rfl none
    (truncf .bf16 A hb) (truncf .bf16 B hb) p k

/-- A 512 × 64 matrix times a 64 × 4096 matrix, likewise. -/
theorem wide_apply (A : FVec Ideal S512x64 .f32) (B : FVec Ideal S64x4096 .f32) (hb : FTy.bits .bf16 < FTy.bits .f32)
    (hc : S64x4096.ShapeCasts S64x4096) (p : Fin 512) (q : Fin 4096) :
    matmul dot_S512x64_S64x4096_S512x4096_1_0_0_1_n_n none (truncf .bf16 A hb) (truncf .bf16 (shapeCast S64x4096 B hc) hb)
        (constant (F := Ideal) S512x4096 .f32 0x00000000#32) (ix2 p q)
      = ∑ k : Fin 64, A (ix2 p k) * B (ix2 k q) := by
  rw [shapeCast_self]
  exact Cert.SE.Lib.matmul_plain_apply dot_S512x64_S64x4096_S512x4096_1_0_0_1_n_n rfl rfl rfl rfl rfl rfl none
    (truncf .bf16 A hb) (truncf .bf16 B hb) p q

/-- The tile at entry (p, q). -/
theorem pay3_apply (v3 v5 : Vec Ideal S512x64 .f32) (v7 v10 : Vec Ideal S64x64 .f32) (v13 : Vec Ideal S64x4096 .f32)
    (v21 : Vec Ideal S1x4096 .f32) (p : Fin 512) (q : Fin 4096) :
    k0_pay3 (F := Ideal) v3 v5 v7 v10 v13 v21 (ix2 p q)
      = (∑ k : Fin 64, ((∑ a : Fin 64, v3 (ix2 p a) * v7 (ix2 a k)) * (∑ a : Fin 64, v5 (ix2 p a) * v10 (ix2 a k)))
            * v13 (ix2 k q))
        + v21 (ix2 (0 : Fin 1) q) := by
  unfold k0_pay3
  refine (addf_apply _ _ _).trans ?_
  refine congrArg₂ (· + ·) ?_ ?_
  · refine (wide_apply _ _ _ _ p q).trans ?_
    refine Finset.sum_congr rfl fun k _ => ?_
    refine congrArg (· * v13 (ix2 k q)) ?_
    refine (mulf_apply _ _ _).trans ?_
    exact congrArg₂ (· * ·) (thin_apply _ _ _ _ p k) (thin_apply _ _ _ _ p k)
  · refine (broadcastTo_1b_ab_apply _ _ p q).trans ?_
    rw [shapeCast_self]

end Cert.KernelIdeal.Pay

end
-- ==== Proof.KVal0Tile.lean ====
/-
  The first kernel's first output array (the layer before its own quantisation), whole, on the extended reals.

  The first pallas_call walks the rows in 16 tiles of 512.  Whatever the point's case, the tile's buffer ends
  holding the tile computed from the six input blocks, and the rows of `x0`, `x1` it reads are the rows it writes,
  while the three factor matrices and the bias row are read whole at every point.  So what a point writes back is its
  own block of ONE function of the arrays the region finds, `layerAt` at the entry's row and column; the 16 blocks
  tile the 8192 rows, and the array ends as that function everywhere.
-/
import proofs.«101463_j1391569404120_1_alg».proof.Proof.K0Data
import proofs.«101463_j1391569404120_1_alg».proof.Proof.KVal0Pieces
import proofs.«101463_j1391569404120_1_alg».proof.Proof.KPayTile
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-! ## The tile's buffer after any point, whatever its case -/

section AnyInstance
variable {F : FTy → Type} [FloatOps F]
variable (V : (c : Dev nD) → (b : Ref sig .tc) → Buf (Elt F) ((c : Thread nD τ).loc b))

/-- After point `t` the tile's buffer holds the tile computed from the six input blocks at `t`. -/
theorem tile_after (c : Dev nD) (t : Fin cfg0.N) :
    (outsAt0 V c t.val t.isLt).1 = k0_pay3 (iblk0 V c 0 t) (iblk0 V c 1 t) (iblk0 V c 2 t) (iblk0 V c 3 t) (iblk0 V c 4 t) (iblk0 V c 5 t) := by
  have hN : t.val < 16 := lt_of_lt_of_eq t.isLt (show cfg0.N = 16 from N_0)
  by_cases hz : t.val = 0
  · have h0 : t.val % 16 = 0 := by omega
    have h1 : ¬t.val % 16 = 15 := by omega
    rw [outsAt0_A V c t hz ((hcond0_0 t).mpr h0) (fun h => h1 ((hcond0_1 t).mp h))]
    dsimp only
    exact out6_A_eq c t ((hcond0_0 t).mpr h0) (fun h => h1 ((hcond0_1 t).mp h)) (iblk0 V c 0 t) (iblk0 V c 1 t) (iblk0 V c 2 t) (iblk0 V c 3 t) (iblk0 V c 4 t) (iblk0 V c 5 t)
  · have h0 : ¬t.val % 16 = 0 := by omega
    by_cases h1 : t.val % 16 = 15
    · rw [outsAt0_C V c t hz h1 (fun h => h0 ((hcond0_0 t).mp h)) ((hcond0_1 t).mpr h1)]
      dsimp only
      exact out6_C_eq c t (fun h => h0 ((hcond0_0 t).mp h)) ((hcond0_1 t).mpr h1) (iblk0 V c 0 t) (iblk0 V c 1 t) (iblk0 V c 2 t) (iblk0 V c 3 t) (iblk0 V c 4 t) (iblk0 V c 5 t)
        (outsAt0 V c (t.val - 1) (Nat.lt_of_le_of_lt (Nat.sub_le _ _) t.isLt)).2.2
    · rw [outsAt0_B V c t hz h1 (fun h => h0 ((hcond0_0 t).mp h)) (fun h => h1 ((hcond0_1 t).mp h))]
      dsimp only
      exact out6_B_eq c t (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t)
        (outsAt0 V c (t.val - 1) (Nat.lt_of_le_of_lt (Nat.sub_le _ _) t.isLt)).2.2

end AnyInstance

/-! ## The array, on the extended reals -/

-- the TensorCore's buffer contents when the region is entered
variable (V : (c : Dev nD) → (b : Ref sig .tc) → Buf (Elt Ideal) ((c : Thread nD τ).loc b))

/-- The six arrays the first pallas_call reads, as the region finds them, with their entries as extended reals. -/
abbrev arrX0 (c : Dev nD) : S8192x64.Idx → EReal := V c main_arg0
abbrev arrX1 (c : Dev nD) : S8192x64.Idx → EReal := V c main_arg1
abbrev arrQ0 (c : Dev nD) : S64x64.Idx → EReal := V c main_v9
abbrev arrQ1 (c : Dev nD) : S64x64.Idx → EReal := V c main_v19
abbrev arrQ2 (c : Dev nD) : S64x4096.Idx → EReal := V c main_v30
abbrev arrB (c : Dev nD) : S1x4096.Idx → EReal := V c main_v31

/-- The layer before its own quantisation at row `r`, column `q`, from the arrays the region finds: the two thin
    products multiplied entry by entry, times the third factor, plus the bias. -/
def layerAt (c : Dev nD) (r : Fin 8192) (q : Fin 4096) : EReal :=
  (∑ k : Fin 64, ((∑ a : Fin 64, arrX0 V c (ix2 r a) * arrQ0 V c (ix2 a k))
        * (∑ a : Fin 64, arrX1 V c (ix2 r a) * arrQ1 V c (ix2 a k)))
      * arrQ2 V c (ix2 k q))
    + arrB V c (ix2 (0 : Fin 1) q)

/-- The same as one function of the array's index. -/
def layer (c : Dev nD) : S8192x4096.Idx → EReal := fun i => layerAt V c (i 0) (i 1)

/-- The printed index maps, decided over the 16 points: the rows of `x0`, `x1` and of the output move together,
    block (t, 0) at point `t`; the factor matrices and the bias row are block (0, 0) at every point. -/
theorem blocks_at0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The tile at entry (p, q) of point `t`, read through the blocks, is the layer at the row and column that entry
    is written to. -/
theorem tile_entry (c : Dev nD) (t : Fin cfg0.N) (p : Fin 512) (q : Fin 4096) (r : Fin 8192) (q' : Fin 4096)
    (hr : r.val = win0_6.index t (0 : Fin 2) * 512 + 1 * p.val)
    (hq : q'.val = win0_6.index t (1 : Fin 2) * 4096 + 1 * q.val) :
    k0_pay3 (F := Ideal) (iblk0 V c 0 t) (iblk0 V c 1 t) (iblk0 V c 2 t) (iblk0 V c 3 t) (iblk0 V c 4 t) (iblk0 V c 5 t) (ix2 p q) = layerAt V c r q' := by
  obtain ⟨a0, a1, b0, b1, c0, c1, d0, d1, e0, e1, f0, f1, g0, g1⟩ := blocks_at0 t
  refine (Cert.KernelIdeal.Pay.pay3_apply _ _ _ _ _ _ p q).trans ?_
  unfold layerAt
  -- the rows of x0 and x1 read are the row written
  have h0 : ∀ a : Fin 64, @Eq EReal (iblk0 V c 0 t (ix2 p a)) (arrX0 V c (ix2 r a)) := fun a => by
    show V c main_arg0 (((cfg0.win 0).blk t).view.emb (ix2 p a)) = _
    refine congrArg (V c main_arg0) ?_
    funext ax; apply Fin.ext
    match ax with
    | ⟨0, _⟩ => show win0_0.index t (0 : Fin 2) * 512 + 1 * p.val = r.val; omega
    | ⟨1, _⟩ => show win0_0.index t (1 : Fin 2) * 64 + 1 * a.val = a.val; omega
  have h1 : ∀ a : Fin 64, @Eq EReal (iblk0 V c 1 t (ix2 p a)) (arrX1 V c (ix2 r a)) := fun a => by
    show V c main_arg1 (((cfg0.win 1).blk t).view.emb (ix2 p a)) = _
    refine congrArg (V c main_arg1) ?_
    funext ax; apply Fin.ext
    match ax with
    | ⟨0, _⟩ => show win0_1.index t (0 : Fin 2) * 512 + 1 * p.val = r.val; omega
    | ⟨1, _⟩ => show win0_1.index t (1 : Fin 2) * 64 + 1 * a.val = a.val; omega
  -- the factor matrices and the bias row are read whole
  have h2 : ∀ (a k : Fin 64), @Eq EReal (iblk0 V c 2 t (ix2 a k)) (arrQ0 V c (ix2 a k)) := fun a k => by
    show V c main_v9 (((cfg0.win 2).blk t).view.emb (ix2 a k)) = _
    refine congrArg (V c main_v9) ?_
    funext ax; apply Fin.ext
    match ax with
    | ⟨0, _⟩ => show win0_2.index t (0 : Fin 2) * 64 + 1 * a.val = a.val; omega
    | ⟨1, _⟩ => show win0_2.index t (1 : Fin 2) * 64 + 1 * k.val = k.val; omega
  have h3 : ∀ (a k : Fin 64), @Eq EReal (iblk0 V c 3 t (ix2 a k)) (arrQ1 V c (ix2 a k)) := fun a k => by
    show V c main_v19 (((cfg0.win 3).blk t).view.emb (ix2 a k)) = _
    refine congrArg (V c main_v19) ?_
    funext ax; apply Fin.ext
    match ax with
    | ⟨0, _⟩ => show win0_3.index t (0 : Fin 2) * 64 + 1 * a.val = a.val; omega
    | ⟨1, _⟩ => show win0_3.index t (1 : Fin 2) * 64 + 1 * k.val = k.val; omega
  have h4 : ∀ k : Fin 64, @Eq EReal (iblk0 V c 4 t (ix2 k q)) (arrQ2 V c (ix2 k q')) := fun k => by
    show V c main_v30 (((cfg0.win 4).blk t).view.emb (ix2 k q)) = _
    refine congrArg (V c main_v30) ?_
    funext ax; apply Fin.ext
    match ax with
    | ⟨0, _⟩ => show win0_4.index t (0 : Fin 2) * 64 + 1 * k.val = k.val; omega
    | ⟨1, _⟩ => show win0_4.index t (1 : Fin 2) * 4096 + 1 * q.val = q'.val; omega
  have h5 : @Eq EReal (iblk0 V c 5 t (ix2 (0 : Fin 1) q)) (arrB V c (ix2 (0 : Fin 1) q')) := by
    show V c main_v31 (((cfg0.win 5).blk t).view.emb (ix2 (0 : Fin 1) q)) = _
    refine congrArg (V c main_v31) ?_
    funext ax; apply Fin.ext
    match ax with
    | ⟨0, _⟩ => show win0_5.index t (0 : Fin 2) * 1 + 1 * 0 = 0; omega
    | ⟨1, _⟩ => show win0_5.index t (1 : Fin 2) * 4096 + 1 * q.val = q'.val; omega
  exact congrArg₂ (fun x y : EReal => x + y)
    (Finset.sum_congr rfl fun k _ => congrArg₂ (fun x y : EReal => x * y)
      (congrArg₂ (fun x y : EReal => x * y)
        (Finset.sum_congr rfl fun a _ => congrArg₂ (fun x y : EReal => x * y) (h0 a) (h2 a k))
        (Finset.sum_congr rfl fun a _ => congrArg₂ (fun x y : EReal => x * y) (h1 a) (h3 a k)))
      (h4 k))
    h5

/-- What point `t` writes back is block `t` of the layer. -/
theorem flushed0_6_eq (c : Dev nD) (t : Fin cfg0.N) :
    (dat0 (F := Ideal) V c).flushed 6 t = ((cfg0.win 6).blk t).view.read (Elt Ideal) (layer V c) := by
  show (cfg0.win 6).cut (grid0.coords t) ((dat0 V c).after 6 t) = _
  rw [after0_6, tile_after V c t]
  funext j
  obtain ⟨p, q, rfl⟩ : ∃ (p : Fin 512) (q : Fin 4096), j = ix2 p q := ⟨j 0, j 1, eq_ix2 j⟩
  show k0_pay3 (F := Ideal) (iblk0 V c 0 t) (iblk0 V c 1 t) (iblk0 V c 2 t) (iblk0 V c 3 t) (iblk0 V c 4 t) (iblk0 V c 5 t) (ix2 p q)
    = layerAt V c (((cfg0.win 6).blk t).view.emb (ix2 p q) 0) (((cfg0.win 6).blk t).view.emb (ix2 p q) 1)
  exact tile_entry V c t p q _ _ rfl rfl

/-- An index of the array is in point `t`'s block iff each coordinate is in the block's range on its axis. -/
theorem mem_blk0_6 (t : Fin cfg0.N) (i : S8192x4096.Idx) :
    i ∈ ((cfg0.win 6).blk t).view.set ↔ ∀ a : Fin 2, win0_6.index t a * S512x4096.size a ≤ (i a).val
      ∧ (i a).val < win0_6.index t a * S512x4096.size a + S512x4096.size a := by
  show i ∈ ((View.whole main_v32_0).slice (win0_6.rect t)).set ↔ _
  rw [View.set_slice_whole, Rect.mem_set_unit]
  exact Iff.rfl

/-- Every index of the array is in some point's block: row `r` is in tile `r / 512`. -/
theorem cover0_6 (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  obtain ⟨t, ht⟩ : ∃ t : Fin cfg0.N, t.val = (i 0).val / 512 :=
    ⟨⟨(i 0).val / 512, by show _ < grid0.N; rw [N_0]; omega⟩, rfl⟩
  obtain ⟨a0, a1, b0, b1, c0, c1, d0, d1, e0, e1, f0, f1, g0, g1⟩ := blocks_at0 t
  refine ⟨t, flush0_6 t, ?_⟩
  rw [mem_blk0_6]
  intro a
  match a with
  | ⟨0, _⟩ =>
    show win0_6.index t (0 : Fin 2) * 512 ≤ (i 0).val ∧ (i 0).val < win0_6.index t (0 : Fin 2) * 512 + 512; omega
  | ⟨1, _⟩ =>
    show win0_6.index t (1 : Fin 2) * 4096 ≤ (i 1).val ∧ (i 1).val < win0_6.index t (1 : Fin 2) * 4096 + 4096; omega

/-- The array after the region: the layer, everywhere. -/
theorem final0_tile (c : Dev nD) :
    (dat0 (F := Ideal) V c).arrAt 6 cfg0.N = fun i : S8192x4096.Idx => layerAt V c (i 0) (i 1) :=
  (dat0 (F := Ideal) V c).arrAt_eq_of_cover 6 (layer V c) (fun t _ => flushed0_6_eq V c t) cover0_6

/-- The same at a row and a column. -/
theorem final0_tile_apply (c : Dev nD) (r : Fin 8192) (q : Fin 4096) :
    (dat0 (F := Ideal) V c).arrAt 6 cfg0.N (ix2 r q) = layerAt V c r q :=
  congrFun (final0_tile V c) (ix2 r q)

end Cert.KernelIdeal.Val

end
-- ==== Proof.LibKeepdims.lean ====
/-
  Column ("keepdims") layouts read at an index: a vector viewed as a one-column matrix, and a one-column matrix
  broadcast along its unit axis. A row reduction kept as a column (`sum(-1, keepdims=True)`) is the first followed,
  where it meets the matrix it was reduced from, by the second.
-/
import Idealize.ShloMosaic.Lib.ValueIdx
import Idealize.ShloMosaic.Lib.Pipeline.Value

namespace Cert.Lib

open Idealize.ShloMosaic Idealize.ShloMosaic.ValueIdx

variable {α : Type}

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibRowReduce.lean ====
/-
  Row reductions kept as a column, read at an index, at the ideal values: the sum (or the maximum) of a matrix
  along its rows, viewed as a one-column matrix, holds at `(p, u)` the sum (the fold of `max`) of row `p`.
-/
import Idealize.ShloMosaic.PureOps.Ideal.Laws
import Idealize.ShloMosaic.Lib.ValueIdx
import Idealize.ShloMosaic.Lib.Pipeline.Value
import proofs.«101463_j1391569404120_1_alg».proof.Proof.LibKeepdims

namespace Cert.Lib

open Idealize.ShloMosaic Idealize.ShloMosaic.ValueIdx

variable {φ : FTy}

/-- Inserting the column coordinate `k` into the row index `p` gives `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- The row sums of an `[a, b]` matrix, kept as an `[a, 1]` column: at `(p, u)` the sum of row `p`. -/
theorem rowSum_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ v acc h hφ hacc) hc (ix2 p u)
      = ∑ k : Fin b, v (ix2 p k) := by
  rw [shapeCast_a_a1_apply]
  refine (Ideal.multiReduction_add_single v acc h hφ hacc (ix1 p)).trans ?_
  exact Finset.sum_congr rfl fun k _ => congrArg v (lift_row h p k)

/-- The row maxima likewise: at `(p, u)` the fold of `max`, from the accumulator's value, over row `p`. -/
theorem rowMax_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (p : Fin a) (u : Fin 1) :
    shapeCast ⟨2, ![a, 1]⟩ (multiReduction .maximumf [1] ⟨1, ![a]⟩ v acc h hφ hacc) hc (ix2 p u)
      = (Finset.univ : Finset (Fin b)).fold max (Ideal.ofBits φ acc) (fun k => v (ix2 p k)) := by
  rw [shapeCast_a_a1_apply]
  refine (Ideal.multiReduction_maximumf_single v acc h hφ hacc (ix1 p)).trans ?_
  have e : (v ∘ h.lift (ix1 p)) = fun k : Fin b => v (ix2 p k) := funext fun k => congrArg v (lift_row h p k)
  rw [e]
  rfl

end Cert.Lib
-- ==== Proof.LibColReduce.lean ====
/-
  Column reductions of a matrix, kept as a one-row matrix.

  A `vector.multi_reduction` along axis 0 of an `[a, b]` matrix leaves a `[b]` vector; laid out as the row `[1, b]` by a
  shape cast it reads, at `(u, q)`, the sum over `k` of column `q` (for `<add>`), or the fold of `max` from the
  accumulator's value over column `q` (for `<maximumf>`). These are the column twins of the row forms
  (rows kept as an `[a, 1]` column).
-/
import Idealize.ShloMosaic.PureOps.Ideal.Laws
import Idealize.ShloMosaic.Lib.ValueIdx
import Idealize.ShloMosaic.Lib.Pipeline.Value
import Idealize.ShloMosaic.Lib.ValueLayout

noncomputable section

namespace Cert.LibColReduce

open Idealize.ShloMosaic Idealize.ShloMosaic.ValueIdx

variable {φ : FTy}

/-- Inserting the row coordinate `k` into the column index `q` gives `(k, q)`. -/
theorem lift_col {a b : ℕ} (h : (⟨2, ![a, b]⟩ : Shape).Reduces [0] ⟨1, ![b]⟩) (q : Fin b) (k : Fin a) :
    h.lift (ix1 q) k = ix2 k q := by
  funext c
  apply Fin.ext
  match c with
  | ⟨0, _⟩ => rfl
  | ⟨1, _⟩ => rfl

/-- The column sums of an `[a, b]` matrix, kept as a `[1, b]` row: at `(u, q)` the sum of column `q`. -/
theorem colSum_row {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hc : (⟨1, ![b]⟩ : Shape).ShapeCasts ⟨2, ![1, b]⟩) (u : Fin 1) (q : Fin b) :
    shapeCast ⟨2, ![1, b]⟩ (multiReduction .add [0] ⟨1, ![b]⟩ v acc h hφ hacc) hc (ix2 u q)
      = ∑ k : Fin a, v (ix2 k q) := by
  rw [shapeCast_a_1a_apply]
  refine (Ideal.multiReduction_add_single v acc h hφ hacc (ix1 q)).trans ?_
  exact Finset.sum_congr rfl fun k _ => congrArg v (lift_col h q k)

/-- The column maxima likewise: at `(u, q)` the fold of `max`, from the accumulator's value, over column `q`. -/
theorem colMax_row {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (u : Fin 1) (q : Fin b) :
    shapeCast ⟨2, ![1, b]⟩ (multiReduction .maximumf [0] ⟨1, ![b]⟩ v acc h hφ hacc) hc (ix2 u q)
      = (Finset.univ : Finset (Fin a)).fold max (Ideal.ofBits φ acc) (fun k => v (ix2 k q)) := by
  rw [shapeCast_a_1a_apply]
  refine (Ideal.multiReduction_maximumf_single v acc h hφ hacc (ix1 q)).trans ?_
  have e : (v ∘ h.lift (ix1 q)) = fun k : Fin a => v (ix2 k q) := funext fun k => congrArg v (lift_col h q k)
  rw [e]
  rfl

end Cert.LibColReduce

end
-- ==== Proof.KPayMax.lean ====
/-
  The first kernel's running maximum, on the extended reals.

  After a tile is computed its largest magnitude is taken in two steps, each a fold of `max` that starts from
  minus infinity: along every row, which leaves a column of 512 row maxima, and then down that column.  A fold of
  `max` from the least element over a finite index set is the supremum over that set, and the supremum down the
  column of the suprema along the rows is the supremum over all 512 × 4096 entries.  The value carried from the
  tiles before is then replaced by the larger of itself and this supremum.
-/
import proofs.«101463_j1391569404120_1_alg».proof.Proof.Gen.KernelIdeal.Skeleton
import proofs.«101463_j1391569404120_1_alg».proof.Proof.Spec
import proofs.«101463_j1391569404120_1_alg».proof.Proof.LibRowReduce
import proofs.«101463_j1391569404120_1_alg».proof.Proof.LibColReduce
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- The word the two folds start from is minus infinity, the least extended real. -/
theorem neg_inf_word : Ideal.ofBits .f32 0xFF800000#32 = ⊥ := by simp [Ideal.ofBits, Ideal.ieee]

/-- A fold of `max` from the least element over a whole finite index set is the supremum over it. -/
theorem fold_max_bot {ι : Type} [Fintype ι] (f : ι → EReal) :
    (Finset.univ : Finset ι).fold max ⊥ f = Finset.univ.sup f := rfl

/-- The supremum over the rows of the suprema along each row is the supremum over all entries. -/
theorem sup_sup_eq_sup_prod {m n : ℕ} (g : Fin m × Fin n → EReal) :
    (Finset.univ.sup fun p : Fin m => Finset.univ.sup fun c : Fin n => g (p, c)) = Finset.univ.sup g := by
  rw [← Finset.univ_product_univ, Finset.sup_product_left]

/-- The largest entry of a 512 × 4096 matrix as the kernel takes it: maxima along the rows kept as a column, then the
    maximum down that column kept as a 1 × 1 matrix. -/
theorem tileMax_apply (w : FVec Ideal S512x4096 .f32)
    (h1 : S512x4096.Reduces [1] S512) (hφ1 : FKind.Formats .f32)
    (hacc1 : (0xFF800000#32 : BitVec (FTy.bits .f32)) = FKind.maximumf.neutral .f32 hφ1) (hc1 : S512.ShapeCasts S512x1)
    (h0 : S512x1.Reduces [0] S1) (hφ0 : FKind.Formats .f32)
    (hacc0 : (0xFF800000#32 : BitVec (FTy.bits .f32)) = FKind.maximumf.neutral .f32 hφ0) (hc0 : S1.ShapeCasts S1x1)
    (u q : Fin 1) :
    shapeCast S1x1
        (multiReduction .maximumf [0] S1
          (shapeCast S512x1 (multiReduction .maximumf [1] S512 w 0xFF800000#32 h1 hφ1 hacc1) hc1)
          0xFF800000#32 h0 hφ0 hacc0)
        hc0 (ix2 u q)
      = Finset.univ.sup fun pq : Fin 512 × Fin 4096 => w (ix2 pq.1 pq.2) := by
  refine (Cert.LibColReduce.colMax_row _ _ h0 hφ0 hacc0 hc0 u q).trans ?_
  rw [neg_inf_word, fold_max_bot]
  refine Eq.trans ?_ (sup_sup_eq_sup_prod (fun pq : Fin 512 × Fin 4096 => w (ix2 pq.1 pq.2)))
  refine congrArg (Finset.sup Finset.univ) (funext fun p => ?_)
  refine (Cert.Lib.rowMax_col w _ h1 hφ1 hacc1 hc1 p q).trans ?_
  rw [neg_inf_word, fold_max_bot]

/-- The carried maximum after a tile: the larger of the value carried in and the tile's largest magnitude. -/
theorem pay4_apply (v3 v5 : Vec Ideal S512x64 .f32) (v7 v10 : Vec Ideal S64x64 .f32) (v13 : Vec Ideal S64x4096 .f32)
    (v21 : Vec Ideal S1x4096 .f32) (v31 : Vec Ideal S1x1 .f32) :
    k0_pay4 (F := Ideal) v3 v5 v7 v10 v13 v21 v31 (ix2 (0 : Fin 1) (0 : Fin 1))
      = max (v31 (ix2 (0 : Fin 1) (0 : Fin 1)))
          (Finset.univ.sup fun pq : Fin 512 × Fin 4096 =>
            Cert.Spec.mag (k0_pay3 (F := Ideal) v3 v5 v7 v10 v13 v21 (ix2 pq.1 pq.2))) := by
  unfold k0_pay4
  refine (maximumf_apply _ _ _).trans ?_
  refine congrArg (max (v31 (ix2 (0 : Fin 1) (0 : Fin 1)))) ?_
  exact tileMax_apply (absf (k0_pay3 (F := Ideal) v3 v5 v7 v10 v13 v21)) _ _ _ _ _ _ _ _ 0 0

/-- Before the first tile the carried value is set to zero. -/
theorem k0_pay2_apply : k0_pay2 (F := Ideal) (ix2 (0 : Fin 1) (0 : Fin 1)) = Cert.Spec.zero := by
  unfold k0_pay2
  rw [shapeCast_self]
  rfl

/-- The carried value is written back as it is: a recast to the same shape changes nothing. -/
theorem k0_pay1_eq (v : FVec Ideal S1x1 .f32) : k0_pay1 (F := Ideal) v = v := by
  unfold k0_pay1
  exact shapeCast_self _ _

end Cert.KernelIdeal.Pay

end
-- ==== Proof.KMaxMath.lean ====
/-
  Two facts about largest magnitudes, on the extended reals.

  The layer's largest magnitude is found tile by tile: sixteen tiles of 512 rows each, a value carried from
  one tile to the next, set to zero before the first tile and replaced, after each tile, by the larger of itself
  and the tile's own largest magnitude.  First, such a running maximum over magnitudes (which are never below
  zero) ends at the largest of the sixteen.  Second, the largest value of a family indexed by 8192 rows and
  4096 columns is the largest, over the sixteen tiles, of the largest over each tile's 512 rows.
-/
import proofs.«101463_j1391569404120_1_alg».proof.Proof.Spec
import Idealize.ShloMosaic.PureOps.Ideal.Laws

noncomputable section

namespace Cert.TileMax

open Idealize.ShloMosaic Cert.Spec

/-- The zero literal is the extended real zero. -/
theorem zero_eq : zero = 0 := Ideal.ofBits_zero_f32

/-- A magnitude is never below zero. -/
theorem zero_le_mag (x : EReal) : zero ≤ mag x := by
  rw [zero_eq]
  unfold mag
  rcases le_total 0 x with h | h
  · exact h.trans (le_max_left _ _)
  · exact (EReal.neg_nonneg.mpr h).trans (le_max_right _ _)

/-- The largest of finitely many magnitudes, over an index set that is not empty, is not below zero. -/
theorem zero_le_sup_mag {ι : Type} [Fintype ι] [Nonempty ι] (f : ι → EReal) :
    zero ≤ Finset.univ.sup fun i => mag (f i) := by
  obtain ⟨i⟩ := (inferInstance : Nonempty ι)
  exact (zero_le_mag (f i)).trans (Finset.le_sup (f := fun i => mag (f i)) (Finset.mem_univ i))

/-- A running maximum that starts from zero: what lies above its value after step `t` is what lies above zero
    and above every term up to `t`. -/
theorem runMax_le_iff (T : Fin 16 → EReal) (r : ℕ → EReal)
    (h0 : r 0 = max zero (T 0))
    (hs : ∀ t (h : t + 1 < 16), r (t + 1) = max (r t) (T ⟨t + 1, h⟩)) (x : EReal) :
    ∀ t (_ : t < 16), r t ≤ x ↔ zero ≤ x ∧ ∀ s : Fin 16, s.val ≤ t → T s ≤ x := by
  intro t
  induction t with
  | zero =>
    intro _
    rw [h0, max_le_iff]
    refine and_congr_right fun _ => ⟨fun h s hs' => ?_, fun h => h 0 (Nat.le_refl 0)⟩
    have e : s = 0 := Fin.ext (Nat.le_zero.mp hs')
    rw [e]
    exact h
  | succ t ih =>
    intro h
    rw [hs t h, max_le_iff, ih (by omega)]
    constructor
    · rintro ⟨⟨hz, hT⟩, hlast⟩
      refine ⟨hz, fun s hs' => ?_⟩
      rcases Nat.lt_or_ge s.val (t + 1) with hlt | hge
      · exact hT s (by omega)
      · have e : s = ⟨t + 1, h⟩ := Fin.ext (by show s.val = t + 1; omega)
        rw [e]
        exact hlast
    · rintro ⟨hz, hT⟩
      exact ⟨⟨hz, fun s hs' => hT s (by omega)⟩, hT ⟨t + 1, h⟩ (Nat.le_refl _)⟩

/-- After step `t` the running maximum is the larger of zero and the largest term up to `t`. -/
theorem runMax_prefix (T : Fin 16 → EReal) (r : ℕ → EReal)
    (h0 : r 0 = max zero (T 0))
    (hs : ∀ t (h : t + 1 < 16), r (t + 1) = max (r t) (T ⟨t + 1, h⟩)) (t : ℕ) (ht : t < 16) :
    r t = max zero ((Finset.univ.filter fun s : Fin 16 => s.val ≤ t).sup T) := by
  refine eq_of_forall_ge_iff fun x => ?_
  rw [runMax_le_iff T r h0 hs x t ht, max_le_iff, Finset.sup_le_iff]
  refine and_congr_right fun _ => ⟨fun h s hs' => h s (Finset.mem_filter.mp hs').2, fun h s hs' => h s ?_⟩
  exact Finset.mem_filter.mpr ⟨Finset.mem_univ s, hs'⟩

/-- A running maximum of sixteen terms, none below zero, started from zero, ends at the largest term. -/
theorem runMax_last (T : Fin 16 → EReal) (hT : ∀ t, zero ≤ T t) (r : ℕ → EReal)
    (h0 : r 0 = max zero (T 0))
    (hs : ∀ t (h : t + 1 < 16), r (t + 1) = max (r t) (T ⟨t + 1, h⟩)) :
    r 15 = Finset.univ.sup T := by
  refine eq_of_forall_ge_iff fun x => ?_
  rw [runMax_le_iff T r h0 hs x 15 (by omega), Finset.sup_le_iff]
  constructor
  · rintro ⟨_, h⟩ s _
    exact h s (by have := s.isLt; omega)
  · intro h
    exact ⟨(hT 0).trans (h 0 (Finset.mem_univ _)), fun s _ => h s (Finset.mem_univ _)⟩

/-- An entry is not above the supremum of its family. -/
theorem le_sup_univ {α : Type} [Fintype α] (g : α → EReal) (x : α) : g x ≤ Finset.univ.sup g :=
  Finset.le_sup (Finset.mem_univ x)

/-- A bound of every entry is a bound of the supremum. -/
theorem sup_univ_le {α : Type} [Fintype α] (g : α → EReal) (a : EReal) (h : ∀ x, g x ≤ a) : Finset.univ.sup g ≤ a :=
  Finset.sup_le fun x _ => h x

/-- A supremum regrouped: if every index is reached as `e t k`, the supremum over all indices is the supremum
    over `t` of the suprema over `k`. -/
theorem sup_regroup {ι τ κ : Type} [Fintype ι] [Fintype τ] [Fintype κ] (g : ι → EReal) (e : τ → κ → ι)
    (hsurj : ∀ i, ∃ t k, e t k = i) :
    Finset.univ.sup g = Finset.univ.sup fun t : τ => Finset.univ.sup fun k : κ => g (e t k) := by
  refine le_antisymm (sup_univ_le g _ fun i => ?_)
    (sup_univ_le _ _ fun t => sup_univ_le _ _ fun k => le_sup_univ g (e t k))
  obtain ⟨t, k, rfl⟩ := hsurj i
  exact (le_sup_univ (fun k => g (e t k)) k).trans
    (le_sup_univ (fun t => Finset.univ.sup fun k => g (e t k)) t)

/-- The largest value over 8192 rows and 4096 columns is the largest, over sixteen tiles, of the largest over
    each tile's 512 rows: row `512 * t + p` is row `p` of tile `t`, and every row is such a row. -/
theorem sup_rows_tiles (g : Fin 8192 × Fin 4096 → EReal) (row : Fin 16 → Fin 512 → Fin 8192)
    (hrow : ∀ t p, (row t p).val = 512 * t.val + p.val) :
    Finset.univ.sup g
      = Finset.univ.sup fun t : Fin 16 => Finset.univ.sup fun pq : Fin 512 × Fin 4096 => g (row t pq.1, pq.2) :=
  sup_regroup g (fun t (pq : Fin 512 × Fin 4096) => (row t pq.1, pq.2)) fun ij => by
    obtain ⟨i, j⟩ := ij
    have hi := i.isLt
    refine ⟨⟨i.val / 512, by omega⟩, (⟨i.val % 512, Nat.mod_lt _ (by omega)⟩, j), ?_⟩
    exact congrArg (fun r => (r, j)) (Fin.ext (by rw [hrow]; exact Nat.div_add_mod _ _))

/-- A tile's largest magnitude is not below zero. -/
theorem zero_le_tile_sup (f : Fin 512 × Fin 4096 → EReal) :
    zero ≤ Finset.univ.sup fun pq : Fin 512 × Fin 4096 => mag (f pq) :=
  (zero_le_mag (f (⟨0, by omega⟩, ⟨0, by omega⟩))).trans
    (le_sup_univ (fun pq : Fin 512 × Fin 4096 => mag (f pq)) (⟨0, by omega⟩, ⟨0, by omega⟩))

/-- The same for largest magnitudes: the largest magnitude of a family over 8192 rows and 4096 columns, tile by tile. -/
theorem top_rows_tiles (f : Fin 8192 × Fin 4096 → EReal) (row : Fin 16 → Fin 512 → Fin 8192)
    (hrow : ∀ t p, (row t p).val = 512 * t.val + p.val) :
    top f = Finset.univ.sup fun t : Fin 16 =>
      Finset.univ.sup fun pq : Fin 512 × Fin 4096 => mag (f (row t pq.1, pq.2)) :=
  sup_rows_tiles (fun ij => mag (f ij)) row hrow

end Cert.TileMax

end
-- ==== Proof.KVal0Top.lean ====
/-
  The first kernel's second output, the layer's largest magnitude, on the extended reals.

  A 1 × 1 scratch carries a maximum from point to point: zeroed before the first tile, then after each tile raised
  to the larger of itself and that tile's largest magnitude.  At the last point the scratch is copied to the 1 × 1
  output's buffer, and that is the one point at which the output is written back.  A running maximum of sixteen
  tile maxima, none below zero, started from zero, ends at the largest of them; and the largest over the sixteen
  tiles of the largest magnitude over each tile's 512 rows is the largest magnitude over all 8192 rows.
-/
import proofs.«101463_j1391569404120_1_alg».proof.Proof.K0Data
import proofs.«101463_j1391569404120_1_alg».proof.Proof.KVal0Pieces
import proofs.«101463_j1391569404120_1_alg».proof.Proof.KVal0Tile
import proofs.«101463_j1391569404120_1_alg».proof.Proof.KPayMax
import proofs.«101463_j1391569404120_1_alg».proof.Proof.KMaxMath
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-! ## The scratch and the 1 × 1 output's buffer after a point, whatever the instance -/

section AnyInstance
variable {F : FTy → Type} [FloatOps F]
variable (V : (c : Dev nD) → (b : Ref sig .tc) → Buf (Elt F) ((c : Thread nD τ).loc b))

/-- After the first point the scratch holds the maximum raised from the zero it was set to. -/
theorem scratch_first (c : Dev nD) (t : Fin cfg0.N) (hz : t.val = 0) :
    (outsAt0 V c t.val t.isLt).2.2 = k0_pay1 (k0_pay4 (iblk0 V c 0 t) (iblk0 V c 1 t) (iblk0 V c 2 t) (iblk0 V c 3 t) (iblk0 V c 4 t) (iblk0 V c 5 t) k0_pay2) := by
  have h0 : t.val % 16 = 0 := by omega
  have h1 : ¬t.val % 16 = 15 := by omega
  rw [outsAt0_A V c t hz ((hcond0_0 t).mpr h0) (fun h => h1 ((hcond0_1 t).mp h))]
  dsimp only
  exact sout_A_eq c t ((hcond0_0 t).mpr h0) (fun h => h1 ((hcond0_1 t).mp h)) (iblk0 V c 0 t) (iblk0 V c 1 t) (iblk0 V c 2 t) (iblk0 V c 3 t) (iblk0 V c 4 t) (iblk0 V c 5 t)

/-- After a later point it holds the maximum raised from what the point before left. -/
theorem scratch_later (c : Dev nD) (t : Fin cfg0.N) (hz : t.val ≠ 0) :
    (outsAt0 V c t.val t.isLt).2.2 = k0_pay1 (k0_pay4 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  have h0 : ¬t.val % 16 = 0 := by
    have hN : t.val < 16 := lt_of_lt_of_eq t.isLt (show cfg0.N = 16 from N_0)
    omega
  by_cases h1 : t.val % 16 = 15
  · rw [outsAt0_C V c t hz h1 (fun h => h0 ((hcond0_0 t).mp h)) ((hcond0_1 t).mpr h1)]
    dsimp only
    exact sout_C_eq c t (fun h => h0 ((hcond0_0 t).mp h)) ((hcond0_1 t).mpr h1) (iblk0 V c 0 t) (iblk0 V c 1 t) (iblk0 V c 2 t) (iblk0 V c 3 t) (iblk0 V c 4 t) (iblk0 V c 5 t)
      (outsAt0 V c (t.val - 1) (Nat.lt_of_le_of_lt (Nat.sub_le _ _) t.isLt)).2.2
  · rw [outsAt0_B V c t hz h1 (fun h => h0 ((hcond0_0 t).mp h)) (fun h => h1 ((hcond0_1 t).mp h))]
    dsimp only
    exact sout_B_eq c t (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t)
      (outsAt0 V c (t.val - 1) (Nat.lt_of_le_of_lt (Nat.sub_le _ _) t.isLt)).2.2

/-- At the last point the 1 × 1 output's buffer holds what the scratch holds. -/
theorem out_last (c : Dev nD) (t : Fin cfg0.N) (hz : t.val ≠ 0) (h1 : t.val % 16 = 15) :
    (outsAt0 V c t.val t.isLt).2.1 = (outsAt0 V c t.val t.isLt).2.2 := by
  have h0 : ¬t.val % 16 = 0 := by omega
  rw [outsAt0_C V c t hz h1 (fun h => h0 ((hcond0_0 t).mp h)) ((hcond0_1 t).mpr h1)]
  dsimp only
  exact (out7_C_eq c t (fun h => h0 ((hcond0_0 t).mp h)) ((hcond0_1 t).mpr h1) (iblk0 V c 0 t) (iblk0 V c 1 t) (iblk0 V c 2 t) (iblk0 V c 3 t) (iblk0 V c 4 t) (iblk0 V c 5 t)
      (outsAt0 V c (t.val - 1) (Nat.lt_of_le_of_lt (Nat.sub_le _ _) t.isLt)).2.2).trans
    (sout_C_eq c t (fun h => h0 ((hcond0_0 t).mp h)) ((hcond0_1 t).mpr h1) (iblk0 V c 0 t) (iblk0 V c 1 t) (iblk0 V c 2 t) (iblk0 V c 3 t) (iblk0 V c 4 t) (iblk0 V c 5 t)
      (outsAt0 V c (t.val - 1) (Nat.lt_of_le_of_lt (Nat.sub_le _ _) t.isLt)).2.2).symm

end AnyInstance

/-! ## The running maximum, on the extended reals -/

-- the TensorCore's buffer contents when the region is entered
variable (V : (c : Dev nD) → (b : Ref sig .tc) → Buf (Elt Ideal) ((c : Thread nD τ).loc b))

/-- The grid has sixteen points. -/
theorem points_eq : cfg0.N = 16 := N_0

/-- A number below sixteen as a point of the grid. -/
def pt (s : Fin 16) : Fin cfg0.N := ⟨s.val, lt_of_lt_of_eq s.isLt points_eq.symm⟩

/-- Row `p` of tile `s` is row `512 * s + p` of the layer. -/
def rowOf (s : Fin 16) (p : Fin 512) : Fin 8192 := ⟨512 * s.val + p.val, by have := s.isLt; have := p.isLt; omega⟩

/-- The largest magnitude of the tile computed at point `t`. -/
def tileTop (c : Dev nD) (t : Fin cfg0.N) : EReal :=
  Finset.univ.sup fun pq : Fin 512 × Fin 4096 =>
    Cert.Spec.mag (k0_pay3 (F := Ideal) (iblk0 V c 0 t) (iblk0 V c 1 t) (iblk0 V c 2 t) (iblk0 V c 3 t) (iblk0 V c 4 t) (iblk0 V c 5 t) (ix2 pq.1 pq.2))

/-- The scratch's one entry after point `n` (zero past the grid, where nothing asks). -/
def carried (c : Dev nD) (n : ℕ) : EReal :=
  if h : n < cfg0.N then (outsAt0 V c n h).2.2 (ix2 (0 : Fin 1) (0 : Fin 1)) else Cert.Spec.zero

/-- After the first point: the larger of zero and the first tile's largest magnitude. -/
theorem carried_zero (c : Dev nD) : carried V c 0 = max Cert.Spec.zero (tileTop V c (pt 0)) := by
  have h : 0 < cfg0.N := (pt 0).isLt
  unfold carried
  rw [dif_pos h]
  refine (congrFun (scratch_first V c (pt 0) rfl) (ix2 (0 : Fin 1) (0 : Fin 1))).trans ?_
  refine (congrFun (Cert.KernelIdeal.Pay.k0_pay1_eq _) (ix2 (0 : Fin 1) (0 : Fin 1))).trans ?_
  refine (Cert.KernelIdeal.Pay.pay4_apply _ _ _ _ _ _ _).trans ?_
  exact congrArg (fun z => max z (tileTop V c (pt 0))) Cert.KernelIdeal.Pay.k0_pay2_apply

/-- After a later point: the larger of what was carried and that tile's largest magnitude. -/
theorem carried_succ (c : Dev nD) (n : ℕ) (h : n + 1 < 16) :
    carried V c (n + 1) = max (carried V c n) (tileTop V c (pt ⟨n + 1, h⟩)) := by
  have hN : n + 1 < cfg0.N := (pt ⟨n + 1, h⟩).isLt
  have hn : n < cfg0.N := Nat.lt_of_succ_lt hN
  unfold carried
  rw [dif_pos hN, dif_pos hn]
  refine (congrFun (scratch_later V c (pt ⟨n + 1, h⟩) (Nat.succ_ne_zero n)) (ix2 (0 : Fin 1) (0 : Fin 1))).trans ?_
  refine (congrFun (Cert.KernelIdeal.Pay.k0_pay1_eq _) (ix2 (0 : Fin 1) (0 : Fin 1))).trans ?_
  exact Cert.KernelIdeal.Pay.pay4_apply _ _ _ _ _ _ _

/-- After the last point: the largest of the sixteen tiles' largest magnitudes. -/
theorem carried_last (c : Dev nD) : carried V c 15 = Finset.univ.sup fun s : Fin 16 => tileTop V c (pt s) :=
  Cert.TileMax.runMax_last (fun s : Fin 16 => tileTop V c (pt s))
    (fun s => Cert.TileMax.zero_le_tile_sup
      (fun pq : Fin 512 × Fin 4096 => k0_pay3 (F := Ideal) (iblk0 V c 0 (pt s)) (iblk0 V c 1 (pt s)) (iblk0 V c 2 (pt s)) (iblk0 V c 3 (pt s)) (iblk0 V c 4 (pt s)) (iblk0 V c 5 (pt s)) (ix2 pq.1 pq.2)))
    (carried V c) (carried_zero V c) (fun n h => carried_succ V c n h)

/-- A tile's largest magnitude is the largest magnitude of the layer over that tile's rows. -/
theorem tileTop_eq (c : Dev nD) (s : Fin 16) :
    tileTop V c (pt s)
      = Finset.univ.sup fun pq : Fin 512 × Fin 4096 => Cert.Spec.mag (layerAt V c (rowOf s pq.1) pq.2) := by
  obtain ⟨a0, a1, b0, b1, c0, c1, d0, d1, e0, e1, f0, f1, g0, g1⟩ := blocks_at0 (pt s)
  have hv : (pt s).val = s.val := rfl
  unfold tileTop
  refine congrArg (fun g : Fin 512 × Fin 4096 → EReal => Finset.univ.sup g) (funext fun pq => congrArg Cert.Spec.mag ?_)
  exact tile_entry V c (pt s) pq.1 pq.2 (rowOf s pq.1) pq.2
    (by show 512 * s.val + pq.1.val = win0_6.index (pt s) (0 : Fin 2) * 512 + 1 * pq.1.val; omega)
    (by omega)

/-! ## The 1 × 1 output array -/

/-- The 1 × 1 output's block is block (0, 0) at every point. -/
theorem blocks_at0_7 : ∀ t : Fin cfg0.N, win0_7.index t (0 : Fin 2) = 0 ∧ win0_7.index t (1 : Fin 2) = 0 :=
  (by decide +kernel : ∀ t : Fin grid0.N, _)

/-- The last point. -/
def lastPt : Fin cfg0.N := pt 15

/-- The scratch after the last point. -/
def lastScratch (c : Dev nD) : S1x1.Idx → EReal := (outsAt0 V c lastPt.val lastPt.isLt).2.2

/-- What the one flushing point writes back is the scratch after the last point (its block is the whole array). -/
theorem flushed0_7_eq (c : Dev nD) (t : Fin cfg0.N) (hf : (cfg0.win 7).flush t = true) :
    (dat0 (F := Ideal) V c).flushed 7 t = ((cfg0.win 7).blk t).view.read (Elt Ideal) (lastScratch V c) := by
  have h1 : t.val % 16 = 15 := (flush0_7 t).mp hf
  have hN : t.val < 16 := lt_of_lt_of_eq t.isLt points_eq
  have h15 : t = lastPt := Fin.ext (by show t.val = 15; omega)
  subst h15
  show (cfg0.win 7).cut (grid0.coords lastPt) ((dat0 V c).after 7 lastPt) = _
  rw [after0_7, out_last V c lastPt (by show (15 : ℕ) ≠ 0; omega) h1]
  obtain ⟨i0, i1⟩ := blocks_at0_7 lastPt
  funext j
  show (outsAt0 V c lastPt.val lastPt.isLt).2.2 j = lastScratch V c (((cfg0.win 7).blk lastPt).view.emb j)
  unfold lastScratch
  refine congrArg ((outsAt0 V c lastPt.val lastPt.isLt).2.2) ?_
  funext ax; apply Fin.ext
  have hj0 : (j 0).val < 1 := (j 0).isLt
  have hj1 : (j 1).val < 1 := (j 1).isLt
  match ax with
  | ⟨0, _⟩ => show (j 0).val = win0_7.index lastPt (0 : Fin 2) * 1 + 1 * (j 0).val; omega
  | ⟨1, _⟩ => show (j 1).val = win0_7.index lastPt (1 : Fin 2) * 1 + 1 * (j 1).val; omega

/-- An index of the 1 × 1 array is in a point's block iff each coordinate is in the block's range on its axis. -/
theorem mem_blk0_7 (t : Fin cfg0.N) (i : S1x1.Idx) :
    i ∈ ((cfg0.win 7).blk t).view.set ↔ ∀ a : Fin 2, win0_7.index t a * S1x1.size a ≤ (i a).val
      ∧ (i a).val < win0_7.index t a * S1x1.size a + S1x1.size a := by
  show i ∈ ((View.whole main_v32_1).slice (win0_7.rect t)).set ↔ _
  rw [View.set_slice_whole, Rect.mem_set_unit]
  exact Iff.rfl

/-- The array's one index is in the last point's block, and the last point writes back. -/
theorem cover0_7 (i : S1x1.Idx) :
    ∃ t : Fin cfg0.N, (cfg0.win 7).flush t = true ∧ i ∈ ((cfg0.win 7).blk t).view.set := by
  have hi0 : (i 0).val < 1 := (i 0).isLt
  have hi1 : (i 1).val < 1 := (i 1).isLt
  obtain ⟨i0, i1⟩ := blocks_at0_7 lastPt
  refine ⟨lastPt, (flush0_7 lastPt).mpr (by show (15 : ℕ) % 16 = 15; omega), ?_⟩
  rw [mem_blk0_7]
  intro a
  match a with
  | ⟨0, _⟩ =>
    show win0_7.index lastPt (0 : Fin 2) * 1 ≤ (i 0).val ∧ (i 0).val < win0_7.index lastPt (0 : Fin 2) * 1 + 1; omega
  | ⟨1, _⟩ =>
    show win0_7.index lastPt (1 : Fin 2) * 1 ≤ (i 1).val ∧ (i 1).val < win0_7.index lastPt (1 : Fin 2) * 1 + 1; omega

/-- The 1 × 1 output array after the region is the scratch after the last point. -/
theorem final0_max_array (c : Dev nD) : (dat0 (F := Ideal) V c).arrAt 7 cfg0.N = lastScratch V c :=
  (dat0 (F := Ideal) V c).arrAt_eq_of_cover 7 (lastScratch V c) (fun t hf => flushed0_7_eq V c t hf) cover0_7

/-- Its one entry is the layer's largest magnitude. -/
theorem final0_max (c : Dev nD) :
    (dat0 (F := Ideal) V c).arrAt 7 cfg0.N (ix2 (0 : Fin 1) (0 : Fin 1))
      = Cert.Spec.top (fun ij : Fin 8192 × Fin 4096 => layerAt V c ij.1 ij.2) := by
  have e1 : lastScratch V c (ix2 (0 : Fin 1) (0 : Fin 1)) = carried V c 15 := by
    unfold carried lastScratch
    rw [dif_pos (show 15 < cfg0.N from lastPt.isLt)]
    rfl
  calc (dat0 (F := Ideal) V c).arrAt 7 cfg0.N (ix2 (0 : Fin 1) (0 : Fin 1))
      = lastScratch V c (ix2 (0 : Fin 1) (0 : Fin 1)) := congrFun (final0_max_array V c) _
    _ = carried V c 15 := e1
    _ = Finset.univ.sup fun s : Fin 16 => tileTop V c (pt s) := carried_last V c
    _ = Finset.univ.sup fun s : Fin 16 => Finset.univ.sup fun pq : Fin 512 × Fin 4096 =>
          Cert.Spec.mag (layerAt V c (rowOf s pq.1) pq.2) :=
        congrArg (fun g : Fin 16 → EReal => Finset.univ.sup g) (funext fun s => tileTop_eq V c s)
    _ = Cert.Spec.top (fun ij : Fin 8192 × Fin 4096 => layerAt V c ij.1 ij.2) :=
        (Cert.TileMax.top_rows_tiles (fun ij : Fin 8192 × Fin 4096 => layerAt V c ij.1 ij.2) rowOf
          (fun _ _ => rfl)).symm

end Cert.KernelIdeal.Val

end
-- ==== Proof.RefTop.lean ====
/-
  A maximum-reduce of the magnitudes of a matrix over both of its axes, started from `-∞`, is the largest
  magnitude of the matrix: the fold of `max` from `⊥` over every index is the supremum over the index set,
  and the index set of a matrix is the product of its two coordinate ranges.
-/
import proofs.«101463_j1391569404120_1_alg».proof.Proof.Spec
import Idealize.ShloMosaic.PureOps.Ideal.Laws
import Idealize.ShloMosaic.Lib.ValueIdx
import Mathlib.Data.Fintype.Lattice

noncomputable section

namespace Cert.RefTop

open Idealize.ShloMosaic Idealize.ShloMosaic.ValueIdx Cert.Spec

instance : Subsingleton (⟨0, ![]⟩ : Shape).Idx := ⟨fun a b => funext fun d => d.elim0⟩

/-- The supremum over the indices of a matrix is the supremum over the pairs of coordinates. -/
theorem sup_idx2 {n0 n1 : Nat} (g : (⟨2, ![n0, n1]⟩ : Shape).Idx → EReal) :
    Finset.univ.sup g = Finset.univ.sup fun p : Fin n0 × Fin n1 => g (ix2 p.1 p.2) := by
  rw [Finset.sup_univ_eq_iSup, Finset.sup_univ_eq_iSup]
  exact (Equiv.iSup_comp (g := g) (idxEquiv2 (n0 := n0) (n1 := n1)).symm).symm

/-- The word `0xFF800000` is `-∞`. -/
theorem ofBits_neg_inf : Ideal.ofBits .f32 0xFF800000#32 = ⊥ := by simp [Ideal.ofBits, Ideal.ieee]

/-- The host's maximum-reduce over both axes, from an initial value `⊥`, of the magnitudes of `x`. -/
theorem reduce_max_mag {n0 n1 : Nat} (x : (⟨2, ![n0, n1]⟩ : Shape).Idx → EReal) (init : (⟨0, ![]⟩ : Shape).Idx → EReal)
    (hinit : ∀ j, init j = ⊥) (h : (⟨2, ![n0, n1]⟩ : Shape).ReducesTo [0, 1] ⟨0, ![]⟩) (hu : 0 < (⟨0, ![]⟩ : Shape).numel)
    (j : (⟨0, ![]⟩ : Shape).Idx) :
    Host.reduce (FloatOps.maximumf (F := Ideal) (φ := .f32)) (fun i => max (x i) (-(x i))) init h hu j
      = top fun p : Fin n0 × Fin n1 => x (ix2 p.1 p.2) := by
  rw [Host.reduce_eq_fold, hinit, Finset.filter_true_of_mem fun i _ => Subsingleton.elim _ _]
  exact sup_idx2 fun i => mag (x i)

end Cert.RefTop

end
-- ==== Proof.QuantTerm.lean ====
/-
  The quantisation of a matrix as the host operations spell it, for any matrix shape: the largest magnitude by a
  maximum-reduce over both axes from `-∞`, the step `max (top / 127) tiny` as a scalar, the scalar broadcast over
  the matrix, and entry by entry divide, round to the nearest integer (ties to even), clip to [-128, 127] (a
  maximum with the broadcast lower end, then a minimum with the broadcast upper end) and multiply by the step.
  Read at an index this is `Cert.Spec.quant` of the matrix at the index's coordinates. The shape relations the
  operations take are variables, so any program that prints these operations can cite the lemmas.
-/
import proofs.«101463_j1391569404120_1_alg».proof.Proof.RefTop
import Idealize.ShloMosaic.Lib.Pipeline.Value

noncomputable section

namespace Cert.QuantTerm

open Idealize.ShloMosaic Idealize.ShloMosaic.ValueIdx Cert.Spec Cert.RefTop

/-- The scalar chain "divide by 127, at least the smallest step" is `step`. -/
theorem stepTerm_apply (x : FVec Ideal ⟨0, ![]⟩ .f32) (j : (⟨0, ![]⟩ : Shape).Idx) :
    maximumf (Host.divf x (constant ⟨0, ![]⟩ .f32 0x42FE0000#32)) (constant ⟨0, ![]⟩ .f32 0x322BCC77#32) j = step (x j) := rfl

/-- The maximum-reduce of the magnitudes over both axes, from the `-∞` constant, is `top`. -/
theorem reduceTerm_apply {n0 n1 : Nat} (a : FVec Ideal ⟨2, ![n0, n1]⟩ .f32)
    (hred : (⟨2, ![n0, n1]⟩ : Shape).ReducesTo [0, 1] ⟨0, ![]⟩) (hu : 0 < (⟨0, ![]⟩ : Shape).numel) (j : (⟨0, ![]⟩ : Shape).Idx) :
    Host.reduce FloatOps.maximumf (Host.absf a) (constant ⟨0, ![]⟩ .f32 0xFF800000#32) hred hu j
      = top fun pq : Fin n0 × Fin n1 => a (ix2 pq.1 pq.2) :=
  reduce_max_mag a _ (fun _ => ofBits_neg_inf) hred hu j

/-- The step of a matrix's own grid, as the operations compute it. -/
theorem gridStepTerm_apply {n0 n1 : Nat} (a : FVec Ideal ⟨2, ![n0, n1]⟩ .f32)
    (hred : (⟨2, ![n0, n1]⟩ : Shape).ReducesTo [0, 1] ⟨0, ![]⟩) (hu : 0 < (⟨0, ![]⟩ : Shape).numel) (j : (⟨0, ![]⟩ : Shape).Idx) :
    (maximumf (Host.divf (Host.reduce FloatOps.maximumf (Host.absf a) (constant ⟨0, ![]⟩ .f32 0xFF800000#32) hred hu) (constant ⟨0, ![]⟩ .f32 0x42FE0000#32)) (constant ⟨0, ![]⟩ .f32 0x322BCC77#32)) j
      = step (top fun pq : Fin n0 × Fin n1 => a (ix2 pq.1 pq.2)) := by
  rw [stepTerm_apply, reduceTerm_apply]

/-- A scalar broadcast over a matrix is the scalar at every index. -/
theorem broadcast_scalar {n0 n1 : Nat} (bc : (⟨0, ![]⟩ : Shape).BroadcastsInDim ⟨2, ![n0, n1]⟩ (![] : Fin 0 → Fin 2))
    (y : FVec Ideal ⟨0, ![]⟩ .f32) : broadcastInDim ⟨2, ![n0, n1]⟩ ![] bc y = fun _ => y ix0 :=
  funext fun i => broadcastInDim_apply _ bc y i ix0 (fun d => d.elim0)

/-- The quantised matrix, as the operations compute it, read at an index. -/
theorem quantTerm_apply {n0 n1 : Nat} (a : FVec Ideal ⟨2, ![n0, n1]⟩ .f32)
    (hred : (⟨2, ![n0, n1]⟩ : Shape).ReducesTo [0, 1] ⟨0, ![]⟩) (hu : 0 < (⟨0, ![]⟩ : Shape).numel)
    (bc : (⟨0, ![]⟩ : Shape).BroadcastsInDim ⟨2, ![n0, n1]⟩ (![] : Fin 0 → Fin 2)) (p : Fin n0) (q : Fin n1) :
    mulf (minimumf (broadcastInDim ⟨2, ![n0, n1]⟩ ![] bc (id (constant ⟨0, ![]⟩ .f32 0x42FE0000#32)))
        (maximumf (broadcastInDim ⟨2, ![n0, n1]⟩ ![] bc (id (constant ⟨0, ![]⟩ .f32 0xC3000000#32)))
          (Host.roundeven (Host.divf a (broadcastInDim ⟨2, ![n0, n1]⟩ ![] bc (maximumf (Host.divf (Host.reduce FloatOps.maximumf (Host.absf a) (constant ⟨0, ![]⟩ .f32 0xFF800000#32) hred hu) (constant ⟨0, ![]⟩ .f32 0x42FE0000#32)) (constant ⟨0, ![]⟩ .f32 0x322BCC77#32)))))))
      (broadcastInDim ⟨2, ![n0, n1]⟩ ![] bc (maximumf (Host.divf (Host.reduce FloatOps.maximumf (Host.absf a) (constant ⟨0, ![]⟩ .f32 0xFF800000#32) hred hu) (constant ⟨0, ![]⟩ .f32 0x42FE0000#32)) (constant ⟨0, ![]⟩ .f32 0x322BCC77#32))) (ix2 p q)
      = quant (fun pq : Fin n0 × Fin n1 => a (ix2 pq.1 pq.2)) (p, q) := by
  rw [broadcast_scalar bc, broadcast_scalar bc, broadcast_scalar bc]
  show min _ (max _ (rne (Ideal.div (a (ix2 p q)) ((maximumf (Host.divf (Host.reduce FloatOps.maximumf (Host.absf a) (constant ⟨0, ![]⟩ .f32 0xFF800000#32) hred hu) (constant ⟨0, ![]⟩ .f32 0x42FE0000#32)) (constant ⟨0, ![]⟩ .f32 0x322BCC77#32)) ix0)))) * ((maximumf (Host.divf (Host.reduce FloatOps.maximumf (Host.absf a) (constant ⟨0, ![]⟩ .f32 0xFF800000#32) hred hu) (constant ⟨0, ![]⟩ .f32 0x42FE0000#32)) (constant ⟨0, ![]⟩ .f32 0x322BCC77#32)) ix0) = _
  rw [gridStepTerm_apply]
  rfl

end Cert.QuantTerm

end
-- ==== Proof.KHostFactors.lean ====
/-
  What the kernel program's own host operations leave, before its first kernel region, in the buffers the
  region reads. The three factor matrices are quantised by the same operations as in the reference, stretch
  by stretch (the step of the grid and the division; the rounding; the two clip bounds; the clip; the product
  with the step), so each quantised buffer read at an index is `Cert.Spec.quant` of the launch contents; the
  third is then transposed, the bias is re-laid as one row, and the two activations are untouched.
-/
import proofs.«101463_j1391569404120_1_alg».proof.Proof.Gen.KernelIdeal.Regions
import proofs.«101463_j1391569404120_1_alg».proof.Proof.QuantTerm
import Idealize.ShloMosaic.Lib.StableHlo.Run
import Idealize.ShloMosaic.Lib.ValueLayout

noncomputable section

namespace Cert.KernelIdeal.HostVal

open Cert.KernelIdeal Cert.KernelIdeal.Gen Idealize.ShloMosaic Idealize.ShloMosaic.TcCoe Idealize.SL.Sem
open Idealize.ShloMosaic.StableHlo Idealize.ShloMosaic.ValueIdx Cert.QuantTerm

/-- The step of a matrix's own grid, as the host operations spell it. -/
abbrev stepT {n0 n1 : Nat} (a : FVec Ideal ⟨2, ![n0, n1]⟩ .f32)
    (hred : (⟨2, ![n0, n1]⟩ : Shape).ReducesTo [0, 1] ⟨0, ![]⟩) (hu : 0 < (⟨0, ![]⟩ : Shape).numel) : FVec Ideal ⟨0, ![]⟩ .f32 :=
  maximumf (Host.divf (Host.reduce FloatOps.maximumf (Host.absf a) (constant ⟨0, ![]⟩ .f32 0xFF800000#32) hred hu)
    (constant ⟨0, ![]⟩ .f32 0x42FE0000#32)) (constant ⟨0, ![]⟩ .f32 0x322BCC77#32)

/-- The quantised matrix, as the host operations spell it. -/
abbrev quantT {n0 n1 : Nat} (a : FVec Ideal ⟨2, ![n0, n1]⟩ .f32)
    (hred : (⟨2, ![n0, n1]⟩ : Shape).ReducesTo [0, 1] ⟨0, ![]⟩) (hu : 0 < (⟨0, ![]⟩ : Shape).numel)
    (bc : (⟨0, ![]⟩ : Shape).BroadcastsInDim ⟨2, ![n0, n1]⟩ (![] : Fin 0 → Fin 2)) : FVec Ideal ⟨2, ![n0, n1]⟩ .f32 :=
  mulf (minimumf (broadcastInDim ⟨2, ![n0, n1]⟩ ![] bc (id (constant ⟨0, ![]⟩ .f32 0x42FE0000#32)))
      (maximumf (broadcastInDim ⟨2, ![n0, n1]⟩ ![] bc (id (constant ⟨0, ![]⟩ .f32 0xC3000000#32)))
        (Host.roundeven (Host.divf a (broadcastInDim ⟨2, ![n0, n1]⟩ ![] bc (stepT a hred hu))))))
    (broadcastInDim ⟨2, ![n0, n1]⟩ ![] bc (stepT a hred hu))

/-! ### The first factor matrix -/

section
variable (Vin : Valuation τ sig (Elt Ideal))

theorem f0_step : (after hostOps0 Vin (main_v3 : DevRef τ sig) : (⟨S_, .f32⟩ : BufTy).Contents (Elt Ideal)) = stepT (Vin (main_arg2 : DevRef τ sig) : (⟨S64x64, .f32⟩ : BufTy).Contents (Elt Ideal)) reducesTo_S64x64_S_d0_1 h_S_ := by
  after_results
theorem f0_div : (after hostOps0 Vin (main_v5 : DevRef τ sig) : (⟨S64x64, .f32⟩ : BufTy).Contents (Elt Ideal))
    = (Host.divf (F := Ideal) (φ := .f32) (Vin (main_arg2 : DevRef τ sig) : (⟨S64x64, .f32⟩ : BufTy).Contents (Elt Ideal)) (broadcastInDim S64x64 ![] bcast_S_S64x64 (stepT (Vin (main_arg2 : DevRef τ sig) : (⟨S64x64, .f32⟩ : BufTy).Contents (Elt Ideal)) reducesTo_S64x64_S_d0_1 h_S_))) := by
  after_results
theorem f0_round : (after hostOps0_1 Vin (main_v6 : DevRef τ sig) : (⟨S64x64, .f32⟩ : BufTy).Contents (Elt Ideal)) = (Host.roundeven (F := Ideal) (φ := .f32) (Vin (main_v5 : DevRef τ sig) : (⟨S64x64, .f32⟩ : BufTy).Contents (Elt Ideal))) := by
  after_results; rfl
theorem f0_lo : (after hostOps0_2 Vin (main_cst_2 : DevRef τ sig) : (⟨S_, .f32⟩ : BufTy).Contents (Elt Ideal)) = (constant (F := Ideal) S_ .f32 0xC3000000#32) := by
  after_results
theorem f0_hi : (after hostOps0_2 Vin (main_cst_3 : DevRef τ sig) : (⟨S_, .f32⟩ : BufTy).Contents (Elt Ideal)) = (constant (F := Ideal) S_ .f32 0x42FE0000#32) := by
  after_results
theorem f0_clip : (after hostOps0_3 Vin (main_v7 : DevRef τ sig) : (⟨S64x64, .f32⟩ : BufTy).Contents (Elt Ideal))
    = (minimumf (F := Ideal) (φ := .f32) (broadcastInDim S64x64 ![] bcast_S_S64x64 (id (Vin (main_cst_3 : DevRef τ sig) : (⟨S_, .f32⟩ : BufTy).Contents (Elt Ideal)))) (maximumf (F := Ideal) (φ := .f32) (broadcastInDim S64x64 ![] bcast_S_S64x64 (id (Vin (main_cst_2 : DevRef τ sig) : (⟨S_, .f32⟩ : BufTy).Contents (Elt Ideal)))) (Vin (main_v6 : DevRef τ sig) : (⟨S64x64, .f32⟩ : BufTy).Contents (Elt Ideal)))) := by
  after_results; rfl
theorem f0_mul : (after hostOps0_4 Vin (main_v9 : DevRef τ sig) : (⟨S64x64, .f32⟩ : BufTy).Contents (Elt Ideal))
    = (mulf (F := Ideal) (φ := .f32) (Vin (main_v7 : DevRef τ sig) : (⟨S64x64, .f32⟩ : BufTy).Contents (Elt Ideal)) (broadcastInDim S64x64 ![] bcast_S_S64x64 (Vin (main_v3 : DevRef τ sig) : (⟨S_, .f32⟩ : BufTy).Contents (Elt Ideal)))) := by
  after_results
end

/-- The first factor matrix as the region finds it: the quantisation term of the launch contents. -/
theorem V13_main_v9 (m : (ℓ : Loc nD τ sig) → Buf (Elt Ideal) ℓ) (c : Dev nD) :
    (V13 m c main_v9 : (⟨S64x64, .f32⟩ : BufTy).Contents (Elt Ideal)) = quantT (m ((c : Thread nD τ).loc main_arg2) : (⟨S64x64, .f32⟩ : BufTy).Contents (Elt Ideal)) reducesTo_S64x64_S_d0_1 h_S_ bcast_S_S64x64 := by
  have ea : (V0 m c main_arg2 : (⟨S64x64, .f32⟩ : BufTy).Contents (Elt Ideal)) = (m ((c : Thread nD τ).loc main_arg2) : (⟨S64x64, .f32⟩ : BufTy).Contents (Elt Ideal)) := rfl
  have es : (V4 m c main_v3 : (⟨S_, .f32⟩ : BufTy).Contents (Elt Ideal)) = stepT (m ((c : Thread nD τ).loc main_arg2) : (⟨S64x64, .f32⟩ : BufTy).Contents (Elt Ideal)) reducesTo_S64x64_S_d0_1 h_S_ :=
    (V4_of m c main_v3 (by decide)).trans <| (V3_of m c main_v3 (by decide)).trans <| (V2_of m c main_v3 (by decide)).trans <| (f0_step (V0 m c)).trans (by rw [ea])
  have ed : (V1 m c main_v5 : (⟨S64x64, .f32⟩ : BufTy).Contents (Elt Ideal)) = (Host.divf (F := Ideal) (φ := .f32) (m ((c : Thread nD τ).loc main_arg2) : (⟨S64x64, .f32⟩ : BufTy).Contents (Elt Ideal)) (broadcastInDim S64x64 ![] bcast_S_S64x64 (stepT (m ((c : Thread nD τ).loc main_arg2) : (⟨S64x64, .f32⟩ : BufTy).Contents (Elt Ideal)) reducesTo_S64x64_S_d0_1 h_S_))) :=
    (f0_div (V0 m c)).trans (by rw [ea])
  have er : (V3 m c main_v6 : (⟨S64x64, .f32⟩ : BufTy).Contents (Elt Ideal)) = (Host.roundeven (F := Ideal) (φ := .f32) (Host.divf (F := Ideal) (φ := .f32) (m ((c : Thread nD τ).loc main_arg2) : (⟨S64x64, .f32⟩ : BufTy).Contents (Elt Ideal)) (broadcastInDim S64x64 ![] bcast_S_S64x64 (stepT (m ((c : Thread nD τ).loc main_arg2) : (⟨S64x64, .f32⟩ : BufTy).Contents (Elt Ideal)) reducesTo_S64x64_S_d0_1 h_S_)))) :=
    (V3_of m c main_v6 (by decide)).trans <| (f0_round (V1 m c)).trans (by rw [ed])
  have elo : (V3 m c main_cst_2 : (⟨S_, .f32⟩ : BufTy).Contents (Elt Ideal)) = (constant (F := Ideal) S_ .f32 0xC3000000#32) := f0_lo (V2 m c)
  have ehi : (V3 m c main_cst_3 : (⟨S_, .f32⟩ : BufTy).Contents (Elt Ideal)) = (constant (F := Ideal) S_ .f32 0x42FE0000#32) := f0_hi (V2 m c)
  have ec : (V4 m c main_v7 : (⟨S64x64, .f32⟩ : BufTy).Contents (Elt Ideal)) = (minimumf (F := Ideal) (φ := .f32) (broadcastInDim S64x64 ![] bcast_S_S64x64 (id (constant (F := Ideal) S_ .f32 0x42FE0000#32))) (maximumf (F := Ideal) (φ := .f32) (broadcastInDim S64x64 ![] bcast_S_S64x64 (id (constant (F := Ideal) S_ .f32 0xC3000000#32))) (Host.roundeven (F := Ideal) (φ := .f32) (Host.divf (F := Ideal) (φ := .f32) (m ((c : Thread nD τ).loc main_arg2) : (⟨S64x64, .f32⟩ : BufTy).Contents (Elt Ideal)) (broadcastInDim S64x64 ![] bcast_S_S64x64 (stepT (m ((c : Thread nD τ).loc main_arg2) : (⟨S64x64, .f32⟩ : BufTy).Contents (Elt Ideal)) reducesTo_S64x64_S_d0_1 h_S_)))))) :=
    (f0_clip (V3 m c)).trans (by rw [elo, ehi, er])
  exact (V13_of m c main_v9 (by decide)).trans <| (V12_of m c main_v9 (by decide)).trans <| (V11_of m c main_v9 (by decide)).trans <| (V10_of m c main_v9 (by decide)).trans <| (V9_of m c main_v9 (by decide)).trans <| (V8_of m c main_v9 (by decide)).trans <| (V7_of m c main_v9 (by decide)).trans <| (V6_of m c main_v9 (by decide)).trans <| (f0_mul (V4 m c)).trans (by rw [ec, es])

/-! ### The second factor matrix -/

section
variable (Vin : Valuation τ sig (Elt Ideal))

theorem f1_step : (after hostOps0_4 Vin (main_v13 : DevRef τ sig) : (⟨S_, .f32⟩ : BufTy).Contents (Elt Ideal)) = stepT (Vin (main_arg3 : DevRef τ sig) : (⟨S64x64, .f32⟩ : BufTy).Contents (Elt Ideal)) reducesTo_S64x64_S_d0_1 h_S_ := by
  after_results
theorem f1_div : (after hostOps0_4 Vin (main_v15 : DevRef τ sig) : (⟨S64x64, .f32⟩ : BufTy).Contents (Elt Ideal))
    = (Host.divf (F := Ideal) (φ := .f32) (Vin (main_arg3 : DevRef τ sig) : (⟨S64x64, .f32⟩ : BufTy).Contents (Elt Ideal)) (broadcastInDim S64x64 ![] bcast_S_S64x64 (stepT (Vin (main_arg3 : DevRef τ sig) : (⟨S64x64, .f32⟩ : BufTy).Contents (Elt Ideal)) reducesTo_S64x64_S_d0_1 h_S_))) := by
  after_results
theorem f1_round : (after hostOps0_5 Vin (main_v16 : DevRef τ sig) : (⟨S64x64, .f32⟩ : BufTy).Contents (Elt Ideal)) = (Host.roundeven (F := Ideal) (φ := .f32) (Vin (main_v15 : DevRef τ sig) : (⟨S64x64, .f32⟩ : BufTy).Contents (Elt Ideal))) := by
  after_results; rfl
theorem f1_lo : (after hostOps0_6 Vin (main_cst_7 : DevRef τ sig) : (⟨S_, .f32⟩ : BufTy).Contents (Elt Ideal)) = (constant (F := Ideal) S_ .f32 0xC3000000#32) := by
  after_results
theorem f1_hi : (after hostOps0_6 Vin (main_cst_8 : DevRef τ sig) : (⟨S_, .f32⟩ : BufTy).Contents (Elt Ideal)) = (constant (F := Ideal) S_ .f32 0x42FE0000#32) := by
  after_results
theorem f1_clip : (after hostOps0_7 Vin (main_v17 : DevRef τ sig) : (⟨S64x64, .f32⟩ : BufTy).Contents (Elt Ideal))
    = (minimumf (F := Ideal) (φ := .f32) (broadcastInDim S64x64 ![] bcast_S_S64x64 (id (Vin (main_cst_8 : DevRef τ sig) : (⟨S_, .f32⟩ : BufTy).Contents (Elt Ideal)))) (maximumf (F := Ideal) (φ := .f32) (broadcastInDim S64x64 ![] bcast_S_S64x64 (id (Vin (main_cst_7 : DevRef τ sig) : (⟨S_, .f32⟩ : BufTy).Contents (Elt Ideal)))) (Vin (main_v16 : DevRef τ sig) : (⟨S64x64, .f32⟩ : BufTy).Contents (Elt Ideal)))) := by
  after_results; rfl
theorem f1_mul : (after hostOps0_8 Vin (main_v19 : DevRef τ sig) : (⟨S64x64, .f32⟩ : BufTy).Contents (Elt Ideal))
    = (mulf (F := Ideal) (φ := .f32) (Vin (main_v17 : DevRef τ sig) : (⟨S64x64, .f32⟩ : BufTy).Contents (Elt Ideal)) (broadcastInDim S64x64 ![] bcast_S_S64x64 (Vin (main_v13 : DevRef τ sig) : (⟨S_, .f32⟩ : BufTy).Contents (Elt Ideal)))) := by
  after_results
end

/-- The second factor matrix as the region finds it: the quantisation term of the launch contents. -/
theorem V13_main_v19 (m : (ℓ : Loc nD τ sig) → Buf (Elt Ideal) ℓ) (c : Dev nD) :
    (V13 m c main_v19 : (⟨S64x64, .f32⟩ : BufTy).Contents (Elt Ideal)) = quantT (m ((c : Thread nD τ).loc main_arg3) : (⟨S64x64, .f32⟩ : BufTy).Contents (Elt Ideal)) reducesTo_S64x64_S_d0_1 h_S_ bcast_S_S64x64 := by
  have ea : (V4 m c main_arg3 : (⟨S64x64, .f32⟩ : BufTy).Contents (Elt Ideal)) = (m ((c : Thread nD τ).loc main_arg3) : (⟨S64x64, .f32⟩ : BufTy).Contents (Elt Ideal)) := (V4_of m c main_arg3 (by decide)).trans <| (V3_of m c main_arg3 (by decide)).trans <| (V2_of m c main_arg3 (by decide)).trans <| (V1_of m c main_arg3 (by decide))
  have es : (V8 m c main_v13 : (⟨S_, .f32⟩ : BufTy).Contents (Elt Ideal)) = stepT (m ((c : Thread nD τ).loc main_arg3) : (⟨S64x64, .f32⟩ : BufTy).Contents (Elt Ideal)) reducesTo_S64x64_S_d0_1 h_S_ :=
    (V8_of m c main_v13 (by decide)).trans <| (V7_of m c main_v13 (by decide)).trans <| (V6_of m c main_v13 (by decide)).trans <| (f1_step (V4 m c)).trans (by rw [ea])
  have ed : (V5 m c main_v15 : (⟨S64x64, .f32⟩ : BufTy).Contents (Elt Ideal)) = (Host.divf (F := Ideal) (φ := .f32) (m ((c : Thread nD τ).loc main_arg3) : (⟨S64x64, .f32⟩ : BufTy).Contents (Elt Ideal)) (broadcastInDim S64x64 ![] bcast_S_S64x64 (stepT (m ((c : Thread nD τ).loc main_arg3) : (⟨S64x64, .f32⟩ : BufTy).Contents (Elt Ideal)) reducesTo_S64x64_S_d0_1 h_S_))) :=
    (f1_div (V4 m c)).trans (by rw [ea])
  have er : (V7 m c main_v16 : (⟨S64x64, .f32⟩ : BufTy).Contents (Elt Ideal)) = (Host.roundeven (F := Ideal) (φ := .f32) (Host.divf (F := Ideal) (φ := .f32) (m ((c : Thread nD τ).loc main_arg3) : (⟨S64x64, .f32⟩ : BufTy).Contents (Elt Ideal)) (broadcastInDim S64x64 ![] bcast_S_S64x64 (stepT (m ((c : Thread nD τ).loc main_arg3) : (⟨S64x64, .f32⟩ : BufTy).Contents (Elt Ideal)) reducesTo_S64x64_S_d0_1 h_S_)))) :=
    (V7_of m c main_v16 (by decide)).trans <| (f1_round (V5 m c)).trans (by rw [ed])
  have elo : (V7 m c main_cst_7 : (⟨S_, .f32⟩ : BufTy).Contents (Elt Ideal)) = (constant (F := Ideal) S_ .f32 0xC3000000#32) := f1_lo (V6 m c)
  have ehi : (V7 m c main_cst_8 : (⟨S_, .f32⟩ : BufTy).Contents (Elt Ideal)) = (constant (F := Ideal) S_ .f32 0x42FE0000#32) := f1_hi (V6 m c)
  have ec : (V8 m c main_v17 : (⟨S64x64, .f32⟩ : BufTy).Contents (Elt Ideal)) = (minimumf (F := Ideal) (φ := .f32) (broadcastInDim S64x64 ![] bcast_S_S64x64 (id (constant (F := Ideal) S_ .f32 0x42FE0000#32))) (maximumf (F := Ideal) (φ := .f32) (broadcastInDim S64x64 ![] bcast_S_S64x64 (id (constant (F := Ideal) S_ .f32 0xC3000000#32))) (Host.roundeven (F := Ideal) (φ := .f32) (Host.divf (F := Ideal) (φ := .f32) (m ((c : Thread nD τ).loc main_arg3) : (⟨S64x64, .f32⟩ : BufTy).Contents (Elt Ideal)) (broadcastInDim S64x64 ![] bcast_S_S64x64 (stepT (m ((c : Thread nD τ).loc main_arg3) : (⟨S64x64, .f32⟩ : BufTy).Contents (Elt Ideal)) reducesTo_S64x64_S_d0_1 h_S_)))))) :=
    (f1_clip (V7 m c)).trans (by rw [elo, ehi, er])
  exact (V13_of m c main_v19 (by decide)).trans <| (V12_of m c main_v19 (by decide)).trans <| (V11_of m c main_v19 (by decide)).trans <| (V10_of m c main_v19 (by decide)).trans <| (f1_mul (V8 m c)).trans (by rw [ec, es])

/-! ### The third factor matrix -/

section
variable (Vin : Valuation τ sig (Elt Ideal))

theorem f2_step : (after hostOps0_8 Vin (main_v23 : DevRef τ sig) : (⟨S_, .f32⟩ : BufTy).Contents (Elt Ideal)) = stepT (Vin (main_arg4 : DevRef τ sig) : (⟨S4096x64, .f32⟩ : BufTy).Contents (Elt Ideal)) reducesTo_S4096x64_S_d0_1 h_S_ := by
  after_results
theorem f2_div : (after hostOps0_8 Vin (main_v25 : DevRef τ sig) : (⟨S4096x64, .f32⟩ : BufTy).Contents (Elt Ideal))
    = (Host.divf (F := Ideal) (φ := .f32) (Vin (main_arg4 : DevRef τ sig) : (⟨S4096x64, .f32⟩ : BufTy).Contents (Elt Ideal)) (broadcastInDim S4096x64 ![] bcast_S_S4096x64 (stepT (Vin (main_arg4 : DevRef τ sig) : (⟨S4096x64, .f32⟩ : BufTy).Contents (Elt Ideal)) reducesTo_S4096x64_S_d0_1 h_S_))) := by
  after_results
theorem f2_round : (after hostOps0_9 Vin (main_v26 : DevRef τ sig) : (⟨S4096x64, .f32⟩ : BufTy).Contents (Elt Ideal)) = (Host.roundeven (F := Ideal) (φ := .f32) (Vin (main_v25 : DevRef τ sig) : (⟨S4096x64, .f32⟩ : BufTy).Contents (Elt Ideal))) := by
  after_results; rfl
theorem f2_lo : (after hostOps0_10 Vin (main_cst_12 : DevRef τ sig) : (⟨S_, .f32⟩ : BufTy).Contents (Elt Ideal)) = (constant (F := Ideal) S_ .f32 0xC3000000#32) := by
  after_results
theorem f2_hi : (after hostOps0_10 Vin (main_cst_13 : DevRef τ sig) : (⟨S_, .f32⟩ : BufTy).Contents (Elt Ideal)) = (constant (F := Ideal) S_ .f32 0x42FE0000#32) := by
  after_results
theorem f2_clip : (after hostOps0_11 Vin (main_v27 : DevRef τ sig) : (⟨S4096x64, .f32⟩ : BufTy).Contents (Elt Ideal))
    = (minimumf (F := Ideal) (φ := .f32) (broadcastInDim S4096x64 ![] bcast_S_S4096x64 (id (Vin (main_cst_13 : DevRef τ sig) : (⟨S_, .f32⟩ : BufTy).Contents (Elt Ideal)))) (maximumf (F := Ideal) (φ := .f32) (broadcastInDim S4096x64 ![] bcast_S_S4096x64 (id (Vin (main_cst_12 : DevRef τ sig) : (⟨S_, .f32⟩ : BufTy).Contents (Elt Ideal)))) (Vin (main_v26 : DevRef τ sig) : (⟨S4096x64, .f32⟩ : BufTy).Contents (Elt Ideal)))) := by
  after_results; rfl
theorem f2_mul : (after hostOps0_12 Vin (main_v29 : DevRef τ sig) : (⟨S4096x64, .f32⟩ : BufTy).Contents (Elt Ideal))
    = (mulf (F := Ideal) (φ := .f32) (Vin (main_v27 : DevRef τ sig) : (⟨S4096x64, .f32⟩ : BufTy).Contents (Elt Ideal)) (broadcastInDim S4096x64 ![] bcast_S_S4096x64 (Vin (main_v23 : DevRef τ sig) : (⟨S_, .f32⟩ : BufTy).Contents (Elt Ideal)))) := by
  after_results
end

/-- The third factor matrix as the region finds it: the quantisation term of the launch contents. -/
theorem V13_main_v29 (m : (ℓ : Loc nD τ sig) → Buf (Elt Ideal) ℓ) (c : Dev nD) :
    (V13 m c main_v29 : (⟨S4096x64, .f32⟩ : BufTy).Contents (Elt Ideal)) = quantT (m ((c : Thread nD τ).loc main_arg4) : (⟨S4096x64, .f32⟩ : BufTy).Contents (Elt Ideal)) reducesTo_S4096x64_S_d0_1 h_S_ bcast_S_S4096x64 := by
  have ea : (V8 m c main_arg4 : (⟨S4096x64, .f32⟩ : BufTy).Contents (Elt Ideal)) = (m ((c : Thread nD τ).loc main_arg4) : (⟨S4096x64, .f32⟩ : BufTy).Contents (Elt Ideal)) := (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))
  have es : (V12 m c main_v23 : (⟨S_, .f32⟩ : BufTy).Contents (Elt Ideal)) = stepT (m ((c : Thread nD τ).loc main_arg4) : (⟨S4096x64, .f32⟩ : BufTy).Contents (Elt Ideal)) reducesTo_S4096x64_S_d0_1 h_S_ :=
    (V12_of m c main_v23 (by decide)).trans <| (V11_of m c main_v23 (by decide)).trans <| (V10_of m c main_v23 (by decide)).trans <| (f2_step (V8 m c)).trans (by rw [ea])
  have ed : (V9 m c main_v25 : (⟨S4096x64, .f32⟩ : BufTy).Contents (Elt Ideal)) = (Host.divf (F := Ideal) (φ := .f32) (m ((c : Thread nD τ).loc main_arg4) : (⟨S4096x64, .f32⟩ : BufTy).Contents (Elt Ideal)) (broadcastInDim S4096x64 ![] bcast_S_S4096x64 (stepT (m ((c : Thread nD τ).loc main_arg4) : (⟨S4096x64, .f32⟩ : BufTy).Contents (Elt Ideal)) reducesTo_S4096x64_S_d0_1 h_S_))) :=
    (f2_div (V8 m c)).trans (by rw [ea])
  have er : (V11 m c main_v26 : (⟨S4096x64, .f32⟩ : BufTy).Contents (Elt Ideal)) = (Host.roundeven (F := Ideal) (φ := .f32) (Host.divf (F := Ideal) (φ := .f32) (m ((c : Thread nD τ).loc main_arg4) : (⟨S4096x64, .f32⟩ : BufTy).Contents (Elt Ideal)) (broadcastInDim S4096x64 ![] bcast_S_S4096x64 (stepT (m ((c : Thread nD τ).loc main_arg4) : (⟨S4096x64, .f32⟩ : BufTy).Contents (Elt Ideal)) reducesTo_S4096x64_S_d0_1 h_S_)))) :=
    (V11_of m c main_v26 (by decide)).trans <| (f2_round (V9 m c)).trans (by rw [ed])
  have elo : (V11 m c main_cst_12 : (⟨S_, .f32⟩ : BufTy).Contents (Elt Ideal)) = (constant (F := Ideal) S_ .f32 0xC3000000#32) := f2_lo (V10 m c)
  have ehi : (V11 m c main_cst_13 : (⟨S_, .f32⟩ : BufTy).Contents (Elt Ideal)) = (constant (F := Ideal) S_ .f32 0x42FE0000#32) := f2_hi (V10 m c)
  have ec : (V12 m c main_v27 : (⟨S4096x64, .f32⟩ : BufTy).Contents (Elt Ideal)) = (minimumf (F := Ideal) (φ := .f32) (broadcastInDim S4096x64 ![] bcast_S_S4096x64 (id (constant (F := Ideal) S_ .f32 0x42FE0000#32))) (maximumf (F := Ideal) (φ := .f32) (broadcastInDim S4096x64 ![] bcast_S_S4096x64 (id (constant (F := Ideal) S_ .f32 0xC3000000#32))) (Host.roundeven (F := Ideal) (φ := .f32) (Host.divf (F := Ideal) (φ := .f32) (m ((c : Thread nD τ).loc main_arg4) : (⟨S4096x64, .f32⟩ : BufTy).Contents (Elt Ideal)) (broadcastInDim S4096x64 ![] bcast_S_S4096x64 (stepT (m ((c : Thread nD τ).loc main_arg4) : (⟨S4096x64, .f32⟩ : BufTy).Contents (Elt Ideal)) reducesTo_S4096x64_S_d0_1 h_S_)))))) :=
    (f2_clip (V11 m c)).trans (by rw [elo, ehi, er])
  exact (f2_mul (V12 m c)).trans (by rw [ec, es])

/-! ### The third factor transposed, and the bias as one row -/

section
variable (Vin : Valuation τ sig (Elt Ideal))

theorem f2_transposed : (after hostOps0_12 Vin (main_v30 : DevRef τ sig) : (⟨S64x4096, .f32⟩ : BufTy).Contents (Elt Ideal))
    = transpose S64x4096 [1, 0] (mulf (F := Ideal) (φ := .f32) (Vin (main_v27 : DevRef τ sig) : (⟨S4096x64, .f32⟩ : BufTy).Contents (Elt Ideal)) (broadcastInDim S4096x64 ![] bcast_S_S4096x64 (Vin (main_v23 : DevRef τ sig) : (⟨S_, .f32⟩ : BufTy).Contents (Elt Ideal))))
      transposes_S4096x64_S64x4096_1_0 := by
  after_results
theorem bias_row : (after hostOps0_12 Vin (main_v31 : DevRef τ sig) : (⟨S1x4096, .f32⟩ : BufTy).Contents (Elt Ideal))
    = shapeCast S1x4096 (Vin (main_arg5 : DevRef τ sig) : (⟨S4096, .f32⟩ : BufTy).Contents (Elt Ideal)) shapeCasts_S4096_S1x4096 := by
  after_results; rfl
end

variable (m : (ℓ : Loc nD τ sig) → Buf (Elt Ideal) ℓ) (c : Dev nD)

/-! ### Read at an index -/

/-- The first quantised factor as the region finds it. -/
theorem V13_main_v9_apply (a k : Fin 64) :
    V13 m c main_v9 (ix2 a k) = Cert.Spec.quant (fun p : Fin 64 × Fin 64 => (m ((c : Thread nD τ).loc main_arg2) : (⟨S64x64, .f32⟩ : BufTy).Contents (Elt Ideal)) (ix2 p.1 p.2)) (a, k) :=
  (congrFun (V13_main_v9 m c) (ix2 a k)).trans (quantTerm_apply (m ((c : Thread nD τ).loc main_arg2) : (⟨S64x64, .f32⟩ : BufTy).Contents (Elt Ideal)) reducesTo_S64x64_S_d0_1 h_S_ bcast_S_S64x64 a k)

/-- The second quantised factor as the region finds it. -/
theorem V13_main_v19_apply (a k : Fin 64) :
    V13 m c main_v19 (ix2 a k) = Cert.Spec.quant (fun p : Fin 64 × Fin 64 => (m ((c : Thread nD τ).loc main_arg3) : (⟨S64x64, .f32⟩ : BufTy).Contents (Elt Ideal)) (ix2 p.1 p.2)) (a, k) :=
  (congrFun (V13_main_v19 m c) (ix2 a k)).trans (quantTerm_apply (m ((c : Thread nD τ).loc main_arg3) : (⟨S64x64, .f32⟩ : BufTy).Contents (Elt Ideal)) reducesTo_S64x64_S_d0_1 h_S_ bcast_S_S64x64 a k)

/-- The third quantised factor, before the transpose. -/
theorem V13_main_v29_apply (j : Fin 4096) (k : Fin 64) :
    V13 m c main_v29 (ix2 j k) = Cert.Spec.quant (fun p : Fin 4096 × Fin 64 => (m ((c : Thread nD τ).loc main_arg4) : (⟨S4096x64, .f32⟩ : BufTy).Contents (Elt Ideal)) (ix2 p.1 p.2)) (j, k) :=
  (congrFun (V13_main_v29 m c) (ix2 j k)).trans (quantTerm_apply (m ((c : Thread nD τ).loc main_arg4) : (⟨S4096x64, .f32⟩ : BufTy).Contents (Elt Ideal)) reducesTo_S4096x64_S_d0_1 h_S_ bcast_S_S4096x64 j k)

/-- The third quantised factor transposed, as the region finds it. -/
theorem V13_main_v30_apply (k : Fin 64) (j : Fin 4096) :
    V13 m c main_v30 (ix2 k j) = Cert.Spec.quant (fun p : Fin 4096 × Fin 64 => (m ((c : Thread nD τ).loc main_arg4) : (⟨S4096x64, .f32⟩ : BufTy).Contents (Elt Ideal)) (ix2 p.1 p.2)) (j, k) := by
  have e : V13 m c main_v30 = transpose S64x4096 [1, 0] (V13 m c main_v29 : (⟨S4096x64, .f32⟩ : BufTy).Contents (Elt Ideal))
      transposes_S4096x64_S64x4096_1_0 :=
    (f2_transposed (V12 m c)).trans (congrArg (fun y => transpose S64x4096 [1, 0] y transposes_S4096x64_S64x4096_1_0) (f2_mul (V12 m c)).symm)
  rw [e, transpose_apply [1, 0] _ transposes_S4096x64_S64x4096_1_0 (ix2 k j) (ix2 j k) (fun b => match b with
    | ⟨0, _⟩ => rfl
    | ⟨1, _⟩ => rfl)]
  exact V13_main_v29_apply m c j k

/-- The bias as the region finds it: one row. -/
theorem V13_main_v31_apply (j : Fin 4096) :
    V13 m c main_v31 (ix2 (0 : Fin 1) j) = (m ((c : Thread nD τ).loc main_arg5) : (⟨S4096, .f32⟩ : BufTy).Contents (Elt Ideal)) (ix1 j) := by
  have ea : V12 m c main_arg5 = (m ((c : Thread nD τ).loc main_arg5) : (⟨S4096, .f32⟩ : BufTy).Contents (Elt Ideal)) := (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
  have e : V13 m c main_v31 = shapeCast S1x4096 (m ((c : Thread nD τ).loc main_arg5) : (⟨S4096, .f32⟩ : BufTy).Contents (Elt Ideal)) shapeCasts_S4096_S1x4096 := (bias_row (V12 m c)).trans (by rw [ea])
  rw [e]
  exact shapeCast_a_1a_apply _ shapeCasts_S4096_S1x4096 (0 : Fin 1) j

/-- No host operation writes the first activation. -/
theorem V13_main_arg0 : V13 m c main_arg0 = m ((c : Thread nD τ).loc main_arg0) :=
  (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))

/-- No host operation writes the second activation. -/
theorem V13_main_arg1 : V13 m c main_arg1 = m ((c : Thread nD τ).loc main_arg1) :=
  (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))

end Cert.KernelIdeal.HostVal

end
-- ==== Proof.KHostStep.lean ====
/-
  The host operations between the two kernel regions: the one-by-one array that carries the layer's largest
  magnitude is re-laid as a scalar, divided by 127, raised to the smallest step, and re-laid as a one-by-one
  array. Read at its one index the result is `Cert.Spec.step` of the magnitude; the first region's other
  output is not touched.
-/
import proofs.«101463_j1391569404120_1_alg».proof.Proof.Gen.KernelIdeal.Regions
import proofs.«101463_j1391569404120_1_alg».proof.Proof.QuantTerm
import Idealize.ShloMosaic.Lib.StableHlo.Run

noncomputable section

namespace Cert.KernelIdeal.HostVal

open Cert.KernelIdeal Cert.KernelIdeal.Gen Idealize.ShloMosaic Idealize.ShloMosaic.TcCoe Idealize.SL.Sem
open Idealize.ShloMosaic.StableHlo Idealize.ShloMosaic.ValueIdx Cert.QuantTerm

/-- In a shape of one element every index sits at row-major position 0. -/
theorem rowMajor_val_of_numel_one {s : Shape} (h : s.numel = 1) (i : s.Idx) : (s.rowMajor i).val = 0 := by
  have := (s.rowMajor i).isLt
  omega

variable (Vin : Valuation τ sig (Elt Ideal))

/-- What the stretch writes into the step's buffer, as one term of the magnitude's buffer. -/
theorem step_buffer : (after hostOps1 Vin (main_v36 : DevRef τ sig) : (⟨S1x1, .f32⟩ : BufTy).Contents (Elt Ideal))
    = shapeCast S1x1 (maximumf (F := Ideal) (φ := .f32)
        (Host.divf (F := Ideal) (φ := .f32) (shapeCast S_ (Vin (main_v32_1 : DevRef τ sig) : (⟨S1x1, .f32⟩ : BufTy).Contents (Elt Ideal)) shapeCasts_S1x1_S_)
          (constant (F := Ideal) S_ .f32 0x42FE0000#32))
        (constant (F := Ideal) S_ .f32 0x322BCC77#32)) shapeCasts_S_S1x1 := by
  after_results; rfl

/-- The step of the layer's grid, from the magnitude the first region left. -/
theorem step_apply : (after hostOps1 Vin (main_v36 : DevRef τ sig) : (⟨S1x1, .f32⟩ : BufTy).Contents (Elt Ideal)) (ix2 (0 : Fin 1) (0 : Fin 1))
    = Cert.Spec.step ((Vin (main_v32_1 : DevRef τ sig) : (⟨S1x1, .f32⟩ : BufTy).Contents (Elt Ideal)) (ix2 (0 : Fin 1) (0 : Fin 1))) := by
  rw [step_buffer, shapeCast_apply _ shapeCasts_S_S1x1 (ix2 (0 : Fin 1) (0 : Fin 1)) ix0
    ((rowMajor_val_of_numel_one (by decide) _).trans (rowMajor_val_of_numel_one (by decide) _).symm),
    stepTerm_apply, shapeCast_apply _ shapeCasts_S1x1_S_ ix0 (ix2 (0 : Fin 1) (0 : Fin 1))
    ((rowMajor_val_of_numel_one (by decide) _).trans (rowMajor_val_of_numel_one (by decide) _).symm)]

/-- The stretch does not write the first region's other output. -/
theorem keeps_v32_0 : after hostOps1 Vin (main_v32_0 : DevRef τ sig) = Vin (main_v32_0 : DevRef τ sig) :=
  StableHlo.after_of_writes_sub hostOps1 _ hostOps1_writes (by decide)

end Cert.KernelIdeal.HostVal

end
-- ==== Proof.RefFactors.lean ====
/-
  The three factor matrices as the reference computes them. Each is divided by the step of its own grid
  (the largest magnitude over 127, at least the smallest step), rounded to the nearest integer, clipped to
  [-128, 127] and multiplied by the step again; the reference then adds the difference from the matrix back
  to the matrix. Where the entry is a real number that sum is the quantised entry itself.
-/
import proofs.«101463_j1391569404120_1_alg».proof.Proof.Gen.ReferenceIdeal.Read
import proofs.«101463_j1391569404120_1_alg».proof.Proof.RefTop

noncomputable section

namespace Cert.ReferenceIdeal.RefValue

open Cert.ReferenceIdeal Cert.ReferenceIdeal.Gen Cert.ReferenceIdeal.Read Idealize.ShloMosaic Idealize.ShloMosaic.ValueIdx
open Cert.Spec Cert.RefTop

/-! ### first factor matrix -/

/-- The step of the grid of the first factor matrix. -/
theorem step_f0 (x : S64x64.Idx → EReal) (j : S_.Idx) :
    val_main_v3 (F := Ideal) x j = step (top fun p : Fin 64 × Fin 64 => x (ix2 p.1 p.2)) := by
  show max (Ideal.div (Host.reduce (FloatOps.maximumf (F := Ideal) (φ := .f32)) (fun i => max (x i) (-(x i)))
      (fun _ => Ideal.ofBits .f32 0xFF800000#32) reducesTo_S64x64_S_d0_1 h_S_ j) hi) tiny = _
  rw [reduce_max_mag x _ (fun _ => ofBits_neg_inf)]
  rfl

/-- The first factor matrix, with its difference added back, is its quantisation wherever the entry is real. -/
theorem quant_f0 (x : S64x64.Idx → EReal) (a : Fin 64) (k : Fin 64) (hr : IsReal (x (ix2 a k))) :
    val_main_v11 (F := Ideal) x (ix2 a k) = quant (fun p : Fin 64 × Fin 64 => x (ix2 p.1 p.2)) (a, k) := by
  show x (ix2 a k) + (val_main_v9 (F := Ideal) x (ix2 a k) - x (ix2 a k)) = _
  rw [add_sub_self_of_real hr, val_main_v9_apply, val_main_v8_apply, val_main_v7_apply, val_main_call1_v4_apply,
    val_main_call1_v2_apply, val_main_call1_v1_apply, val_main_v6_apply, val_main_v5_apply, val_main_v4_apply, step_f0]
  rfl

/-! ### second factor matrix -/

/-- The step of the grid of the second factor matrix. -/
theorem step_f1 (x : S64x64.Idx → EReal) (j : S_.Idx) :
    val_main_v16 (F := Ideal) x j = step (top fun p : Fin 64 × Fin 64 => x (ix2 p.1 p.2)) := by
  show max (Ideal.div (Host.reduce (FloatOps.maximumf (F := Ideal) (φ := .f32)) (fun i => max (x i) (-(x i)))
      (fun _ => Ideal.ofBits .f32 0xFF800000#32) reducesTo_S64x64_S_d0_1 h_S_ j) hi) tiny = _
  rw [reduce_max_mag x _ (fun _ => ofBits_neg_inf)]
  rfl

/-- The second factor matrix, with its difference added back, is its quantisation wherever the entry is real. -/
theorem quant_f1 (x : S64x64.Idx → EReal) (a : Fin 64) (k : Fin 64) (hr : IsReal (x (ix2 a k))) :
    val_main_v24 (F := Ideal) x (ix2 a k) = quant (fun p : Fin 64 × Fin 64 => x (ix2 p.1 p.2)) (a, k) := by
  show x (ix2 a k) + (val_main_v22 (F := Ideal) x (ix2 a k) - x (ix2 a k)) = _
  rw [add_sub_self_of_real hr, val_main_v22_apply, val_main_v21_apply, val_main_v20_apply, val_main_call3_v4_apply,
    val_main_call3_v2_apply, val_main_call3_v1_apply, val_main_v19_apply, val_main_v18_apply, val_main_v17_apply, step_f1]
  rfl

/-! ### third factor matrix -/

/-- The step of the grid of the third factor matrix. -/
theorem step_f2 (x : S4096x64.Idx → EReal) (j : S_.Idx) :
    val_main_v30 (F := Ideal) x j = step (top fun p : Fin 4096 × Fin 64 => x (ix2 p.1 p.2)) := by
  show max (Ideal.div (Host.reduce (FloatOps.maximumf (F := Ideal) (φ := .f32)) (fun i => max (x i) (-(x i)))
      (fun _ => Ideal.ofBits .f32 0xFF800000#32) reducesTo_S4096x64_S_d0_1 h_S_ j) hi) tiny = _
  rw [reduce_max_mag x _ (fun _ => ofBits_neg_inf)]
  rfl

/-- The third factor matrix, with its difference added back, is its quantisation wherever the entry is real. -/
theorem quant_f2 (x : S4096x64.Idx → EReal) (a : Fin 4096) (k : Fin 64) (hr : IsReal (x (ix2 a k))) :
    val_main_v38 (F := Ideal) x (ix2 a k) = quant (fun p : Fin 4096 × Fin 64 => x (ix2 p.1 p.2)) (a, k) := by
  show x (ix2 a k) + (val_main_v36 (F := Ideal) x (ix2 a k) - x (ix2 a k)) = _
  rw [add_sub_self_of_real hr, val_main_v36_apply, val_main_v35_apply, val_main_v34_apply, val_main_call5_v4_apply,
    val_main_call5_v2_apply, val_main_call5_v1_apply, val_main_v33_apply, val_main_v32_apply, val_main_v31_apply, step_f2]
  rfl

end Cert.ReferenceIdeal.RefValue

end
-- ==== Proof.RefLayer.lean ====
/-
  The layer before its own quantisation, as the reference computes it: the two thin products `x0 · q0` and
  `x1 · q1` (each a sum over the shared axis), multiplied entry by entry, times the third quantised factor
  transposed, plus the bias broadcast along the rows. With real factor matrices each added-back difference
  has collapsed, and the entry is `Cert.Spec.pre`.
-/
import proofs.«101463_j1391569404120_1_alg».proof.Proof.RefFactors

noncomputable section

namespace Cert.ReferenceIdeal.RefValue

open Cert.ReferenceIdeal Cert.ReferenceIdeal.Gen Cert.ReferenceIdeal.Read Idealize.ShloMosaic Idealize.ShloMosaic.ValueIdx
open Cert.Spec Cert.RefTop

/-! ### Where each contraction reads its operands -/

theorem lidx12 (i : Fin 8192) (k a : Fin 64) : lidx_main_v12 (ix2 i k) a = ix2 i a :=
  funext fun d => by match d with | ⟨0, _⟩ => rfl | ⟨1, _⟩ => rfl
theorem ridx12 (i : Fin 8192) (k a : Fin 64) : ridx_main_v12 (ix2 i k) a = ix2 a k :=
  funext fun d => by match d with | ⟨0, _⟩ => rfl | ⟨1, _⟩ => rfl
theorem lidx25 (i : Fin 8192) (k a : Fin 64) : lidx_main_v25 (ix2 i k) a = ix2 i a :=
  funext fun d => by match d with | ⟨0, _⟩ => rfl | ⟨1, _⟩ => rfl
theorem ridx25 (i : Fin 8192) (k a : Fin 64) : ridx_main_v25 (ix2 i k) a = ix2 a k :=
  funext fun d => by match d with | ⟨0, _⟩ => rfl | ⟨1, _⟩ => rfl
theorem lidx40 (i : Fin 8192) (j : Fin 4096) (k : Fin 64) : lidx_main_v40 (ix2 i j) k = ix2 i k :=
  funext fun d => by match d with | ⟨0, _⟩ => rfl | ⟨1, _⟩ => rfl
theorem ridx40 (i : Fin 8192) (j : Fin 4096) (k : Fin 64) : ridx_main_v40 (ix2 i j) k = ix2 k j :=
  funext fun d => by match d with | ⟨0, _⟩ => rfl | ⟨1, _⟩ => rfl
theorem idx39 (k : Fin 64) (j : Fin 4096) : idx_main_v39 (ix2 k j) = ix2 j k :=
  funext fun d => by match d with | ⟨0, _⟩ => rfl | ⟨1, _⟩ => rfl
theorem idx41 (i : Fin 8192) (j : Fin 4096) : idx_main_v41 (idx_main_v42 (ix2 i j)) = ix1 j :=
  funext fun d => by match d with | ⟨0, _⟩ => rfl

/-! ### The pieces -/

/-- The first thin product: `x0` times the first quantised factor. -/
theorem dot_x0 (x0 : S8192x64.Idx → EReal) (x2 : S64x64.Idx → EReal) (h2 : ∀ i, IsReal (x2 i)) (i : Fin 8192) (k : Fin 64) :
    val_main_v12 (F := Ideal) x0 x2 (ix2 i k)
      = ∑ a : Fin 64, x0 (ix2 i a) * quant (fun q : Fin 64 × Fin 64 => x2 (ix2 q.1 q.2)) (a, k) := by
  rw [val_main_v12_apply]
  refine Finset.sum_congr rfl fun a _ => ?_
  rw [lidx12, ridx12, quant_f0 x2 a k (h2 _)]

/-- The second thin product: `x1` times the second quantised factor. -/
theorem dot_x1 (x1 : S8192x64.Idx → EReal) (x3 : S64x64.Idx → EReal) (h3 : ∀ i, IsReal (x3 i)) (i : Fin 8192) (k : Fin 64) :
    val_main_v25 (F := Ideal) x1 x3 (ix2 i k)
      = ∑ a : Fin 64, x1 (ix2 i a) * quant (fun q : Fin 64 × Fin 64 => x3 (ix2 q.1 q.2)) (a, k) := by
  rw [val_main_v25_apply]
  refine Finset.sum_congr rfl fun a _ => ?_
  rw [lidx25, ridx25, quant_f1 x3 a k (h3 _)]

/-- The third quantised factor, transposed. -/
theorem quantT_f2 (x4 : S4096x64.Idx → EReal) (h4 : ∀ i, IsReal (x4 i)) (k : Fin 64) (j : Fin 4096) :
    val_main_v39 (F := Ideal) x4 (ix2 k j) = quant (fun q : Fin 4096 × Fin 64 => x4 (ix2 q.1 q.2)) (j, k) := by
  rw [val_main_v39_apply, idx39, quant_f2 x4 j k (h4 _)]

/-- The layer before its own quantisation is `pre`, entry by entry. -/
theorem layer_eq_pre (x0 x1 : S8192x64.Idx → EReal) (x2 x3 : S64x64.Idx → EReal) (x4 : S4096x64.Idx → EReal)
    (x5 : S4096.Idx → EReal) (h2 : ∀ i, IsReal (x2 i)) (h3 : ∀ i, IsReal (x3 i)) (h4 : ∀ i, IsReal (x4 i))
    (p : Fin 8192 × Fin 4096) :
    val_main_v43 (F := Ideal) x0 x1 x2 x3 x4 x5 (ix2 p.1 p.2)
      = pre (fun q : Fin 8192 × Fin 64 => x0 (ix2 q.1 q.2)) (fun q : Fin 8192 × Fin 64 => x1 (ix2 q.1 q.2)) (fun q : Fin 64 × Fin 64 => x2 (ix2 q.1 q.2)) (fun q : Fin 64 × Fin 64 => x3 (ix2 q.1 q.2)) (fun q : Fin 4096 × Fin 64 => x4 (ix2 q.1 q.2)) (fun j : Fin 4096 => x5 (ix1 j)) p := by
  rw [val_main_v43_apply, val_main_v42_apply, val_main_v41_apply, val_main_v40_apply, idx41, Ideal.addf_def]
  unfold pre
  refine congrArg (· + x5 (ix1 p.2)) (Finset.sum_congr rfl fun k _ => ?_)
  rw [lidx40, ridx40, quantT_f2 x4 h4, val_main_v26_apply, dot_x0 x0 x2 h2, dot_x1 x1 x3 h3, Ideal.mulf_def]

end Cert.ReferenceIdeal.RefValue

end
-- ==== Proof.RealClosure.lean ====
/-
  Real-valuedness on the extended reals: the real numbers inside `EReal` are closed under sums, products,
  differences and finite sums; a value squeezed between two real numbers is real; hence an entry moved onto a
  grid of real step is real whatever the entry was, a tensor of real entries has a real quantisation, and the
  layer built from real inputs is real.
-/
import proofs.«101463_j1391569404120_1_alg».proof.Proof.Spec

noncomputable section

namespace Cert.RefReal

open Idealize.ShloMosaic Cert.Spec

theorem isReal_coe (r : ℝ) : IsReal (r : EReal) := ⟨EReal.coe_ne_top r, EReal.coe_ne_bot r⟩

theorem exists_coe_of_isReal {x : EReal} (h : IsReal x) : ∃ r : ℝ, x = (r : EReal) :=
  ⟨x.toReal, (EReal.coe_toReal h.1 h.2).symm⟩

theorem isReal_zero : IsReal (0 : EReal) := by simpa using isReal_coe 0

theorem isReal_add {x y : EReal} (hx : IsReal x) (hy : IsReal y) : IsReal (x + y) := by
  obtain ⟨a, rfl⟩ := exists_coe_of_isReal hx
  obtain ⟨b, rfl⟩ := exists_coe_of_isReal hy
  rw [← EReal.coe_add]; exact isReal_coe _

theorem isReal_mul {x y : EReal} (hx : IsReal x) (hy : IsReal y) : IsReal (x * y) := by
  obtain ⟨a, rfl⟩ := exists_coe_of_isReal hx
  obtain ⟨b, rfl⟩ := exists_coe_of_isReal hy
  rw [← EReal.coe_mul]; exact isReal_coe _

theorem isReal_neg {x : EReal} (hx : IsReal x) : IsReal (-x) := by
  obtain ⟨a, rfl⟩ := exists_coe_of_isReal hx
  rw [← EReal.coe_neg]; exact isReal_coe _

/-- A finite sum of real numbers is real. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- Between two real numbers there are only real numbers. -/
theorem isReal_of_le_of_le {a b x : EReal} (ha : IsReal a) (hb : IsReal b) (h1 : a ≤ x) (h2 : x ≤ b) : IsReal x :=
  ⟨ne_top_of_le_ne_top hb.1 h2, ne_bot_of_le_ne_bot ha.2 h1⟩

theorem isReal_max {x y : EReal} (hx : IsReal x) (hy : IsReal y) : IsReal (max x y) := by
  rcases max_choice x y with h | h <;> rw [h] <;> assumption

theorem isReal_min {x y : EReal} (hx : IsReal x) (hy : IsReal y) : IsReal (min x y) := by
  rcases min_choice x y with h | h <;> rw [h] <;> assumption

/-- The magnitude of a real number is real. -/
theorem isReal_mag {x : EReal} (hx : IsReal x) : IsReal (mag x) := isReal_max hx (isReal_neg hx)

/-! ### The three literals -/

theorem hi_eq : hi = ((127 : ℝ) : EReal) := by
  simp [hi, Ideal.ofBits, Ideal.ieee, -EReal.coe_mul]; norm_num

theorem lo_eq : lo = ((-128 : ℝ) : EReal) := by
  simp [lo, Ideal.ofBits, Ideal.ieee, -EReal.coe_mul]; norm_num

theorem isReal_hi : IsReal hi := hi_eq ▸ isReal_coe _
theorem isReal_lo : IsReal lo := lo_eq ▸ isReal_coe _

theorem isReal_tiny : IsReal tiny := by
  simp [tiny, Ideal.ofBits, Ideal.ieee, -EReal.coe_mul]; exact isReal_coe _

/-! ### The grid -/

/-- The step of a grid is real as soon as the largest magnitude is not `+∞`. -/
theorem isReal_step {M : EReal} (hM : M ≠ ⊤) : IsReal (step M) := by
  have hd : Ideal.div M hi ≠ ⊤ := by
    have h0 : hi ≠ 0 := by rw [hi_eq]; exact_mod_cast (by norm_num : (127 : ℝ) ≠ 0)
    rw [Ideal.div, if_neg h0, hi_eq, ← EReal.coe_inv]
    induction M using EReal.rec with
    | bot => rw [EReal.bot_mul_of_pos (by exact_mod_cast (by norm_num : (0 : ℝ) < (127 : ℝ)⁻¹))]; exact bot_ne_top
    | top => exact absurd rfl hM
    | coe r => rw [← EReal.coe_mul]; exact EReal.coe_ne_top _
  refine ⟨?_, ?_⟩
  · exact (max_lt (lt_top_iff_ne_top.2 hd) (lt_top_iff_ne_top.2 isReal_tiny.1)).ne
  · exact ne_bot_of_le_ne_bot isReal_tiny.2 (le_max_right _ _)

/-- An entry moved onto a grid of real step is real, whatever the entry: the clip bounds it. -/
theorem isReal_onGrid {s : EReal} (hs : IsReal s) (x : EReal) : IsReal (onGrid s x) := by
  refine isReal_mul ?_ hs
  exact isReal_of_le_of_le (isReal_min isReal_hi isReal_lo) isReal_hi
    (min_le_min le_rfl (le_max_left _ _)) (min_le_left _ _)

/-- The largest magnitude of a family of real numbers is not `+∞`. -/
theorem top_ne_top {ι : Type} [Fintype ι] {f : ι → EReal} (hf : ∀ i, IsReal (f i)) : top f ≠ ⊤ :=
  ((Finset.sup_lt_iff (bot_lt_top : (⊥ : EReal) < ⊤)).2 fun i _ => lt_top_iff_ne_top.2 (isReal_mag (hf i)).1).ne

/-- A tensor of real entries has a real quantisation. -/
theorem isReal_quant {ι : Type} [Fintype ι] {f : ι → EReal} (hf : ∀ i, IsReal (f i)) (i : ι) : IsReal (quant f i) :=
  isReal_onGrid (isReal_step (top_ne_top hf)) _

/-- The layer built from real inputs is real. -/
theorem isReal_pre {x0 x1 : Fin 8192 × Fin 64 → EReal} {f0 f1 : Fin 64 × Fin 64 → EReal} {f2 : Fin 4096 × Fin 64 → EReal}
    {b : Fin 4096 → EReal} (h0 : ∀ p, IsReal (x0 p)) (h1 : ∀ p, IsReal (x1 p)) (hf0 : ∀ p, IsReal (f0 p))
    (hf1 : ∀ p, IsReal (f1 p)) (hf2 : ∀ p, IsReal (f2 p)) (hb : ∀ j, IsReal (b j)) (ij : Fin 8192 × Fin 4096) :
    IsReal (pre x0 x1 f0 f1 f2 b ij) := by
  unfold pre
  refine isReal_add (isReal_sum _ _ fun k _ => isReal_mul (isReal_mul ?_ ?_) (isReal_quant hf2 _)) (hb _)
  · exact isReal_sum _ _ fun a _ => isReal_mul (h0 _) (isReal_quant hf0 _)
  · exact isReal_sum _ _ fun a _ => isReal_mul (h1 _) (isReal_quant hf1 _)

end Cert.RefReal

end
-- ==== Proof.RefSide.lean ====
/-
  The reference's result, read entry by entry. The layer `pre` is quantised on its own grid: the step comes from
  the largest magnitude over all of its entries (a maximum-reduce over both axes from `-∞`), each entry is
  divided by the step, rounded, clipped and multiplied back, and the reference adds the difference from the
  layer back to the layer. The layer's entries are real numbers when the inputs are, so that sum is the
  quantised entry; the positive part of it is the result.
-/
import proofs.«101463_j1391569404120_1_alg».proof.Proof.RefLayer
import proofs.«101463_j1391569404120_1_alg».proof.Proof.RealClosure

noncomputable section

namespace Cert.ReferenceIdeal.RefValue

open Cert.ReferenceIdeal Cert.ReferenceIdeal.Gen Cert.ReferenceIdeal.Read Idealize.ShloMosaic Idealize.ShloMosaic.ValueIdx
open Cert.Spec Cert.RefTop Cert.RefReal

/-- The step of the layer's own grid. -/
theorem step_layer (x0 x1 : S8192x64.Idx → EReal) (x2 x3 : S64x64.Idx → EReal) (x4 : S4096x64.Idx → EReal)
    (x5 : S4096.Idx → EReal) (h2 : ∀ i, IsReal (x2 i)) (h3 : ∀ i, IsReal (x3 i)) (h4 : ∀ i, IsReal (x4 i)) (j : S_.Idx) :
    val_main_v47 (F := Ideal) x0 x1 x2 x3 x4 x5 j
      = step (top (pre (fun q : Fin 8192 × Fin 64 => x0 (ix2 q.1 q.2)) (fun q : Fin 8192 × Fin 64 => x1 (ix2 q.1 q.2)) (fun q : Fin 64 × Fin 64 => x2 (ix2 q.1 q.2)) (fun q : Fin 64 × Fin 64 => x3 (ix2 q.1 q.2)) (fun q : Fin 4096 × Fin 64 => x4 (ix2 q.1 q.2)) (fun j : Fin 4096 => x5 (ix1 j)))) := by
  show max (Ideal.div (Host.reduce (FloatOps.maximumf (F := Ideal) (φ := .f32))
      (fun i => max (val_main_v43 (F := Ideal) x0 x1 x2 x3 x4 x5 i) (-(val_main_v43 (F := Ideal) x0 x1 x2 x3 x4 x5 i)))
      (fun _ => Ideal.ofBits .f32 0xFF800000#32) reducesTo_S8192x4096_S_d0_1 h_S_ j) hi) tiny = _
  rw [reduce_max_mag (val_main_v43 (F := Ideal) x0 x1 x2 x3 x4 x5) _ (fun _ => ofBits_neg_inf),
    show (fun p : Fin 8192 × Fin 4096 => val_main_v43 (F := Ideal) x0 x1 x2 x3 x4 x5 (ix2 p.1 p.2))
      = pre (fun q : Fin 8192 × Fin 64 => x0 (ix2 q.1 q.2)) (fun q : Fin 8192 × Fin 64 => x1 (ix2 q.1 q.2)) (fun q : Fin 64 × Fin 64 => x2 (ix2 q.1 q.2)) (fun q : Fin 64 × Fin 64 => x3 (ix2 q.1 q.2)) (fun q : Fin 4096 × Fin 64 => x4 (ix2 q.1 q.2)) (fun j : Fin 4096 => x5 (ix1 j))
      from funext fun p => layer_eq_pre x0 x1 x2 x3 x4 x5 h2 h3 h4 p]
  rfl

/-- The reference's result at `(i, j)` is `out` at `(i, j)`, for input arrays all of whose entries are real numbers. -/
theorem ref_out (a0 a1 : S8192x64.Idx → EReal) (a2 a3 : S64x64.Idx → EReal) (a4 : S4096x64.Idx → EReal)
    (a5 : S4096.Idx → EReal) (h0 : ∀ i, IsReal (a0 i)) (h1 : ∀ i, IsReal (a1 i)) (h2 : ∀ i, IsReal (a2 i))
    (h3 : ∀ i, IsReal (a3 i)) (h4 : ∀ i, IsReal (a4 i)) (h5 : ∀ i, IsReal (a5 i)) (i : Fin 8192) (j : Fin 4096) :
    val_main_v56 (F := Ideal) a0 a1 a2 a3 a4 a5 (ix2 i j)
      = out (fun q : Fin 8192 × Fin 64 => a0 (ix2 q.1 q.2)) (fun q : Fin 8192 × Fin 64 => a1 (ix2 q.1 q.2)) (fun q : Fin 64 × Fin 64 => a2 (ix2 q.1 q.2)) (fun q : Fin 64 × Fin 64 => a3 (ix2 q.1 q.2)) (fun q : Fin 4096 × Fin 64 => a4 (ix2 q.1 q.2)) (fun j : Fin 4096 => a5 (ix1 j)) (i, j) := by
  have hpre : val_main_v43 (F := Ideal) a0 a1 a2 a3 a4 a5 (ix2 i j)
      = pre (fun q : Fin 8192 × Fin 64 => a0 (ix2 q.1 q.2)) (fun q : Fin 8192 × Fin 64 => a1 (ix2 q.1 q.2)) (fun q : Fin 64 × Fin 64 => a2 (ix2 q.1 q.2)) (fun q : Fin 64 × Fin 64 => a3 (ix2 q.1 q.2)) (fun q : Fin 4096 × Fin 64 => a4 (ix2 q.1 q.2)) (fun j : Fin 4096 => a5 (ix1 j)) (i, j) :=
    layer_eq_pre a0 a1 a2 a3 a4 a5 h2 h3 h4 (i, j)
  have hreal : IsReal (val_main_v43 (F := Ideal) a0 a1 a2 a3 a4 a5 (ix2 i j)) := by
    rw [hpre]
    exact isReal_pre (fun _ => h0 _) (fun _ => h1 _) (fun _ => h2 _) (fun _ => h3 _) (fun _ => h4 _) (fun _ => h5 _) _
  show max (val_main_v43 (F := Ideal) a0 a1 a2 a3 a4 a5 (ix2 i j)
      + (val_main_v53 (F := Ideal) a0 a1 a2 a3 a4 a5 (ix2 i j) - val_main_v43 (F := Ideal) a0 a1 a2 a3 a4 a5 (ix2 i j)))
      (val_main_call8_v0 (F := Ideal) (ix2 i j)) = _
  rw [add_sub_self_of_real hreal, val_main_v53_apply, val_main_v52_apply, val_main_v51_apply, val_main_call7_v4_apply,
    val_main_call7_v2_apply, val_main_call7_v1_apply, val_main_v50_apply, val_main_v49_apply, val_main_v48_apply,
    step_layer a0 a1 a2 a3 a4 a5 h2 h3 h4, hpre, val_main_call8_v0_apply]
  rfl

end Cert.ReferenceIdeal.RefValue

end
-- ==== Proof.RefFinite.lean ====
/-
  Finiteness of the inputs, read back from the printed predicate: the predicate is the conjunction, over the six
  arrays, of "every entry has magnitude below `+∞`"; it evaluates to 1 only if every conjunct does, a reduce by
  `and` over all axes is 1 only if every entry compared is 1, and an extended real of magnitude below `+∞` is
  neither `+∞` nor `-∞`: a real number.
-/
import proofs.«101463_j1391569404120_1_alg».proof.Pre_finite_inputs
import proofs.«101463_j1391569404120_1_alg».proof.Proof.Spec
import Idealize.ShloMosaic.Lib.ReduceAll
import Idealize.ShloMosaic.Lib.ValueIdx

noncomputable section

namespace Cert.RefFinite

open Idealize.ShloMosaic Cert.Spec Cert.Pre_finite_inputs

instance : Subsingleton S_.Idx := ⟨fun a b => funext fun d => d.elim0⟩

/-- An extended real whose magnitude compares below the word `0x7F800000` (`+∞`) is a real number. -/
theorem isReal_of_lt_inf {x : EReal}
    (h : Ideal.cmp .olt (max x (-x)) (Ideal.ofBits .f32 0x7F800000#32) = 1#1) : IsReal x := by
  have ht : Ideal.ofBits .f32 0x7F800000#32 = ⊤ := by simp [Ideal.ofBits, Ideal.ieee]
  have hb : ∀ b : Bool, BitVec.ofBool b = 1#1 → b = true := by decide
  rw [ht] at h
  have h' : max x (-x) < ⊤ := of_decide_eq_true (hb _ h)
  constructor
  · rintro rfl; simp at h'
  · rintro rfl; simp at h'

variable [Facts]

/-- Under the precondition every entry of each of the six arrays is a real number. -/
theorem real_of_pre (a0 a1 : S8192x64.Idx → EReal) (a2 a3 : S64x64.Idx → EReal) (a4 : S4096x64.Idx → EReal)
    (a5 : S4096.Idx → EReal) (h : fn (F := Ideal) a0 a1 a2 a3 a4 a5 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) := by
  have h0 := congrFun h ValueIdx.ix0
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => isReal_of_lt_inf (Host.reduce_andi_all _ _ _ _ _ e0 i),
    fun i => isReal_of_lt_inf (Host.reduce_andi_all _ _ _ _ _ e1 i),
    fun i => isReal_of_lt_inf (Host.reduce_andi_all _ _ _ _ _ e2 i),
    fun i => isReal_of_lt_inf (Host.reduce_andi_all _ _ _ _ _ e3 i),
    fun i => isReal_of_lt_inf (Host.reduce_andi_all _ _ _ _ _ e4 i),
    fun i => isReal_of_lt_inf (Host.reduce_andi_all _ _ _ _ _ e5 i)⟩

end Cert.RefFinite

end
-- ==== Proof.RefRun.lean ====
/-
  The reference's result as the generated run states it: the run's term for the result buffer is the last stage
  of the operation-by-operation reading, so under real inputs it is `Cert.Spec.out` entry by entry; and the
  precondition, read on the reference's own argument buffers, makes the inputs real.
-/
import proofs.«101463_j1391569404120_1_alg».proof.Proof.RefSide
import proofs.«101463_j1391569404120_1_alg».proof.Proof.RefFinite

noncomputable section

namespace Cert.ReferenceIdeal.RefValue

open Cert.ReferenceIdeal Cert.ReferenceIdeal.Gen Cert.ReferenceIdeal.Read Idealize.ShloMosaic Idealize.ShloMosaic.TcCoe
open Idealize.SL.Sem Idealize.ShloMosaic.StableHlo Idealize.ShloMosaic.ValueIdx Cert.Spec

/-- The run's result term at `(i, j)` is `out` at `(i, j)` of the argument buffers, when their entries are real numbers. -/
theorem res_out (m : (ℓ : Loc nD τ sig) → Buf (Elt Ideal) ℓ) (c : Dev nD)
    (h0 : ∀ i, IsReal (m ((c.tc : Thread nD τ).loc main_arg0) i)) (h1 : ∀ i, IsReal (m ((c.tc : Thread nD τ).loc main_arg1) i))
    (h2 : ∀ i, IsReal (m ((c.tc : Thread nD τ).loc main_arg2) i)) (h3 : ∀ i, IsReal (m ((c.tc : Thread nD τ).loc main_arg3) i))
    (h4 : ∀ i, IsReal (m ((c.tc : Thread nD τ).loc main_arg4) i)) (h5 : ∀ i, IsReal (m ((c.tc : Thread nD τ).loc main_arg5) i))
    (i : Fin 8192) (j : Fin 4096) :
    Cert.ReferenceIdeal.Value.res_main_v56 (F := Ideal) m c (ix2 i j)
      = out (fun q : Fin 8192 × Fin 64 => m ((c.tc : Thread nD τ).loc main_arg0) (ix2 q.1 q.2)) (fun q : Fin 8192 × Fin 64 => m ((c.tc : Thread nD τ).loc main_arg1) (ix2 q.1 q.2)) (fun q : Fin 64 × Fin 64 => m ((c.tc : Thread nD τ).loc main_arg2) (ix2 q.1 q.2)) (fun q : Fin 64 × Fin 64 => m ((c.tc : Thread nD τ).loc main_arg3) (ix2 q.1 q.2)) (fun q : Fin 4096 × Fin 64 => m ((c.tc : Thread nD τ).loc main_arg4) (ix2 q.1 q.2)) (fun j : Fin 4096 => m ((c.tc : Thread nD τ).loc main_arg5) (ix1 j)) (i, j) := by
  rw [val_main_v56_eq]
  exact ref_out _ _ _ _ _ _ h0 h1 h2 h3 h4 h5 i j

/-- The same under the precondition on the reference's argument buffers. -/
theorem res_out_of_pre [Cert.Pre_finite_inputs.Facts] (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) (i : Fin 8192) (j : Fin 4096) :
    Cert.ReferenceIdeal.Value.res_main_v56 (F := Ideal) m c (ix2 i j)
      = out (fun q : Fin 8192 × Fin 64 => m ((c.tc : Thread nD τ).loc main_arg0) (ix2 q.1 q.2)) (fun q : Fin 8192 × Fin 64 => m ((c.tc : Thread nD τ).loc main_arg1) (ix2 q.1 q.2)) (fun q : Fin 64 × Fin 64 => m ((c.tc : Thread nD τ).loc main_arg2) (ix2 q.1 q.2)) (fun q : Fin 64 × Fin 64 => m ((c.tc : Thread nD τ).loc main_arg3) (ix2 q.1 q.2)) (fun q : Fin 4096 × Fin 64 => m ((c.tc : Thread nD τ).loc main_arg4) (ix2 q.1 q.2)) (fun j : Fin 4096 => m ((c.tc : Thread nD τ).loc main_arg5) (ix1 j)) (i, j) := by
  obtain ⟨h0, h1, h2, h3, h4, h5⟩ := Cert.RefFinite.real_of_pre _ _ _ _ _ _ hpre
  exact res_out m c h0 h1 h2 h3 h4 h5 i j

end Cert.ReferenceIdeal.RefValue

end
-- ==== Proof.Bridge.lean ====
/-
  The kernel program's result on the extended reals, entry by entry, and the claim between the two programs.

  Region 1 is entered with the layer as region 0 left it and with the step the host lines between compute from
  region 0's [1,1] result; its own result array is `max (onGrid step layer) 0`.  Region 0's two results are the layer
  `pre` of the specification — the factor matrices it is entered with being the host lines' quantised ones — and the
  layer's largest magnitude.  So the result is `Spec.out`.  The reference's result is `Spec.out` of the same
  arguments where they are real numbers, which the precondition gives.
-/
import proofs.«101463_j1391569404120_1_alg».proof.Defs
import proofs.«101463_j1391569404120_1_alg».proof.Proof.KRun
import proofs.«101463_j1391569404120_1_alg».proof.Proof.KVal1
import proofs.«101463_j1391569404120_1_alg».proof.Proof.KVal0Tile
import proofs.«101463_j1391569404120_1_alg».proof.Proof.KVal0Top
import proofs.«101463_j1391569404120_1_alg».proof.Proof.KHostFactors
import proofs.«101463_j1391569404120_1_alg».proof.Proof.KHostStep
import proofs.«101463_j1391569404120_1_alg».proof.Proof.RefRun
import proofs.«101463_j1391569404120_1_alg».proof.Proof.Gen.Pre_finite_inputs
import proofs.«101463_j1391569404120_1_alg».proof.Proof.Gen.KernelIdeal
import proofs.«101463_j1391569404120_1_alg».proof.Proof.Gen.ReferenceIdeal

set_option maxRecDepth 16384

noncomputable section

namespace Cert.Bridge

open Idealize.ShloMosaic Idealize.ShloMosaic.TcCoe Idealize.SL.Sem
open Idealize.ShloMosaic.ValueIdx
open Cert.KernelIdeal Cert.KernelIdeal.Gen Cert.KernelIdeal.Val

section Kernel

variable (m : (ℓ : Loc nD τ sig) → Buf (Elt Ideal) ℓ) (c : Dev nD)

/-- Region 1 finds the layer as region 0 left it: the host lines between do not write it. -/
theorem entry1_layer : VR1 (F := Ideal) m c main_v32_0 = res0_0 m c := by
  show W15 m c main_v32_0 = _
  rw [← V15_eq, V15_of m (outs m) c main_v32_0 (by decide), V14_eq,
    Function.update_of_ne (StableHlo.devRef_ne_of_ne (by decide)), Function.update_self]

/-- The program's result array: the layer on the grid of the step region 1 is entered with, then the positive part. -/
theorem res1_eq : res1 (F := Ideal) m c
    = fun i : S8192x4096.Idx => max (Cert.Spec.onGrid (W15 m c main_v36 (ix2 (0 : Fin 1) (0 : Fin 1))) (res0_0 m c i)) Cert.Spec.zero := by
  have h := final1 (VR1 (F := Ideal) m) c
  rw [entry1_layer] at h
  exact h

/-! ## The specification's families, read off the launch memory -/

abbrev X0 : Fin 8192 × Fin 64 → EReal := fun p => (m ((c : Thread nD τ).loc main_arg0) : (⟨S8192x64, .f32⟩ : BufTy).Contents (Elt Ideal)) (ix2 p.1 p.2)
abbrev X1 : Fin 8192 × Fin 64 → EReal := fun p => (m ((c : Thread nD τ).loc main_arg1) : (⟨S8192x64, .f32⟩ : BufTy).Contents (Elt Ideal)) (ix2 p.1 p.2)
abbrev F0 : Fin 64 × Fin 64 → EReal := fun p => (m ((c : Thread nD τ).loc main_arg2) : (⟨S64x64, .f32⟩ : BufTy).Contents (Elt Ideal)) (ix2 p.1 p.2)
abbrev F1 : Fin 64 × Fin 64 → EReal := fun p => (m ((c : Thread nD τ).loc main_arg3) : (⟨S64x64, .f32⟩ : BufTy).Contents (Elt Ideal)) (ix2 p.1 p.2)
abbrev F2 : Fin 4096 × Fin 64 → EReal := fun p => (m ((c : Thread nD τ).loc main_arg4) : (⟨S4096x64, .f32⟩ : BufTy).Contents (Elt Ideal)) (ix2 p.1 p.2)
abbrev B5 : Fin 4096 → EReal := fun j => (m ((c : Thread nD τ).loc main_arg5) : (⟨S4096, .f32⟩ : BufTy).Contents (Elt Ideal)) (ix1 j)

/-- The layer's entry, over what region 0 is entered with, is the specification's: the factor matrices it finds
    are the quantised ones, the bias row the bias, the two data arrays the arguments. -/
theorem layer_eq_pre (r : Fin 8192) (q : Fin 4096) :
    layerAt (VR0 (F := Ideal) m) c r q = Cert.Spec.pre (X0 m c) (X1 m c) (F0 m c) (F1 m c) (F2 m c) (B5 m c) (r, q) := by
  unfold layerAt Cert.Spec.pre
  refine congrArg₂ (· + ·) (Finset.sum_congr rfl fun k _ => ?_) (Cert.KernelIdeal.HostVal.V13_main_v31_apply m c q)
  refine congrArg₂ (· * ·) (congrArg₂ (· * ·) (Finset.sum_congr rfl fun a _ => ?_) (Finset.sum_congr rfl fun a _ => ?_))
    (Cert.KernelIdeal.HostVal.V13_main_v30_apply m c k q)
  · exact congrArg₂ (· * ·) (congrFun (Cert.KernelIdeal.HostVal.V13_main_arg0 m c) (ix2 r a)) (Cert.KernelIdeal.HostVal.V13_main_v9_apply m c a k)
  · exact congrArg₂ (· * ·) (congrFun (Cert.KernelIdeal.HostVal.V13_main_arg1 m c) (ix2 r a)) (Cert.KernelIdeal.HostVal.V13_main_v19_apply m c a k)

/-- The step region 1 is entered with: the step of region 0's [1,1] result. -/
theorem entry1_step : (W15 (F := Ideal) m c main_v36 : S1x1.Idx → EReal) (ix2 (0 : Fin 1) (0 : Fin 1))
    = Cert.Spec.step ((res0_1 (F := Ideal) m c : S1x1.Idx → EReal) (ix2 (0 : Fin 1) (0 : Fin 1))) := by
  have h := Cert.KernelIdeal.HostVal.step_apply (Function.update (Function.update (V13 m c) main_v32_0 (res0_0 m c)) main_v32_1 (res0_1 m c))
  rw [Function.update_self] at h
  exact h

/-- THE KERNEL PROGRAM'S RESULT, entry by entry: the specification's. -/
theorem kernel_out (i : Fin 8192) (j : Fin 4096) :
    (res1 (F := Ideal) m c : S8192x4096.Idx → EReal) (ix2 i j)
      = Cert.Spec.out (X0 m c) (X1 m c) (F0 m c) (F1 m c) (F2 m c) (B5 m c) (i, j) := by
  rw [res1_eq]
  show max (Cert.Spec.onGrid ((W15 (F := Ideal) m c main_v36 : S1x1.Idx → EReal) (ix2 (0 : Fin 1) (0 : Fin 1))) ((res0_0 (F := Ideal) m c : S8192x4096.Idx → EReal) (ix2 i j))) Cert.Spec.zero = _
  rw [entry1_step]
  have hmax : (res0_1 (F := Ideal) m c : S1x1.Idx → EReal) (ix2 (0 : Fin 1) (0 : Fin 1))
      = Cert.Spec.top (Cert.Spec.pre (X0 m c) (X1 m c) (F0 m c) (F1 m c) (F2 m c) (B5 m c)) := by
    refine (final0_max (VR0 (F := Ideal) m) c).trans ?_
    exact congrArg Cert.Spec.top (funext fun ij => layer_eq_pre m c ij.1 ij.2)
  have hlay : (res0_0 (F := Ideal) m c : S8192x4096.Idx → EReal) (ix2 i j)
      = Cert.Spec.pre (X0 m c) (X1 m c) (F0 m c) (F1 m c) (F2 m c) (B5 m c) (i, j) :=
    (final0_tile_apply (VR0 (F := Ideal) m) c i j).trans (layer_eq_pre m c i j)
  rw [hmax, hlay]
  rfl

end Kernel

/-! ## The claim between the two programs -/

/-- At the extended reals the kernel program and the reference, from memories agreeing on the arguments, both run
    to the end, with equal results entry by entry and unchanged arguments: the kernel's result is the specification's
    whatever the inputs; the reference's is the specification's because the inputs are finite. -/
theorem algebraic : Cert.algebraic_KernelIdeal_ReferenceIdeal := by
  intro m ρ m' ρ' hpre hagree
  refine ⟨fun c => res1 (F := Ideal) m c, Cert.KernelIdeal.Gen.run_all (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5⟩ := hagree c
  have hpre' : Cert.Pre_finite_inputs.fn (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = fun _ => 1#1 := by
    rw [e0, e1, e2, e3, e4, e5]; exact hpre c
  funext idx
  obtain ⟨i, j, rfl⟩ : ∃ (i : Fin 8192) (j : Fin 4096), idx = ix2 i j := ⟨idx 0, idx 1, eq_ix2 idx⟩
  refine (Cert.ReferenceIdeal.RefValue.res_out_of_pre m' c hpre' i j).trans ?_
  rw [e0, e1, e2, e3, e4, e5]
  exact (kernel_out m c i j).symm

end Cert.Bridge

end
-- ==== Proof.lean ====
/-
  The five claims of this certificate.

  The kernel program is two pallas_calls around host lines: the first computes the layer
  `((x0·q0) ∘ (x1·q1))·q2ᵀ + bias` tile by tile (`q0 q1 q2` the factor matrices quantised on their own int8 grids by
  host lines) and keeps the layer's largest magnitude in a scratch carried from tile to tile; host lines turn that into
  the layer's own grid step; the second quantises the layer on that grid and takes the positive part.  The reference
  computes the same with whole-array operations, adding back `y + (quant y − y)` where the kernel uses `quant y`.

  Frames: each program's run to the end, argument arrays unchanged — for the two kernel programs from the run of
  the whole program over its two regions (region 0's three control cases by symbolic execution, its scratch named
  point by point in the region invariant), at the word-level instance and at the extended reals alike; for the
  reference from its host run.  `preserves` has no conjunct: the idealization rewrote no operation.  `algebraic`:
  on the extended reals both results are `max (quant pre (i, j)) 0` entry by entry; the add-back collapses because
  every entry involved is a real number, which is where the inputs' finiteness is used.
-/
import proofs.«101463_j1391569404120_1_alg».proof.Defs
import proofs.«101463_j1391569404120_1_alg».proof.Proof.Gen.Kernel
import proofs.«101463_j1391569404120_1_alg».proof.Proof.Gen.KernelIdeal
import proofs.«101463_j1391569404120_1_alg».proof.Proof.Gen.ReferenceIdeal
import proofs.«101463_j1391569404120_1_alg».proof.Proof.Gen.ReferenceIdeal.Run
import proofs.«101463_j1391569404120_1_alg».proof.Proof.Gen.Pre_finite_inputs
import proofs.«101463_j1391569404120_1_alg».proof.Proof.BKRun
import proofs.«101463_j1391569404120_1_alg».proof.Proof.KRun
import proofs.«101463_j1391569404120_1_alg».proof.Proof.Bridge
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ =>
  (θ_run Cert.Kernel.defs _ _).mono (fun _ h c => (h c).2) (Cert.Kernel.Gen.run_all (F := Bits) m ρ)

/-- So does the idealized one. -/
theorem frame_ki : Cert.frame_KernelIdeal := fun m ρ _ =>
  (θ_run Cert.KernelIdeal.defs _ _).mono (fun _ h c => (h c).2) (Cert.KernelIdeal.Gen.run_all (F := Ideal) m ρ)

/-- The reference's frame is its host run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Bridge.algebraic⟩

end Cert.Proof

end
